-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_5" .f32 0x3E4CCCCD#32 ((1 / 5 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S2000000 : Shape := ⟨1, ![2000000]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S500000 .f32) (main_arg1 : FVec F S2000000 .f32) (main_arg2 : IVec S2000000 32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  main_v8
-- ==== Kernel.lean ====
abbrev S500000 : Shape := ⟨1, ![500000]⟩
abbrev S2000000 : Shape := ⟨1, ![2000000]⟩
abbrev S_ : Shape := ⟨0, ![]⟩
abbrev S2000000x1 : Shape := ⟨2, ![2000000, 1]⟩
abbrev S2000896 : Shape := ⟨1, ![2000896]⟩
abbrev S2000896x42 : Shape := ⟨2, ![2000896, 42]⟩
abbrev S1024 : Shape := ⟨1, ![1024]⟩
abbrev S1024x42 : Shape := ⟨2, ![1024, 42]⟩
abbrev S1024x1 : Shape := ⟨2, ![1024, 1]⟩
abbrev S2000000x42 : Shape := ⟨2, ![2000000, 42]⟩

abbrev nBuf : Space → Nat
  | .hbm => 20
  | .vmem => 6
  | .smem => 0
  | _ => 0

abbrev bufTy : (tb : Table) → Fin (tcTables nBuf tb) → BufTy
  | .hbm, ⟨0, _⟩ => ⟨S500000, .f32⟩
  | .hbm, ⟨1, _⟩ => ⟨S2000000, .f32⟩
  | .hbm, ⟨2, _⟩ => ⟨S2000000, .i32⟩
  | .hbm, ⟨3, _⟩ => ⟨S_, .i32⟩
  | .hbm, ⟨4, _⟩ => ⟨S2000000, .i32⟩
  | .hbm, ⟨5, _⟩ => ⟨S2000000, .i1⟩
  | .hbm, ⟨6, _⟩ => ⟨S_, .i32⟩
  | .hbm, ⟨7, _⟩ => ⟨S2000000, .i32⟩
  | .hbm, ⟨8, _⟩ => ⟨S2000000, .i32⟩
  | .hbm, ⟨9, _⟩ => ⟨S2000000, .i32⟩
  | .hbm, ⟨10, _⟩ => ⟨S2000000x1, .i32⟩
  | .hbm, ⟨11, _⟩ => ⟨S2000000, .f32⟩
  | .hbm, ⟨12, _⟩ => ⟨S_, .f32⟩
  | .hbm, ⟨13, _⟩ => ⟨S_, .f32⟩
  | .hbm, ⟨14, _⟩ => ⟨S2000896, .f32⟩
  | .hbm, ⟨15, _⟩ => ⟨S_, .f32⟩
  | .hbm, ⟨16, _⟩ => ⟨S_, .f32⟩
  | .hbm, ⟨17, _⟩ => ⟨S2000896, .f32⟩
  | .hbm, ⟨18, _⟩ => ⟨S2000896x42, .f32⟩
  | .hbm, ⟨19, _⟩ => ⟨S2000000x42, .f32⟩
  | .local _ .vmem, ⟨0, _⟩ => ⟨S1024, .f32⟩
  | .local _ .vmem, ⟨1, _⟩ => ⟨S1024, .f32⟩
  | .local _ .vmem, ⟨2, _⟩ => ⟨S1024, .f32⟩
  | .local _ .vmem, ⟨3, _⟩ => ⟨S1024, .f32⟩
  | .local _ .vmem, ⟨4, _⟩ => ⟨S1024x42, .f32⟩
  | .local _ .vmem, ⟨5, _⟩ => ⟨S1024x42, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_v0 : Ref sig .tc := ⟨.hbm, 13, rfl⟩
abbrev main_v7 : Ref sig .tc := ⟨.hbm, 14, rfl⟩
abbrev main_cst_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![1954], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x42 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  pads_S2000000_S2000896_08960 : S2000000.Pads (![0] : Fin 1 → Nat) ![896] ![0] S2000896
  h_S_ : 0 < S_.numel
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  concatenates_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x42_d1 : Shape.Concatenates (S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: S1024x1 :: []) S1024x42 1
  inb_S1024x42_S1024x42_0_0 : ∀ a, (![0, 0] : Fin 2 → Nat) a + S1024x42.size a ≤ S1024x42.size a
  h_S1024x42 : 0 < S1024x42.numel
  slices_S2000896x42_S2000000x42_0_0 : S2000896x42.Slices ![0, 0] S2000000x42
  gather_S500000_S2000000x1_S2000000_n_0_n_n_0_1_1_wf : GatherDims.WF S500000 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S2000896.size a
  hwx0_0 : ∀ i : grid0.Coords, EltTy.bits .f32 = 32 ∨ (Rect.block (s := S2000896) S1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S2000896.size a
  hwx0_1 : ∀ i : grid0.Coords, EltTy.bits .f32 = 32 ∨ (Rect.block (s := S2000896) S1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x42.size a ≤ S2000896x42.size a
  hwx0_2 : ∀ i : grid0.Coords, EltTy.bits .f32 = 32 ∨ (Rect.block (s := S2000896x42) S1024x42.size (cc0_transform_2 i) (hinb0_2 i)).WholeWords (EltTy.packing .f32)

variable [Facts₀]

def gather_S500000_S2000000x1_S2000000_n_0_n_n_0_1_1 : GatherDims S500000 S2000000x1 S2000000 where
  offsetDims := []
  collapsedSliceDims := [0]
  operandBatchingDims := []
  startIndicesBatchingDims := []
  startIndexMap := [0]
  indexVectorDim := 1
  sliceSizes := ![1]
  wf := gather_S500000_S2000000x1_S2000000_n_0_n_n_0_1_1_wf

abbrev win0_0 : Pipeline.Window sig grid0 :=
  Pipeline.Window.ofSpec (Memref.whole main_v7) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x42.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000 : Shape := ⟨1, ![500000]⟩
abbrev S2000000 : Shape := ⟨1, ![2000000]⟩
abbrev S7x6 : Shape := ⟨2, ![7, 6]⟩
abbrev S7 : Shape := ⟨1, ![7]⟩
abbrev S_ : Shape := ⟨0, ![]⟩
abbrev S1x6 : Shape := ⟨2, ![1, 6]⟩
abbrev S6 : Shape := ⟨1, ![6]⟩
abbrev S500000x1 : Shape := ⟨2, ![500000, 1]⟩
abbrev S500000x6 : Shape := ⟨2, ![500000, 6]⟩
abbrev S500000x1x6 : Shape := ⟨3, ![500000, 1, 6]⟩
abbrev S500000x7x6 : Shape := ⟨3, ![500000, 7, 6]⟩
abbrev S500000x1x1 : Shape := ⟨3, ![500000, 1, 1]⟩
abbrev S2000000x1 : Shape := ⟨2, ![2000000, 1]⟩
abbrev S2000000x7 : Shape := ⟨2, ![2000000, 7]⟩
abbrev S1x7 : Shape := ⟨2, ![1, 7]⟩
abbrev S2000000x7x6 : Shape := ⟨3, ![2000000, 7, 6]⟩
abbrev S2000000x7x1 : Shape := ⟨3, ![2000000, 7, 1]⟩
abbrev S2000000x42 : Shape := ⟨2, ![2000000, 42]⟩

abbrev nBuf : Space → Nat
  | .hbm => 337
  | .vmem => 0
  | .smem => 0
  | _ => 0

abbrev hbmTy0_0 (i : Nat) : BufTy := match i % 128 with
  | 0 => ⟨S500000, .f32⟩
  | 1 => ⟨S2000000, .f32⟩
  | 2 => ⟨S2000000, .i32⟩
  | 3 => ⟨S7x6, .f32⟩
  | 4 => ⟨S7x6, .f32⟩
  | 5 => ⟨S7, .f32⟩
  | 6 => ⟨S_, .f32⟩
  | 7 => ⟨S500000, .f32⟩
  | 8 => ⟨S500000, .f32⟩
  | 9 => ⟨S1x6, .f32⟩
  | 10 => ⟨S6, .f32⟩
  | 11 => ⟨S1x6, .f32⟩
  | 12 => ⟨S6, .f32⟩
  | 13 => ⟨S500000x1, .f32⟩
  | 14 => ⟨S1x6, .f32⟩
  | 15 => ⟨S500000x6, .f32⟩
  | 16 => ⟨S500000x6, .f32⟩
  | 17 => ⟨S500000x6, .f32⟩
  | 18 => ⟨S500000x6, .f32⟩
  | 19 => ⟨S500000x6, .f32⟩
  | 20 => ⟨S1x6, .f32⟩
  | 21 => ⟨S500000x6, .f32⟩
  | 22 => ⟨S500000x6, .f32⟩
  | 23 => ⟨S1x6, .f32⟩
  | 24 => ⟨S6, .f32⟩
  | 25 => ⟨S1x6, .f32⟩
  | 26 => ⟨S6, .f32⟩
  | 27 => ⟨S500000x1, .f32⟩
  | 28 => ⟨S1x6, .f32⟩
  | 29 => ⟨S500000x6, .f32⟩
  | 30 => ⟨S500000x6, .f32⟩
  | 31 => ⟨S500000x6, .f32⟩
  | 32 => ⟨S500000x6, .f32⟩
  | 33 => ⟨S500000x6, .f32⟩
  | 34 => ⟨S500000x6, .f32⟩
  | 35 => ⟨S500000x6, .f32⟩
  | 36 => ⟨S500000x6, .f32⟩
  | 37 => ⟨S500000x6, .f32⟩
  | 38 => ⟨S500000x6, .f32⟩
  | 39 => ⟨S500000x6, .f32⟩
  | 40 => ⟨S1x6, .f32⟩
  | 41 => ⟨S500000x6, .f32⟩
  | 42 => ⟨S500000x6, .f32⟩
  | 43 => ⟨S1x6, .f32⟩
  | 44 => ⟨S6, .f32⟩
  | 45 => ⟨S1x6, .f32⟩
  | 46 => ⟨S6, .f32⟩
  | 47 => ⟨S500000x1, .f32⟩
  | 48 => ⟨S1x6, .f32⟩
  | 49 => ⟨S500000x6, .f32⟩
  | 50 => ⟨S500000x6, .f32⟩
  | 51 => ⟨S500000x6, .f32⟩
  | 52 => ⟨S500000x6, .f32⟩
  | 53 => ⟨S500000x6, .f32⟩
  | 54 => ⟨S500000x6, .f32⟩
  | 55 => ⟨S500000x6, .f32⟩
  | 56 => ⟨S500000x6, .f32⟩
  | 57 => ⟨S500000x6, .f32⟩
  | 58 => ⟨S500000x6, .f32⟩
  | 59 => ⟨S500000x6, .f32⟩
  | 60 => ⟨S_, .f32⟩
  | 61 => ⟨S500000x6, .f32⟩
  | 62 => ⟨S500000x6, .f32⟩
  | 63 => ⟨S500000x6, .f32⟩
  | 64 => ⟨S500000x6, .f32⟩
  | 65 => ⟨S1x6, .f32⟩
  | 66 => ⟨S500000x6, .f32⟩
  | 67 => ⟨S500000x6, .f32⟩
  | 68 => ⟨S1x6, .f32⟩
  | 69 => ⟨S6, .f32⟩
  | 70 => ⟨S1x6, .f32⟩
  | 71 => ⟨S6, .f32⟩
  | 72 => ⟨S500000x1, .f32⟩
  | 73 => ⟨S1x6, .f32⟩
  | 74 => ⟨S500000x6, .f32⟩
  | 75 => ⟨S500000x6, .f32⟩
  | 76 => ⟨S500000x6, .f32⟩
  | 77 => ⟨S500000x6, .f32⟩
  | 78 => ⟨S500000x6, .f32⟩
  | 79 => ⟨S500000x6, .f32⟩
  | 80 => ⟨S500000x6, .f32⟩
  | 81 => ⟨S500000x6, .f32⟩
  | 82 => ⟨S500000x6, .f32⟩
  | 83 => ⟨S500000x6, .f32⟩
  | 84 => ⟨S500000x6, .f32⟩
  | 85 => ⟨S_, .f32⟩
  | 86 => ⟨S500000x6, .f32⟩
  | 87 => ⟨S500000x6, .f32⟩
  | 88 => ⟨S500000x6, .f32⟩
  | 89 => ⟨S500000x6, .f32⟩
  | 90 => ⟨S_, .f32⟩
  | 91 => ⟨S500000x6, .f32⟩
  | 92 => ⟨S500000x6, .f32⟩
  | 93 => ⟨S500000x6, .f32⟩
  | 94 => ⟨S500000x6, .f32⟩
  | 95 => ⟨S1x6, .f32⟩
  | 96 => ⟨S500000x6, .f32⟩
  | 97 => ⟨S500000x6, .f32⟩
  | 98 => ⟨S1x6, .f32⟩
  | 99 => ⟨S6, .f32⟩
  | 100 => ⟨S1x6, .f32⟩
  | 101 => ⟨S6, .f32⟩
  | 102 => ⟨S500000x1, .f32⟩
  | 103 => ⟨S1x6, .f32⟩
  | 104 => ⟨S500000x6, .f32⟩
  | 105 => ⟨S500000x6, .f32⟩
  | 106 => ⟨S500000x6, .f32⟩
  | 107 => ⟨S500000x6, .f32⟩
  | 108 => ⟨S500000x6, .f32⟩
  | 109 => ⟨S500000x6, .f32⟩
  | 110 => ⟨S500000x6, .f32⟩
  | 111 => ⟨S500000x6, .f32⟩
  | 112 => ⟨S500000x6, .f32⟩
  | 113 => ⟨S500000x6, .f32⟩
  | 114 => ⟨S500000x6, .f32⟩
  | 115 => ⟨S_, .f32⟩
  | 116 => ⟨S500000x6, .f32⟩
  | 117 => ⟨S500000x6, .f32⟩
  | 118 => ⟨S500000x6, .f32⟩
  | 119 => ⟨S500000x6, .f32⟩
  | 120 => ⟨S_, .f32⟩
  | 121 => ⟨S500000x6, .f32⟩
  | 122 => ⟨S500000x6, .f32⟩
  | 123 => ⟨S500000x6, .f32⟩
  | 124 => ⟨S500000x6, .f32⟩
  | 125 => ⟨S_, .f32⟩
  | 126 => ⟨S500000x6, .f32⟩
  | 127 => ⟨S500000x6, .f32⟩
  | _ => ⟨S500000, .f32⟩

abbrev hbmTy0_1 (i : Nat) : BufTy := match i % 128 with
  | 0 => ⟨S500000x6, .f32⟩
  | 1 => ⟨S500000x6, .f32⟩
  | 2 => ⟨S1x6, .f32⟩
  | 3 => ⟨S500000x6, .f32⟩
  | 4 => ⟨S500000x6, .f32⟩
  | 5 => ⟨S1x6, .f32⟩
  | 6 => ⟨S6, .f32⟩
  | 7 => ⟨S1x6, .f32⟩
  | 8 => ⟨S6, .f32⟩
  | 9 => ⟨S500000x1, .f32⟩
  | 10 => ⟨S1x6, .f32⟩
  | 11 => ⟨S500000x6, .f32⟩
  | 12 => ⟨S500000x6, .f32⟩
  | 13 => ⟨S500000x6, .f32⟩
  | 14 => ⟨S500000x6, .f32⟩
  | 15 => ⟨S500000x6, .f32⟩
  | 16 => ⟨S500000x6, .f32⟩
  | 17 => ⟨S500000x6, .f32⟩
  | 18 => ⟨S500000x6, .f32⟩
  | 19 => ⟨S500000x6, .f32⟩
  | 20 => ⟨S500000x6, .f32⟩
  | 21 => ⟨S500000x6, .f32⟩
  | 22 => ⟨S_, .f32⟩
  | 23 => ⟨S500000x6, .f32⟩
  | 24 => ⟨S500000x6, .f32⟩
  | 25 => ⟨S500000x6, .f32⟩
  | 26 => ⟨S500000x6, .f32⟩
  | 27 => ⟨S_, .f32⟩
  | 28 => ⟨S500000x6, .f32⟩
  | 29 => ⟨S500000x6, .f32⟩
  | 30 => ⟨S500000x6, .f32⟩
  | 31 => ⟨S500000x6, .f32⟩
  | 32 => ⟨S_, .f32⟩
  | 33 => ⟨S500000x6, .f32⟩
  | 34 => ⟨S500000x6, .f32⟩
  | 35 => ⟨S500000x6, .f32⟩
  | 36 => ⟨S500000x6, .f32⟩
  | 37 => ⟨S_, .f32⟩
  | 38 => ⟨S500000x6, .f32⟩
  | 39 => ⟨S500000x6, .f32⟩
  | 40 => ⟨S500000x6, .f32⟩
  | 41 => ⟨S500000x6, .f32⟩
  | 42 => ⟨S1x6, .f32⟩
  | 43 => ⟨S500000x6, .f32⟩
  | 44 => ⟨S500000x6, .f32⟩
  | 45 => ⟨S1x6, .f32⟩
  | 46 => ⟨S6, .f32⟩
  | 47 => ⟨S1x6, .f32⟩
  | 48 => ⟨S6, .f32⟩
  | 49 => ⟨S500000x1, .f32⟩
  | 50 => ⟨S1x6, .f32⟩
  | 51 => ⟨S500000x6, .f32⟩
  | 52 => ⟨S500000x6, .f32⟩
  | 53 => ⟨S500000x6, .f32⟩
  | 54 => ⟨S500000x6, .f32⟩
  | 55 => ⟨S500000x6, .f32⟩
  | 56 => ⟨S500000x6, .f32⟩
  | 57 => ⟨S500000x6, .f32⟩
  | 58 => ⟨S500000x6, .f32⟩
  | 59 => ⟨S500000x6, .f32⟩
  | 60 => ⟨S500000x6, .f32⟩
  | 61 => ⟨S500000x6, .f32⟩
  | 62 => ⟨S_, .f32⟩
  | 63 => ⟨S500000x6, .f32⟩
  | 64 => ⟨S500000x6, .f32⟩
  | 65 => ⟨S500000x6, .f32⟩
  | 66 => ⟨S500000x6, .f32⟩
  | 67 => ⟨S_, .f32⟩
  | 68 => ⟨S500000x6, .f32⟩
  | 69 => ⟨S500000x6, .f32⟩
  | 70 => ⟨S500000x6, .f32⟩
  | 71 => ⟨S500000x6, .f32⟩
  | 72 => ⟨S_, .f32⟩
  | 73 => ⟨S500000x6, .f32⟩
  | 74 => ⟨S500000x6, .f32⟩
  | 75 => ⟨S500000x6, .f32⟩
  | 76 => ⟨S500000x6, .f32⟩
  | 77 => ⟨S_, .f32⟩
  | 78 => ⟨S500000x6, .f32⟩
  | 79 => ⟨S500000x6, .f32⟩
  | 80 => ⟨S500000x6, .f32⟩
  | 81 => ⟨S500000x6, .f32⟩
  | 82 => ⟨S_, .f32⟩
  | 83 => ⟨S500000x6, .f32⟩
  | 84 => ⟨S500000x6, .f32⟩
  | 85 => ⟨S500000x6, .f32⟩
  | 86 => ⟨S500000x6, .f32⟩
  | 87 => ⟨S1x6, .f32⟩
  | 88 => ⟨S500000x6, .f32⟩
  | 89 => ⟨S500000x6, .f32⟩
  | 90 => ⟨S500000x1x6, .f32⟩
  | 91 => ⟨S500000x1x6, .f32⟩
  | 92 => ⟨S500000x1x6, .f32⟩
  | 93 => ⟨S500000x1x6, .f32⟩
  | 94 => ⟨S500000x1x6, .f32⟩
  | 95 => ⟨S500000x1x6, .f32⟩
  | 96 => ⟨S500000x1x6, .f32⟩
  | 97 => ⟨S500000x7x6, .f32⟩
  | 98 => ⟨S500000, .f32⟩
  | 99 => ⟨S500000, .f32⟩
  | 100 => ⟨S500000, .f32⟩
  | 101 => ⟨S500000, .f32⟩
  | 102 => ⟨S_, .f32⟩
  | 103 => ⟨S500000, .f32⟩
  | 104 => ⟨S500000, .f32⟩
  | 105 => ⟨S_, .f32⟩
  | 106 => ⟨S500000, .f32⟩
  | 107 => ⟨S500000, .f32⟩
  | 108 => ⟨S500000, .f32⟩
  | 109 => ⟨S_, .f32⟩
  | 110 => ⟨S500000, .f32⟩
  | 111 => ⟨S500000, .f32⟩
  | 112 => ⟨S500000, .f32⟩
  | 113 => ⟨S_, .f32⟩
  | 114 => ⟨S500000, .f32⟩
  | 115 => ⟨S500000, .f32⟩
  | 116 => ⟨S500000, .f32⟩
  | 117 => ⟨S500000, .f32⟩
  | 118 => ⟨S_, .f32⟩
  | 119 => ⟨S500000, .f32⟩
  | 120 => ⟨S500000, .i1⟩
  | 121 => ⟨S_, .f32⟩
  | 122 => ⟨S500000, .f32⟩
  | 123 => ⟨S500000, .f32⟩
  | 124 => ⟨S500000x1x1, .f32⟩
  | 125 => ⟨S500000x7x6, .f32⟩
  | 126 => ⟨S500000x7x6, .f32⟩
  | 127 => ⟨S2000000, .f32⟩
  | _ => ⟨S500000, .f32⟩

abbrev hbmTy0_2 (i : Nat) : BufTy := match i % 128 with
  | 0 => ⟨S_, .f32⟩
  | 1 => ⟨S2000000, .f32⟩
  | 2 => ⟨S_, .f32⟩
  | 3 => ⟨S2000000, .f32⟩
  | 4 => ⟨S2000000, .f32⟩
  | 5 => ⟨S2000000, .f32⟩
  | 6 => ⟨S_, .f32⟩
  | 7 => ⟨S2000000, .f32⟩
  | 8 => ⟨S2000000, .f32⟩
  | 9 => ⟨S2000000, .f32⟩
  | 10 => ⟨S_, .f32⟩
  | 11 => ⟨S2000000, .f32⟩
  | 12 => ⟨S2000000, .f32⟩
  | 13 => ⟨S_, .f32⟩
  | 14 => ⟨S2000000, .f32⟩
  | 15 => ⟨S2000000, .f32⟩
  | 16 => ⟨S2000000, .f32⟩
  | 17 => ⟨S_, .f32⟩
  | 18 => ⟨S2000000, .f32⟩
  | 19 => ⟨S2000000, .f32⟩
  | 20 => ⟨S2000000, .f32⟩
  | 21 => ⟨S_, .f32⟩
  | 22 => ⟨S2000000, .f32⟩
  | 23 => ⟨S2000000, .f32⟩
  | 24 => ⟨S_, .f32⟩
  | 25 => ⟨S2000000, .f32⟩
  | 26 => ⟨S2000000, .f32⟩
  | 27 => ⟨S2000000, .f32⟩
  | 28 => ⟨S_, .f32⟩
  | 29 => ⟨S2000000, .f32⟩
  | 30 => ⟨S2000000, .f32⟩
  | 31 => ⟨S2000000, .f32⟩
  | 32 => ⟨S_, .f32⟩
  | 33 => ⟨S2000000, .f32⟩
  | 34 => ⟨S2000000, .f32⟩
  | 35 => ⟨S_, .f32⟩
  | 36 => ⟨S2000000, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S2000000, .f32⟩
  | 43 => ⟨S_, .f32⟩
  | 44 => ⟨S2000000, .f32⟩
  | 45 => ⟨S2000000, .f32⟩
  | 46 => ⟨S_, .f32⟩
  | 47 => ⟨S2000000, .f32⟩
  | 48 => ⟨S2000000, .f32⟩
  | 49 => ⟨S2000000, .f32⟩
  | 50 => ⟨S_, .f32⟩
  | 51 => ⟨S2000000, .f32⟩
  | 52 => ⟨S2000000, .f32⟩
  | 53 => ⟨S2000000, .f32⟩
  | 54 => ⟨S_, .f32⟩
  | 55 => ⟨S2000000, .f32⟩
  | 56 => ⟨S2000000, .f32⟩
  | 57 => ⟨S2000000x1, .f32⟩
  | 58 => ⟨S2000000x1, .f32⟩
  | 59 => ⟨S2000000x1, .f32⟩
  | 60 => ⟨S2000000x1, .f32⟩
  | 61 => ⟨S2000000x1, .f32⟩
  | 62 => ⟨S2000000x1, .f32⟩
  | 63 => ⟨S2000000x1, .f32⟩
  | 64 => ⟨S2000000x7, .f32⟩
  | 65 => ⟨S1x7, .f32⟩
  | 66 => ⟨S2000000x7, .f32⟩
  | 67 => ⟨S2000000x7, .f32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i32⟩
  | 74 => ⟨S2000000, .i32⟩
  | 75 => ⟨S2000000x1, .i32⟩
  | 76 => ⟨S2000000x7x6, .f32⟩
  | 77 => ⟨S2000000x7x1, .f32⟩
  | 78 => ⟨S2000000x7x6, .f32⟩
  | 79 => ⟨S2000000x7x6, .f32⟩
  | 80 => ⟨S2000000x42, .f32⟩
  | _ => ⟨S500000, .f32⟩

abbrev hbmTy (i : Nat) : BufTy := match i / 128 with
  | 0 => hbmTy0_0 i
  | 1 => hbmTy0_1 i
  | 2 => hbmTy0_2 i
  | _ => ⟨S500000, .f32⟩

abbrev bufTy : (tb : Table) → Fin (tcTables nBuf tb) → BufTy
  | .hbm, ⟨i, _⟩ => hbmTy i
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_3 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_cst_4 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_cst_5 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_cst_6 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_cst_7 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_cst_8 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_cst_9 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_cst_10 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_cst_11 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_cst_12 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_cst_13 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_cst_14 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_cst_15 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_cst_16 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_cst_17 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_cst_18 : Ref sig .tc := ⟨.hbm, 230, rfl⟩
abbrev main_v208 : Ref sig .tc := ⟨.hbm, 231, rfl⟩
abbrev main_v209 : Ref sig .tc := ⟨.hbm, 232, rfl⟩
abbrev main_cst_19 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_cst_20 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_cst_21 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_cst_22 : Ref sig .tc := ⟨.hbm, 246, rfl⟩
abbrev main_v220 : Ref sig .tc := ⟨.hbm, 247, rfl⟩
abbrev main_v221 : Ref sig .tc := ⟨.hbm, 248, rfl⟩
abbrev main_cst_23 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_cst_24 : Ref sig .tc := ⟨.hbm, 256, rfl⟩
abbrev main_v228 : Ref sig .tc := ⟨.hbm, 257, rfl⟩
abbrev main_cst_25 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_cst_26 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_cst_27 : Ref sig .tc := ⟨.hbm, 266, rfl⟩
abbrev main_v235 : Ref sig .tc := ⟨.hbm, 267, rfl⟩
abbrev main_v236 : Ref sig .tc := ⟨.hbm, 268, rfl⟩
abbrev main_cst_28 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_cst_29 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_cst_30 : Ref sig .tc := ⟨.hbm, 277, rfl⟩
abbrev main_v243 : Ref sig .tc := ⟨.hbm, 278, rfl⟩
abbrev main_v244 : Ref sig .tc := ⟨.hbm, 279, rfl⟩
abbrev main_cst_31 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_cst_32 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_cst_33 : Ref sig .tc := ⟨.hbm, 288, rfl⟩
abbrev main_v251 : Ref sig .tc := ⟨.hbm, 289, rfl⟩
abbrev main_v252 : Ref sig .tc := ⟨.hbm, 290, rfl⟩
abbrev main_cst_34 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_cst_35 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_cst_36 : Ref sig .tc := ⟨.hbm, 299, rfl⟩
abbrev main_v259 : Ref sig .tc := ⟨.hbm, 300, rfl⟩
abbrev main_v260 : Ref sig .tc := ⟨.hbm, 301, rfl⟩
abbrev main_cst_37 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_cst_38 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_cst_39 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_c : Ref sig .tc := ⟨.hbm, 324, rfl⟩
abbrev main_v280 : Ref sig .tc := ⟨.hbm, 325, rfl⟩
abbrev main_v281 : Ref sig .tc := ⟨.hbm, 326, rfl⟩
abbrev main_c_40 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  slices_S7x6_S1x6_0_0 : S7x6.Slices ![0, 0] S1x6
  shapeCasts_S1x6_S6 : S1x6.ShapeCasts S6
  bcast_S500000_S500000x1_0 : S500000.BroadcastsInDim S500000x1 (![0] : Fin 1 → Fin S500000x1.rank)
  bcast_S6_S1x6_1 : S6.BroadcastsInDim S1x6 (![1] : Fin 1 → Fin S1x6.rank)
  bcast_S1x6_S500000x6_0_1 : S1x6.BroadcastsInDim S500000x6 (![0, 1] : Fin 2 → Fin S500000x6.rank)
  bcast_S500000x1_S500000x6_0_1 : S500000x1.BroadcastsInDim S500000x6 (![0, 1] : Fin 2 → Fin S500000x6.rank)
  slices_S7x6_S1x6_1_0 : S7x6.Slices ![1, 0] S1x6
  slices_S7x6_S1x6_2_0 : S7x6.Slices ![2, 0] S1x6
  bcast_S_S500000x6 : S_.BroadcastsInDim S500000x6 (![] : Fin 0 → Fin S500000x6.rank)
  slices_S7x6_S1x6_3_0 : S7x6.Slices ![3, 0] S1x6
  slices_S7x6_S1x6_4_0 : S7x6.Slices ![4, 0] S1x6
  slices_S7x6_S1x6_5_0 : S7x6.Slices ![5, 0] S1x6
  slices_S7x6_S1x6_6_0 : S7x6.Slices ![6, 0] S1x6
  bcast_S500000x6_S500000x1x6_0_2 : S500000x6.BroadcastsInDim S500000x1x6 (![0, 2] : Fin 2 → Fin S500000x1x6.rank)
  concatenates_S500000x1x6_S500000x1x6_S500000x1x6_S500000x1x6_S500000x1x6_S500000x1x6_S500000x1x6_S500000x7x6_d1 : Shape.Concatenates [S500000x1x6, S500000x1x6, S500000x1x6, S500000x1x6, S500000x1x6, S500000x1x6, S500000x1x6] S500000x7x6 1
  bcast_S500000_S500000x1x1_0 : S500000.BroadcastsInDim S500000x1x1 (![0] : Fin 1 → Fin S500000x1x1.rank)
  bcast_S500000x1x1_S500000x7x6_0_1_2 : S500000x1x1.BroadcastsInDim S500000x7x6 (![0, 1, 2] : Fin 3 → Fin S500000x7x6.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x1_S2000000x1_S2000000x1_S2000000x1_S2000000x7_d1 : Shape.Concatenates [S2000000x1, S2000000x1, S2000000x1, S2000000x1, S2000000x1, S2000000x1, S2000000x1] S2000000x7 1
  bcast_S7_S1x7_1 : S7.BroadcastsInDim S1x7 (![1] : Fin 1 → Fin S1x7.rank)
  bcast_S1x7_S2000000x7_0_1 : S1x7.BroadcastsInDim S2000000x7 (![0, 1] : Fin 2 → Fin S2000000x7.rank)
  bcast_S2000000x7_S2000000x7x1_0_1 : S2000000x7.BroadcastsInDim S2000000x7x1 (![0, 1] : Fin 2 → Fin S2000000x7x1.rank)
  bcast_S2000000x7x1_S2000000x7x6_0_1_2 : S2000000x7x1.BroadcastsInDim S2000000x7x6 (![0, 1, 2] : Fin 3 → Fin S2000000x7x6.rank)
  shapeCasts_S2000000x7x6_S2000000x42 : S2000000x7x6.ShapeCasts S2000000x42
  gather_S500000x7x6_S2000000x1_S2000000x7x6_12_0_n_n_0_1_176_wf : GatherDims.WF S500000x7x6 S2000000x1 S2000000x7x6 [1, 2] [0] [] [0] [] 1 ![1, 7, 6]

variable [Facts₀]

def gather_S500000x7x6_S2000000x1_S2000000x7x6_12_0_n_n_0_1_176 : GatherDims S500000x7x6 S2000000x1 S2000000x7x6 where
  offsetDims := [1, 2]
  collapsedSliceDims := [0]
  operandBatchingDims := []
  startIndicesBatchingDims := []
  startIndexMap := [0]
  indexVectorDim := 1
  sliceSizes := ![1, 7, 6]
  wf := gather_S500000x7x6_S2000000x1_S2000000x7x6_12_0_n_n_0_1_176_wf

class Facts : Prop extends Facts₀ where

variable [Facts]
-- ==== Proof.Spec.lean ====
/-
  The spherical basis, as functions on the extended reals.

  One output entry depends on one distance `d` (read through an index) and one angle `a`.  With the scaled
  distance `x = d / 5` and `ct = cos a`, entry `(l, i)` (column `6 l + i`) is
      n(l,i) · j_l (z(l,i) · x) · u(x) · P_l(ct) · y(l)
  where `u` is the polynomial envelope `1/x − 21 x⁵ + 35 x⁶ − 15 x⁷` cut off at `x ≥ 1`, `P_l` the Legendre
  polynomial by its three-term recurrence, `j_l` the spherical Bessel function by its upward recurrence from
  `j_0 = sin z / z` and `j_1 = sin z / z² − cos z / z`, and `z`, `n`, `y` tables of single-precision constants (the
  Bessel roots, the normalisers, the spherical-harmonic prefactors).  Every operation is the extended reals' own
  (quotients by `Ideal.div`), so the functions below are total; nothing here needs a finite argument.
-/
import Idealize.ShloMosaic.PureOps.Ideal
import Idealize.ShloMosaic.Lib.ValueIdx

noncomputable section

namespace Basis

open Idealize.ShloMosaic Idealize.ShloMosaic.ValueIdx

/-- The extended real a single-precision word denotes. -/
abbrev c (w : BitVec 32) : EReal := Ideal.ofBits .f32 w

/-- The envelope `1/x − 21 x⁵ + 35 x⁶ − 15 x⁷` for `x < 1`, zero otherwise; powers grouped as `((x²)²) x`, then
    one more factor `x` at a time. -/
def env (x : EReal) : EReal :=
  Scalar.select (Ideal.cmp .olt x (c 0x3F800000#32))
    (((Ideal.div (c 0x3F800000#32) x + c 0xC1A80000#32 * (((x * x) * (x * x)) * x))
        + c 0x420C0000#32 * ((((x * x) * (x * x)) * x) * x))
      + c 0xC1700000#32 * (((((x * x) * (x * x)) * x) * x) * x))
    (c 0x00000000#32)

/-- The same envelope with the fifth power grouped as `x ((x²)²)` and the last term as `(−15 x⁶) x`. -/
def env' (x : EReal) : EReal :=
  Scalar.select (Ideal.cmp .olt x (c 0x3F800000#32))
    (((Ideal.div (c 0x3F800000#32) x + c 0xC1A80000#32 * (x * ((x * x) * (x * x))))
        + c 0x420C0000#32 * ((x * ((x * x) * (x * x))) * x))
      + (c 0xC1700000#32 * ((x * ((x * x) * (x * x))) * x)) * x)
    (c 0x00000000#32)

/-- Multiplication on the extended reals is commutative and associative, so the two groupings agree. -/
theorem env'_eq (x : EReal) : env' x = env x := by
  unfold env env'
  rw [mul_comm x ((x * x) * (x * x)), mul_assoc (c 0xC1700000#32)]

/-! ## Legendre polynomials: `(l+1) P_{l+1} = (2l+1) t P_l − l P_{l−1}` -/

def P0 (_ : EReal) : EReal := c 0x3F800000#32
def P1 (t : EReal) : EReal := t
def P2 (t : EReal) : EReal := Ideal.div (((c 0x40400000#32 * t) * P1 t) - c 0x3F800000#32 * P0 t) (c 0x40000000#32)
def P3 (t : EReal) : EReal := Ideal.div (((c 0x40A00000#32 * t) * P2 t) - c 0x40000000#32 * P1 t) (c 0x40400000#32)
def P4 (t : EReal) : EReal := Ideal.div (((c 0x40E00000#32 * t) * P3 t) - c 0x40400000#32 * P2 t) (c 0x40800000#32)
def P5 (t : EReal) : EReal := Ideal.div (((c 0x41100000#32 * t) * P4 t) - c 0x40800000#32 * P3 t) (c 0x40A00000#32)
def P6 (t : EReal) : EReal := Ideal.div (((c 0x41300000#32 * t) * P5 t) - c 0x40A00000#32 * P4 t) (c 0x40C00000#32)

/-- `P_l`. -/
def leg : Fin 7 → EReal → EReal
  | 0 => P0 | 1 => P1 | 2 => P2 | 3 => P3 | 4 => P4 | 5 => P5 | 6 => P6

/-! ## Spherical Bessel functions: `j_{m+1} = (2m+1)/z · j_m − j_{m−1}` -/

def j0 (z : EReal) : EReal := Ideal.div (Ideal.sin z) z
def j1 (z : EReal) : EReal := Ideal.div (Ideal.sin z) (z * z) - Ideal.div (Ideal.cos z) z
def j2 (z : EReal) : EReal := Ideal.div (c 0x40400000#32) z * j1 z - j0 z
def j3 (z : EReal) : EReal := Ideal.div (c 0x40A00000#32) z * j2 z - j1 z
def j4 (z : EReal) : EReal := Ideal.div (c 0x40E00000#32) z * j3 z - j2 z
def j5 (z : EReal) : EReal := Ideal.div (c 0x41100000#32) z * j4 z - j3 z
def j6 (z : EReal) : EReal := Ideal.div (c 0x41300000#32) z * j5 z - j4 z

/-- `j_l`. -/
def bes : Fin 7 → EReal → EReal
  | 0 => j0 | 1 => j1 | 2 => j2 | 3 => j3 | 4 => j4 | 5 => j5 | 6 => j6

/-! ## The constant tables, row-major in `(l, i)` -/

/-- The normalisers `n(l, i)`. -/
def nW : Fin 42 → BitVec 32 := fun
  | 0 => 0x408E2C19#32 | 1 => 0x410E2C19#32 | 2 => 0x41554225#32 | 3 => 0x418E2C19#32 | 4 => 0x41B1B71F#32 | 5 => 0x41D54225#32 | 6 => 0x40D052C6#32 | 7 => 0x413042CC#32
  | 8 => 0x4177C47B#32 | 9 => 0x419F8ADF#32 | 10 => 0x41C328A8#32 | 11 => 0x41E6C0A4#32 | 12 => 0x4108AEAE#32 | 13 => 0x4151A0CD#32 | 14 => 0x418CD0C6#32 | 15 => 0x41B0A1B7#32
  | 16 => 0x41D45B2F#32 | 17 => 0x41F8074F#32 | 18 => 0x412918C5#32 | 19 => 0x41729973#32 | 20 => 0x419D88A8#32 | 21 => 0x41C18457#32 | 22 => 0x41E55D3E#32 | 23 => 0x420490A6#32
  | 24 => 0x414992AB#32 | 25 => 0x4189AC75#32 | 26 => 0x41AE1B30#32 | 27 => 0x41D2401A#32 | 28 => 0x41F63954#32 | 29 => 0x420D0B83#32 | 30 => 0x416A2F9C#32 | 31 => 0x4199FC9A#32
  | 32 => 0x41BE93C8#32 | 33 => 0x41E2DE79#32 | 34 => 0x42037BA1#32 | 35 => 0x4215777C#32 | 36 => 0x41857C6F#32 | 37 => 0x41AA455E#32 | 38 => 0x41CEFA54#32 | 39 => 0x41F36663#32
  | 40 => 0x420BCE7F#32 | 41 => 0x421DD723#32
  | _ => 0#32

/-- The Bessel roots `z(l, i)`. -/
def zW : Fin 42 → BitVec 32 := fun
  | 0 => 0x40490FDB#32 | 1 => 0x40C90FDB#32 | 2 => 0x4116CBE4#32 | 3 => 0x41490FDB#32 | 4 => 0x417B53D1#32 | 5 => 0x4196CBE4#32 | 6 => 0x408FCA03#32 | 7 => 0x40F73543#32
  | 8 => 0x412E7748#32 | 9 => 0x41610F21#32 | 10 => 0x4189C41B#32 | 11 => 0x41A2F86E#32 | 12 => 0x40B86E42#32 | 13 => 0x4111852B#32 | 14 => 0x41452AC4#32 | 15 => 0x41783BD0#32
  | 16 => 0x41958325#32 | 17 => 0x41AED4BC#32 | 18 => 0x40DF9D24#32 | 19 => 0x4126AC84#32 | 20 => 0x415B2B1A#32 | 21 => 0x41876394#32 | 22 => 0x41A0F976#32 | 23 => 0x41BA6F19#32
  | 24 => 0x4102EBC6#32 | 25 => 0x413B474D#32 | 26 => 0x4170A277#32 | 27 => 0x419268F9#32 | 28 => 0x41AC340E#32 | 29 => 0x41C5D20E#32 | 30 => 0x4115B168#32 | 31 => 0x414F76E8#32
  | 32 => 0x4182D672#32 | 33 => 0x419D39A8#32 | 34 => 0x41B73C85#32 | 35 => 0x41D105A2#32 | 36 => 0x41283493#32 | 37 => 0x4163517B#32 | 38 => 0x418D2F0D#32 | 39 => 0x41A7DE22#32
  | 40 => 0x41C21A26#32 | 41 => 0x41DC101D#32
  | _ => 0#32

/-- The prefactors `y(l)`. -/
def yW : Fin 7 → BitVec 32 := fun
  | 0 => 0x3E906EBB#32 | 1 => 0x3EFA2A1C#32 | 2 => 0x3F217B01#32 | 3 => 0x3F3F10F8#32 | 4 => 0x3F58A618#32 | 5 => 0x3F6F83A7#32 | 6 => 0x3F823092#32
  | _ => 0#32

/-! ## One entry -/

/-- Entry `(l, ·)` from its three constants, the scaled distance and the cosine:
    `((n · j_l (z0 · x)) · u(x)) · (P_l(ct) · y)`. -/
def col (l : Fin 7) (z0 n y x ct : EReal) : EReal :=
  ((n * bes l (z0 * x)) * env x) * (leg l ct * y)

/-- The row `l = j / 6` of column `j`. -/
def lOf (j : Fin 42) : Fin 7 := ⟨j.val / 6, by omega⟩

/-- Column `j`'s entry. -/
def entry (j : Fin 42) (x ct : EReal) : EReal :=
  col (lOf j) (c (zW j)) (c (nW j)) (c (yW (lOf j))) x ct

/-! ## The row an index word selects -/

/-- A negative index counts from the end. -/
def normIdx (w : BitVec 32) : BitVec 32 := Scalar.select (IntOp.cmpi .slt w 0#32) (IntOp.addi w 500000#32) w

/-- The row read: the normalised word as a signed integer, clamped into `[0, 499999]`. -/
def row (w : BitVec 32) : Fin 500000 := ⟨min (normIdx w).toInt.toNat (500000 - 1), by omega⟩

/-- THE RESULT: entry `(t, j)` from the distance at the row `idx t` selects, scaled by `1/5`, and the angle at `t`. -/
def out (d : (⟨1, ![500000]⟩ : Shape).Idx → EReal) (a : (⟨1, ![2000000]⟩ : Shape).Idx → EReal)
    (idx : (⟨1, ![2000000]⟩ : Shape).Idx → BitVec 32) : (⟨2, ![2000000, 42]⟩ : Shape).Idx → EReal :=
  fun y => entry ⟨(y 1).val, idx2_lt1 y⟩
    (d (ix1 (row (idx (ix1 ⟨(y 0).val, idx2_lt0 y⟩)))) * ((1 / 5 : ℝ) : EReal))
    (Ideal.cos (a (ix1 ⟨(y 0).val, idx2_lt0 y⟩)))

/-- The result at explicit coordinates. -/
theorem out_apply (d : (⟨1, ![500000]⟩ : Shape).Idx → EReal) (a : (⟨1, ![2000000]⟩ : Shape).Idx → EReal)
    (idx : (⟨1, ![2000000]⟩ : Shape).Idx → BitVec 32) (t : Fin 2000000) (j : Fin 42) :
    out d a idx (ix2 t j) = entry j (d (ix1 (row (idx (ix1 t)))) * ((1 / 5 : ℝ) : EReal)) (Ideal.cos (a (ix1 t))) := rfl

end Basis

end
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.KCommon.lean ====
/-
  The quantities every column of a block shares.

  A block holds 1024 rows; row `p` reads one distance word `x0 p` and one angle word `x1 p`.  Every column is built
  from the scaled distance `x = x0 p · (1/5)`, the envelope `u(x)`, the cosine `t = cos (x1 p)` and the Legendre values
  `P_l(t)`.  The lemmas below read those shared vectors entry by entry, as functions on the extended reals: the named
  constant is the rational `1/5`, a cast to the same shape is the identity, and every other operation acts entry by
  entry, so each vector is the scalar function of the specification applied at every row.
-/
import proofs.«113305_j49366354100415_2_alg».proof.Proof.Gen.KernelIdeal.Skeleton
import proofs.«113305_j49366354100415_2_alg».proof.Proof.Spec
import proofs.«113305_j49366354100415_2_alg».proof.Proof.LibColumnCast
import Idealize.ShloMosaic.PureOps.IdealRules
import Idealize.ShloMosaic.Lib.Pipeline.Value

noncomputable section

namespace Cert.KernelIdeal.KCommon

open Idealize.ShloMosaic Idealize.ShloMosaic.ValueIdx Cert.KernelIdeal Cert.KernelIdeal.Gen

/-- The named reciprocal of the cutoff is the rational `1/5`. -/
theorem inv5 : Named.named (F := Ideal) Cert.KernelIdeal.κ "inv_5" (φ := .f32) 0x3E4CCCCD#32 = ((1 / 5 : ℝ) : EReal) :=
  IdealRules.named_const.ideal_named_scalar _ _ _ _ rfl

/-- The scaled distance: each entry is the distance times `1/5`. -/
theorem scaled (x0 : Vec Ideal S1024 .f32) : k0_pay3 (F := Ideal) x0 = fun i => x0 i * ((1 / 5 : ℝ) : EReal) := by
  funext i
  unfold k0_pay3
  rw [shapeCast_self]
  show x0 i * Named.named (F := Ideal) Cert.KernelIdeal.κ "inv_5" (φ := .f32) 0x3E4CCCCD#32 = _
  rw [inv5]

/-- The envelope of the scaled distance, entry by entry. -/
theorem envelope (x0 : Vec Ideal S1024 .f32) :
    k0_pay4 (F := Ideal) x0 = fun i => Basis.env (x0 i * ((1 / 5 : ℝ) : EReal)) := by
  funext i
  unfold k0_pay4
  rw [scaled]
  rfl

/-- The cosine of the angle, entry by entry. -/
theorem cosine (x1 : Vec Ideal S1024 .f32) : k0_pay5 (F := Ideal) x1 = fun i => Ideal.cos (x1 i) := by
  funext i
  unfold k0_pay5
  rw [shapeCast_self]
  rfl

/-- The second Legendre polynomial of the cosine: `(3 t · t − 1 · 1) / 2`. -/
theorem legendre2 (x1 : Vec Ideal S1024 .f32) : k0_pay7 (F := Ideal) x1 = fun i => Basis.P2 (Ideal.cos (x1 i)) := by
  funext i
  unfold k0_pay7
  rw [cosine]
  rfl

/-- The numerator of the third Legendre polynomial: `5 t · P₂(t) − 2 t`. -/
theorem legendre3num (x1 : Vec Ideal S1024 .f32) :
    k0_pay8 (F := Ideal) x1 = fun i => ((Basis.c 0x40A00000#32 * Ideal.cos (x1 i)) * Basis.P2 (Ideal.cos (x1 i)))
      - Basis.c 0x40000000#32 * Basis.P1 (Ideal.cos (x1 i)) := by
  funext i
  unfold k0_pay8
  rw [legendre2, cosine]
  rfl

end Cert.KernelIdeal.KCommon

end
-- ==== Proof.KColumns0.lean ====
/-
  Columns 0–5 of a block: the entries with angular index `l = 0`.

  At row `p` column `6·0 + i` is `((n · j_0(z · x)) · u(x)) · (P_0(t) · y)` with `x` the scaled distance, `t` the cosine of
  the angle, and `z`, `n`, `y` the column's constants.  The column is stored as a `[1024, 1]` array whose entry `(p, 0)` is
  entry `p` of the vector it was cast from; that vector is built entry by entry from the shared vectors by the
  extended reals' own operations, in the grouping of the specification's `Basis.entry`, so once the shared vectors
  are read the two sides are one term.
-/
import proofs.«113305_j49366354100415_2_alg».proof.Proof.KCommon

noncomputable section

namespace Cert.KernelIdeal.KColumns

open Idealize.ShloMosaic Idealize.ShloMosaic.ValueIdx Cert.KernelIdeal Cert.KernelIdeal.Gen Cert.KernelIdeal.KCommon

/-- Column 0 (`l = 0`, `i = 0`) at row `p`. -/
theorem col0 (x0 x1 : Vec Ideal S1024 .f32) (p : Fin 1024) :
    k0_pay15 (F := Ideal) (k0_pay3 x0) (k0_pay4 x0) (k0_pay6 (F := Ideal)) (ix2 p 0)
      = Basis.entry 0 (x0 (ix1 p) * ((1 / 5 : ℝ) : EReal)) (Ideal.cos (x1 (ix1 p))) := by
  simp only [scaled, envelope, cosine, legendre2, legendre3num]
  unfold k0_pay15
  refine (Cert.LibColumnCast.shapeCast_a_a1_apply _ _ p 0).trans ?_
  rfl

/-- Column 1 (`l = 0`, `i = 1`) at row `p`. -/
theorem col1 (x0 x1 : Vec Ideal S1024 .f32) (p : Fin 1024) :
    k0_pay16 (F := Ideal) (k0_pay3 x0) (k0_pay4 x0) (k0_pay6 (F := Ideal)) (ix2 p 0)
      = Basis.entry 1 (x0 (ix1 p) * ((1 / 5 : ℝ) : EReal)) (Ideal.cos (x1 (ix1 p))) := by
  simp only [scaled, envelope, cosine, legendre2, legendre3num]
  unfold k0_pay16
  refine (Cert.LibColumnCast.shapeCast_a_a1_apply _ _ p 0).trans ?_
  rfl

/-- Column 2 (`l = 0`, `i = 2`) at row `p`. -/
theorem col2 (x0 x1 : Vec Ideal S1024 .f32) (p : Fin 1024) :
    k0_pay17 (F := Ideal) (k0_pay3 x0) (k0_pay4 x0) (k0_pay14 (k0_pay6 (F := Ideal))) (Scalar.ofBits .f32 0x4116CBE4#32) (ix2 p 0)
      = Basis.entry 2 (x0 (ix1 p) * ((1 / 5 : ℝ) : EReal)) (Ideal.cos (x1 (ix1 p))) := by
  simp only [scaled, envelope, cosine, legendre2, legendre3num]
  unfold k0_pay17
  refine (Cert.LibColumnCast.shapeCast_a_a1_apply _ _ p 0).trans ?_
  rfl

/-- Column 3 (`l = 0`, `i = 3`) at row `p`. -/
theorem col3 (x0 x1 : Vec Ideal S1024 .f32) (p : Fin 1024) :
    k0_pay18 (F := Ideal) (k0_pay3 x0) (k0_pay4 x0) (k0_pay14 (k0_pay6 (F := Ideal))) (ix2 p 0)
      = Basis.entry 3 (x0 (ix1 p) * ((1 / 5 : ℝ) : EReal)) (Ideal.cos (x1 (ix1 p))) := by
  simp only [scaled, envelope, cosine, legendre2, legendre3num]
  unfold k0_pay18
  refine (Cert.LibColumnCast.shapeCast_a_a1_apply _ _ p 0).trans ?_
  rfl

/-- Column 4 (`l = 0`, `i = 4`) at row `p`. -/
theorem col4 (x0 x1 : Vec Ideal S1024 .f32) (p : Fin 1024) :
    k0_pay19 (F := Ideal) (k0_pay3 x0) (k0_pay4 x0) (k0_pay14 (k0_pay6 (F := Ideal))) (ix2 p 0)
      = Basis.entry 4 (x0 (ix1 p) * ((1 / 5 : ℝ) : EReal)) (Ideal.cos (x1 (ix1 p))) := by
  simp only [scaled, envelope, cosine, legendre2, legendre3num]
  unfold k0_pay19
  refine (Cert.LibColumnCast.shapeCast_a_a1_apply _ _ p 0).trans ?_
  rfl

/-- Column 5 (`l = 0`, `i = 5`) at row `p`. -/
theorem col5 (x0 x1 : Vec Ideal S1024 .f32) (p : Fin 1024) :
    k0_pay20 (F := Ideal) (k0_pay3 x0) (k0_pay4 x0) (k0_pay14 (k0_pay6 (F := Ideal))) (ix2 p 0)
      = Basis.entry 5 (x0 (ix1 p) * ((1 / 5 : ℝ) : EReal)) (Ideal.cos (x1 (ix1 p))) := by
  simp only [scaled, envelope, cosine, legendre2, legendre3num]
  unfold k0_pay20
  refine (Cert.LibColumnCast.shapeCast_a_a1_apply _ _ p 0).trans ?_
  rfl

end Cert.KernelIdeal.KColumns

end
-- ==== Proof.KColumns1.lean ====
/-
  Columns 6–11 of a block: the entries with angular index `l = 1`.

  At row `p` column `6·1 + i` is `((n · j_1(z · x)) · u(x)) · (P_1(t) · y)` with `x` the scaled distance, `t` the cosine of
  the angle, and `z`, `n`, `y` the column's constants.  The column is stored as a `[1024, 1]` array whose entry `(p, 0)` is
  entry `p` of the vector it was cast from; that vector is built entry by entry from the shared vectors by the
  extended reals' own operations, in the grouping of the specification's `Basis.entry`, so once the shared vectors
  are read the two sides are one term.
-/
import proofs.«113305_j49366354100415_2_alg».proof.Proof.KCommon

noncomputable section

namespace Cert.KernelIdeal.KColumns

open Idealize.ShloMosaic Idealize.ShloMosaic.ValueIdx Cert.KernelIdeal Cert.KernelIdeal.Gen Cert.KernelIdeal.KCommon

/-- Column 6 (`l = 1`, `i = 0`) at row `p`. -/
theorem col6 (x0 x1 : Vec Ideal S1024 .f32) (p : Fin 1024) :
    k0_pay23 (F := Ideal) (k0_pay22 (k0_pay3 x0) (k0_pay4 x0) (k0_pay5 x1)) (ix2 p 0)
      = Basis.entry 6 (x0 (ix1 p) * ((1 / 5 : ℝ) : EReal)) (Ideal.cos (x1 (ix1 p))) := by
  simp only [scaled, envelope, cosine, legendre2, legendre3num]
  unfold k0_pay23
  refine (Cert.LibColumnCast.shapeCast_a_a1_apply _ _ p 0).trans ?_
  rfl

/-- Column 7 (`l = 1`, `i = 1`) at row `p`. -/
theorem col7 (x0 x1 : Vec Ideal S1024 .f32) (p : Fin 1024) :
    k0_pay24 (F := Ideal) (k0_pay3 x0) (k0_pay4 x0) (k0_pay21 (k0_pay5 x1)) (ix2 p 0)
      = Basis.entry 7 (x0 (ix1 p) * ((1 / 5 : ℝ) : EReal)) (Ideal.cos (x1 (ix1 p))) := by
  simp only [scaled, envelope, cosine, legendre2, legendre3num]
  unfold k0_pay24
  refine (Cert.LibColumnCast.shapeCast_a_a1_apply _ _ p 0).trans ?_
  rfl

/-- Column 8 (`l = 1`, `i = 2`) at row `p`. -/
theorem col8 (x0 x1 : Vec Ideal S1024 .f32) (p : Fin 1024) :
    k0_pay25 (F := Ideal) (k0_pay3 x0) (k0_pay4 x0) (k0_pay21 (k0_pay5 x1)) (ix2 p 0)
      = Basis.entry 8 (x0 (ix1 p) * ((1 / 5 : ℝ) : EReal)) (Ideal.cos (x1 (ix1 p))) := by
  simp only [scaled, envelope, cosine, legendre2, legendre3num]
  unfold k0_pay25
  refine (Cert.LibColumnCast.shapeCast_a_a1_apply _ _ p 0).trans ?_
  rfl

/-- Column 9 (`l = 1`, `i = 3`) at row `p`. -/
theorem col9 (x0 x1 : Vec Ideal S1024 .f32) (p : Fin 1024) :
    k0_pay26 (F := Ideal) (k0_pay3 x0) (k0_pay4 x0) (k0_pay21 (k0_pay5 x1)) (ix2 p 0)
      = Basis.entry 9 (x0 (ix1 p) * ((1 / 5 : ℝ) : EReal)) (Ideal.cos (x1 (ix1 p))) := by
  simp only [scaled, envelope, cosine, legendre2, legendre3num]
  unfold k0_pay26
  refine (Cert.LibColumnCast.shapeCast_a_a1_apply _ _ p 0).trans ?_
  rfl

/-- Column 10 (`l = 1`, `i = 4`) at row `p`. -/
theorem col10 (x0 x1 : Vec Ideal S1024 .f32) (p : Fin 1024) :
    k0_pay28 (F := Ideal) (k0_pay27 (k0_pay3 x0) (k0_pay4 x0) (k0_pay21 (k0_pay5 x1))) (ix2 p 0)
      = Basis.entry 10 (x0 (ix1 p) * ((1 / 5 : ℝ) : EReal)) (Ideal.cos (x1 (ix1 p))) := by
  simp only [scaled, envelope, cosine, legendre2, legendre3num]
  unfold k0_pay28
  refine (Cert.LibColumnCast.shapeCast_a_a1_apply _ _ p 0).trans ?_
  rfl

/-- Column 11 (`l = 1`, `i = 5`) at row `p`. -/
theorem col11 (x0 x1 : Vec Ideal S1024 .f32) (p : Fin 1024) :
    k0_pay29 (F := Ideal) (k0_pay3 x0) (k0_pay4 x0) (k0_pay21 (k0_pay5 x1)) (ix2 p 0)
      = Basis.entry 11 (x0 (ix1 p) * ((1 / 5 : ℝ) : EReal)) (Ideal.cos (x1 (ix1 p))) := by
  simp only [scaled, envelope, cosine, legendre2, legendre3num]
  unfold k0_pay29
  refine (Cert.LibColumnCast.shapeCast_a_a1_apply _ _ p 0).trans ?_
  rfl

end Cert.KernelIdeal.KColumns

end
-- ==== Proof.KColumns2.lean ====
/-
  Columns 12–17 of a block: the entries with angular index `l = 2`.

  At row `p` column `6·2 + i` is `((n · j_2(z · x)) · u(x)) · (P_2(t) · y)` with `x` the scaled distance, `t` the cosine of
  the angle, and `z`, `n`, `y` the column's constants.  The column is stored as a `[1024, 1]` array whose entry `(p, 0)` is
  entry `p` of the vector it was cast from; that vector is built entry by entry from the shared vectors by the
  extended reals' own operations, in the grouping of the specification's `Basis.entry`, so once the shared vectors
  are read the two sides are one term.
-/
import proofs.«113305_j49366354100415_2_alg».proof.Proof.KCommon

noncomputable section

namespace Cert.KernelIdeal.KColumns

open Idealize.ShloMosaic Idealize.ShloMosaic.ValueIdx Cert.KernelIdeal Cert.KernelIdeal.Gen Cert.KernelIdeal.KCommon

/-- Column 12 (`l = 2`, `i = 0`) at row `p`. -/
theorem col12 (x0 x1 : Vec Ideal S1024 .f32) (p : Fin 1024) :
    k0_pay31 (F := Ideal) (k0_pay3 x0) (k0_pay4 x0) (k0_pay7 x1) (ix2 p 0)
      = Basis.entry 12 (x0 (ix1 p) * ((1 / 5 : ℝ) : EReal)) (Ideal.cos (x1 (ix1 p))) := by
  simp only [scaled, envelope, cosine, legendre2, legendre3num]
  unfold k0_pay31
  refine (Cert.LibColumnCast.shapeCast_a_a1_apply _ _ p 0).trans ?_
  rfl

/-- Column 13 (`l = 2`, `i = 1`) at row `p`. -/
theorem col13 (x0 x1 : Vec Ideal S1024 .f32) (p : Fin 1024) :
    k0_pay33 (F := Ideal) (k0_pay4 x0) (k0_pay30 (k0_pay7 x1)) (k0_pay32 (k0_pay3 x0)) (ix2 p 0)
      = Basis.entry 13 (x0 (ix1 p) * ((1 / 5 : ℝ) : EReal)) (Ideal.cos (x1 (ix1 p))) := by
  simp only [scaled, envelope, cosine, legendre2, legendre3num]
  unfold k0_pay33
  refine (Cert.LibColumnCast.shapeCast_a_a1_apply _ _ p 0).trans ?_
  rfl

/-- Column 14 (`l = 2`, `i = 2`) at row `p`. -/
theorem col14 (x0 x1 : Vec Ideal S1024 .f32) (p : Fin 1024) :
    k0_pay34 (F := Ideal) (k0_pay3 x0) (k0_pay4 x0) (k0_pay30 (k0_pay7 x1)) (ix2 p 0)
      = Basis.entry 14 (x0 (ix1 p) * ((1 / 5 : ℝ) : EReal)) (Ideal.cos (x1 (ix1 p))) := by
  simp only [scaled, envelope, cosine, legendre2, legendre3num]
  unfold k0_pay34
  refine (Cert.LibColumnCast.shapeCast_a_a1_apply _ _ p 0).trans ?_
  rfl

/-- Column 15 (`l = 2`, `i = 3`) at row `p`. -/
theorem col15 (x0 x1 : Vec Ideal S1024 .f32) (p : Fin 1024) :
    k0_pay35 (F := Ideal) (k0_pay3 x0) (k0_pay4 x0) (k0_pay30 (k0_pay7 x1)) (ix2 p 0)
      = Basis.entry 15 (x0 (ix1 p) * ((1 / 5 : ℝ) : EReal)) (Ideal.cos (x1 (ix1 p))) := by
  simp only [scaled, envelope, cosine, legendre2, legendre3num]
  unfold k0_pay35
  refine (Cert.LibColumnCast.shapeCast_a_a1_apply _ _ p 0).trans ?_
  rfl

/-- Column 16 (`l = 2`, `i = 4`) at row `p`. -/
theorem col16 (x0 x1 : Vec Ideal S1024 .f32) (p : Fin 1024) :
    k0_pay40 (F := Ideal) (k0_pay4 x0) (k0_pay30 (k0_pay7 x1)) (k0_pay36 (k0_pay3 x0)) (k0_pay37 (k0_pay3 x0)) (k0_pay38 (k0_pay3 x0)) (k0_pay39 (F := Ideal)) (ix2 p 0)
      = Basis.entry 16 (x0 (ix1 p) * ((1 / 5 : ℝ) : EReal)) (Ideal.cos (x1 (ix1 p))) := by
  simp only [scaled, envelope, cosine, legendre2, legendre3num]
  unfold k0_pay40
  refine (Cert.LibColumnCast.shapeCast_a_a1_apply _ _ p 0).trans ?_
  rfl

/-- Column 17 (`l = 2`, `i = 5`) at row `p`. -/
theorem col17 (x0 x1 : Vec Ideal S1024 .f32) (p : Fin 1024) :
    k0_pay41 (F := Ideal) (k0_pay3 x0) (k0_pay4 x0) (k0_pay30 (k0_pay7 x1)) (ix2 p 0)
      = Basis.entry 17 (x0 (ix1 p) * ((1 / 5 : ℝ) : EReal)) (Ideal.cos (x1 (ix1 p))) := by
  simp only [scaled, envelope, cosine, legendre2, legendre3num]
  unfold k0_pay41
  refine (Cert.LibColumnCast.shapeCast_a_a1_apply _ _ p 0).trans ?_
  rfl

end Cert.KernelIdeal.KColumns

end
-- ==== Proof.KColumns3.lean ====
/-
  Columns 18–23 of a block: the entries with angular index `l = 3`.

  At row `p` column `6·3 + i` is `((n · j_3(z · x)) · u(x)) · (P_3(t) · y)` with `x` the scaled distance, `t` the cosine of
  the angle, and `z`, `n`, `y` the column's constants.  The column is stored as a `[1024, 1]` array whose entry `(p, 0)` is
  entry `p` of the vector it was cast from; that vector is built entry by entry from the shared vectors by the
  extended reals' own operations, in the grouping of the specification's `Basis.entry`, so once the shared vectors
  are read the two sides are one term.
-/
import proofs.«113305_j49366354100415_2_alg».proof.Proof.KCommon

noncomputable section

namespace Cert.KernelIdeal.KColumns

open Idealize.ShloMosaic Idealize.ShloMosaic.ValueIdx Cert.KernelIdeal Cert.KernelIdeal.Gen Cert.KernelIdeal.KCommon

/-- Column 18 (`l = 3`, `i = 0`) at row `p`. -/
theorem col18 (x0 x1 : Vec Ideal S1024 .f32) (p : Fin 1024) :
    k0_pay44 (F := Ideal) (k0_pay43 (k0_pay3 x0) (k0_pay4 x0) (k0_pay10 (k0_pay8 x1) (k0_pay9 (F := Ideal)))) (ix2 p 0)
      = Basis.entry 18 (x0 (ix1 p) * ((1 / 5 : ℝ) : EReal)) (Ideal.cos (x1 (ix1 p))) := by
  simp only [scaled, envelope, cosine, legendre2, legendre3num]
  unfold k0_pay44
  refine (Cert.LibColumnCast.shapeCast_a_a1_apply _ _ p 0).trans ?_
  rfl

/-- Column 19 (`l = 3`, `i = 1`) at row `p`. -/
theorem col19 (x0 x1 : Vec Ideal S1024 .f32) (p : Fin 1024) :
    k0_pay45 (F := Ideal) (k0_pay3 x0) (k0_pay4 x0) (k0_pay42 (k0_pay10 (k0_pay8 x1) (k0_pay9 (F := Ideal)))) (ix2 p 0)
      = Basis.entry 19 (x0 (ix1 p) * ((1 / 5 : ℝ) : EReal)) (Ideal.cos (x1 (ix1 p))) := by
  simp only [scaled, envelope, cosine, legendre2, legendre3num]
  unfold k0_pay45
  refine (Cert.LibColumnCast.shapeCast_a_a1_apply _ _ p 0).trans ?_
  rfl

/-- Column 20 (`l = 3`, `i = 2`) at row `p`. -/
theorem col20 (x0 x1 : Vec Ideal S1024 .f32) (p : Fin 1024) :
    k0_pay46 (F := Ideal) (k0_pay3 x0) (k0_pay4 x0) (k0_pay42 (k0_pay10 (k0_pay8 x1) (k0_pay9 (F := Ideal)))) (ix2 p 0)
      = Basis.entry 20 (x0 (ix1 p) * ((1 / 5 : ℝ) : EReal)) (Ideal.cos (x1 (ix1 p))) := by
  simp only [scaled, envelope, cosine, legendre2, legendre3num]
  unfold k0_pay46
  refine (Cert.LibColumnCast.shapeCast_a_a1_apply _ _ p 0).trans ?_
  rfl

/-- Column 21 (`l = 3`, `i = 3`) at row `p`. -/
theorem col21 (x0 x1 : Vec Ideal S1024 .f32) (p : Fin 1024) :
    k0_pay49 (F := Ideal) (k0_pay4 x0) (k0_pay42 (k0_pay10 (k0_pay8 x1) (k0_pay9 (F := Ideal)))) (k0_pay47 (k0_pay3 x0)) (k0_pay48 (k0_pay3 x0)) (ix2 p 0)
      = Basis.entry 21 (x0 (ix1 p) * ((1 / 5 : ℝ) : EReal)) (Ideal.cos (x1 (ix1 p))) := by
  simp only [scaled, envelope, cosine, legendre2, legendre3num]
  unfold k0_pay49
  refine (Cert.LibColumnCast.shapeCast_a_a1_apply _ _ p 0).trans ?_
  rfl

/-- Column 22 (`l = 3`, `i = 4`) at row `p`. -/
theorem col22 (x0 x1 : Vec Ideal S1024 .f32) (p : Fin 1024) :
    k0_pay50 (F := Ideal) (k0_pay3 x0) (k0_pay4 x0) (k0_pay42 (k0_pay10 (k0_pay8 x1) (k0_pay9 (F := Ideal)))) (ix2 p 0)
      = Basis.entry 22 (x0 (ix1 p) * ((1 / 5 : ℝ) : EReal)) (Ideal.cos (x1 (ix1 p))) := by
  simp only [scaled, envelope, cosine, legendre2, legendre3num]
  unfold k0_pay50
  refine (Cert.LibColumnCast.shapeCast_a_a1_apply _ _ p 0).trans ?_
  rfl

/-- Column 23 (`l = 3`, `i = 5`) at row `p`. -/
theorem col23 (x0 x1 : Vec Ideal S1024 .f32) (p : Fin 1024) :
    k0_pay54 (F := Ideal) (k0_pay4 x0) (k0_pay42 (k0_pay10 (k0_pay8 x1) (k0_pay9 (F := Ideal)))) (k0_pay51 (k0_pay3 x0)) (k0_pay52 (k0_pay3 x0)) (k0_pay53 (k0_pay3 x0)) (ix2 p 0)
      = Basis.entry 23 (x0 (ix1 p) * ((1 / 5 : ℝ) : EReal)) (Ideal.cos (x1 (ix1 p))) := by
  simp only [scaled, envelope, cosine, legendre2, legendre3num]
  unfold k0_pay54
  refine (Cert.LibColumnCast.shapeCast_a_a1_apply _ _ p 0).trans ?_
  rfl

end Cert.KernelIdeal.KColumns

end
-- ==== Proof.KColumns4.lean ====
/-
  Columns 24–29 of a block: the entries with angular index `l = 4`.

  At row `p` column `6·4 + i` is `((n · j_4(z · x)) · u(x)) · (P_4(t) · y)` with `x` the scaled distance, `t` the cosine of
  the angle, and `z`, `n`, `y` the column's constants.  The column is stored as a `[1024, 1]` array whose entry `(p, 0)` is
  entry `p` of the vector it was cast from; that vector is built entry by entry from the shared vectors by the
  extended reals' own operations, in the grouping of the specification's `Basis.entry`, so once the shared vectors
  are read the two sides are one term.
-/
import proofs.«113305_j49366354100415_2_alg».proof.Proof.KCommon

noncomputable section

namespace Cert.KernelIdeal.KColumns

open Idealize.ShloMosaic Idealize.ShloMosaic.ValueIdx Cert.KernelIdeal Cert.KernelIdeal.Gen Cert.KernelIdeal.KCommon

/-- Column 24 (`l = 4`, `i = 0`) at row `p`. -/
theorem col24 (x0 x1 : Vec Ideal S1024 .f32) (p : Fin 1024) :
    k0_pay56 (F := Ideal) (k0_pay3 x0) (k0_pay4 x0) (k0_pay11 (k0_pay5 x1) (k0_pay7 x1) (k0_pay8 x1) (k0_pay9 (F := Ideal))) (ix2 p 0)
      = Basis.entry 24 (x0 (ix1 p) * ((1 / 5 : ℝ) : EReal)) (Ideal.cos (x1 (ix1 p))) := by
  simp only [scaled, envelope, cosine, legendre2, legendre3num]
  unfold k0_pay56
  refine (Cert.LibColumnCast.shapeCast_a_a1_apply _ _ p 0).trans ?_
  rfl

/-- Column 25 (`l = 4`, `i = 1`) at row `p`. -/
theorem col25 (x0 x1 : Vec Ideal S1024 .f32) (p : Fin 1024) :
    k0_pay61 (F := Ideal) (k0_pay4 x0) (k0_pay55 (k0_pay11 (k0_pay5 x1) (k0_pay7 x1) (k0_pay8 x1) (k0_pay9 (F := Ideal)))) (k0_pay57 (k0_pay3 x0)) (k0_pay58 (k0_pay3 x0)) (k0_pay59 (k0_pay3 x0)) (k0_pay60 (k0_pay3 x0)) (ix2 p 0)
      = Basis.entry 25 (x0 (ix1 p) * ((1 / 5 : ℝ) : EReal)) (Ideal.cos (x1 (ix1 p))) := by
  simp only [scaled, envelope, cosine, legendre2, legendre3num]
  unfold k0_pay61
  refine (Cert.LibColumnCast.shapeCast_a_a1_apply _ _ p 0).trans ?_
  rfl

/-- Column 26 (`l = 4`, `i = 2`) at row `p`. -/
theorem col26 (x0 x1 : Vec Ideal S1024 .f32) (p : Fin 1024) :
    k0_pay62 (F := Ideal) (k0_pay3 x0) (k0_pay4 x0) (k0_pay55 (k0_pay11 (k0_pay5 x1) (k0_pay7 x1) (k0_pay8 x1) (k0_pay9 (F := Ideal)))) (ix2 p 0)
      = Basis.entry 26 (x0 (ix1 p) * ((1 / 5 : ℝ) : EReal)) (Ideal.cos (x1 (ix1 p))) := by
  simp only [scaled, envelope, cosine, legendre2, legendre3num]
  unfold k0_pay62
  refine (Cert.LibColumnCast.shapeCast_a_a1_apply _ _ p 0).trans ?_
  rfl

/-- Column 27 (`l = 4`, `i = 3`) at row `p`. -/
theorem col27 (x0 x1 : Vec Ideal S1024 .f32) (p : Fin 1024) :
    k0_pay65 (F := Ideal) (k0_pay4 x0) (k0_pay55 (k0_pay11 (k0_pay5 x1) (k0_pay7 x1) (k0_pay8 x1) (k0_pay9 (F := Ideal)))) (k0_pay63 (k0_pay3 x0)) (k0_pay64 (k0_pay3 x0)) (ix2 p 0)
      = Basis.entry 27 (x0 (ix1 p) * ((1 / 5 : ℝ) : EReal)) (Ideal.cos (x1 (ix1 p))) := by
  simp only [scaled, envelope, cosine, legendre2, legendre3num]
  unfold k0_pay65
  refine (Cert.LibColumnCast.shapeCast_a_a1_apply _ _ p 0).trans ?_
  rfl

/-- Column 28 (`l = 4`, `i = 4`) at row `p`. -/
theorem col28 (x0 x1 : Vec Ideal S1024 .f32) (p : Fin 1024) :
    k0_pay66 (F := Ideal) (k0_pay3 x0) (k0_pay4 x0) (k0_pay55 (k0_pay11 (k0_pay5 x1) (k0_pay7 x1) (k0_pay8 x1) (k0_pay9 (F := Ideal)))) (ix2 p 0)
      = Basis.entry 28 (x0 (ix1 p) * ((1 / 5 : ℝ) : EReal)) (Ideal.cos (x1 (ix1 p))) := by
  simp only [scaled, envelope, cosine, legendre2, legendre3num]
  unfold k0_pay66
  refine (Cert.LibColumnCast.shapeCast_a_a1_apply _ _ p 0).trans ?_
  rfl

/-- Column 29 (`l = 4`, `i = 5`) at row `p`. -/
theorem col29 (x0 x1 : Vec Ideal S1024 .f32) (p : Fin 1024) :
    k0_pay67 (F := Ideal) (k0_pay3 x0) (k0_pay4 x0) (k0_pay55 (k0_pay11 (k0_pay5 x1) (k0_pay7 x1) (k0_pay8 x1) (k0_pay9 (F := Ideal)))) (Scalar.ofBits .f32 0x41C5D20E#32) (ix2 p 0)
      = Basis.entry 29 (x0 (ix1 p) * ((1 / 5 : ℝ) : EReal)) (Ideal.cos (x1 (ix1 p))) := by
  simp only [scaled, envelope, cosine, legendre2, legendre3num]
  unfold k0_pay67
  refine (Cert.LibColumnCast.shapeCast_a_a1_apply _ _ p 0).trans ?_
  rfl

end Cert.KernelIdeal.KColumns

end
-- ==== Proof.KColumns5.lean ====
/-
  Columns 30–35 of a block: the entries with angular index `l = 5`.

  At row `p` column `6·5 + i` is `((n · j_5(z · x)) · u(x)) · (P_5(t) · y)` with `x` the scaled distance, `t` the cosine of
  the angle, and `z`, `n`, `y` the column's constants.  The column is stored as a `[1024, 1]` array whose entry `(p, 0)` is
  entry `p` of the vector it was cast from; that vector is built entry by entry from the shared vectors by the
  extended reals' own operations, in the grouping of the specification's `Basis.entry`, so once the shared vectors
  are read the two sides are one term.
-/
import proofs.«113305_j49366354100415_2_alg».proof.Proof.KCommon

noncomputable section

namespace Cert.KernelIdeal.KColumns

open Idealize.ShloMosaic Idealize.ShloMosaic.ValueIdx Cert.KernelIdeal Cert.KernelIdeal.Gen Cert.KernelIdeal.KCommon

/-- Column 30 (`l = 5`, `i = 0`) at row `p`. -/
theorem col30 (x0 x1 : Vec Ideal S1024 .f32) (p : Fin 1024) :
    k0_pay74 (F := Ideal) (k0_pay4 x0) (k0_pay68 (k0_pay12 (k0_pay5 x1) (k0_pay7 x1) (k0_pay8 x1) (k0_pay9 (F := Ideal)))) (k0_pay69 (k0_pay3 x0)) (k0_pay72 (k0_pay3 x0)) (k0_pay73 (k0_pay3 x0)) (ix2 p 0)
      = Basis.entry 30 (x0 (ix1 p) * ((1 / 5 : ℝ) : EReal)) (Ideal.cos (x1 (ix1 p))) := by
  simp only [scaled, envelope, cosine, legendre2, legendre3num]
  unfold k0_pay74
  refine (Cert.LibColumnCast.shapeCast_a_a1_apply _ _ p 0).trans ?_
  rfl

/-- Column 31 (`l = 5`, `i = 1`) at row `p`. -/
theorem col31 (x0 x1 : Vec Ideal S1024 .f32) (p : Fin 1024) :
    k0_pay75 (F := Ideal) (k0_pay3 x0) (k0_pay4 x0) (k0_pay68 (k0_pay12 (k0_pay5 x1) (k0_pay7 x1) (k0_pay8 x1) (k0_pay9 (F := Ideal)))) (ix2 p 0)
      = Basis.entry 31 (x0 (ix1 p) * ((1 / 5 : ℝ) : EReal)) (Ideal.cos (x1 (ix1 p))) := by
  simp only [scaled, envelope, cosine, legendre2, legendre3num]
  unfold k0_pay75
  refine (Cert.LibColumnCast.shapeCast_a_a1_apply _ _ p 0).trans ?_
  rfl

/-- Column 32 (`l = 5`, `i = 2`) at row `p`. -/
theorem col32 (x0 x1 : Vec Ideal S1024 .f32) (p : Fin 1024) :
    k0_pay79 (F := Ideal) (k0_pay4 x0) (k0_pay68 (k0_pay12 (k0_pay5 x1) (k0_pay7 x1) (k0_pay8 x1) (k0_pay9 (F := Ideal)))) (k0_pay76 (k0_pay3 x0)) (k0_pay77 (k0_pay3 x0)) (k0_pay78 (k0_pay3 x0)) (Scalar.ofBits .f32 0x40400000#32) (ix2 p 0)
      = Basis.entry 32 (x0 (ix1 p) * ((1 / 5 : ℝ) : EReal)) (Ideal.cos (x1 (ix1 p))) := by
  simp only [scaled, envelope, cosine, legendre2, legendre3num]
  unfold k0_pay79
  refine (Cert.LibColumnCast.shapeCast_a_a1_apply _ _ p 0).trans ?_
  rfl

/-- Column 33 (`l = 5`, `i = 3`) at row `p`. -/
theorem col33 (x0 x1 : Vec Ideal S1024 .f32) (p : Fin 1024) :
    k0_pay81 (F := Ideal) (k0_pay68 (k0_pay12 (k0_pay5 x1) (k0_pay7 x1) (k0_pay8 x1) (k0_pay9 (F := Ideal)))) (k0_pay80 (k0_pay3 x0) (k0_pay4 x0)) (ix2 p 0)
      = Basis.entry 33 (x0 (ix1 p) * ((1 / 5 : ℝ) : EReal)) (Ideal.cos (x1 (ix1 p))) := by
  simp only [scaled, envelope, cosine, legendre2, legendre3num]
  unfold k0_pay81
  refine (Cert.LibColumnCast.shapeCast_a_a1_apply _ _ p 0).trans ?_
  rfl

/-- Column 34 (`l = 5`, `i = 4`) at row `p`. -/
theorem col34 (x0 x1 : Vec Ideal S1024 .f32) (p : Fin 1024) :
    k0_pay82 (F := Ideal) (k0_pay3 x0) (k0_pay4 x0) (k0_pay68 (k0_pay12 (k0_pay5 x1) (k0_pay7 x1) (k0_pay8 x1) (k0_pay9 (F := Ideal)))) (ix2 p 0)
      = Basis.entry 34 (x0 (ix1 p) * ((1 / 5 : ℝ) : EReal)) (Ideal.cos (x1 (ix1 p))) := by
  simp only [scaled, envelope, cosine, legendre2, legendre3num]
  unfold k0_pay82
  refine (Cert.LibColumnCast.shapeCast_a_a1_apply _ _ p 0).trans ?_
  rfl

/-- Column 35 (`l = 5`, `i = 5`) at row `p`. -/
theorem col35 (x0 x1 : Vec Ideal S1024 .f32) (p : Fin 1024) :
    k0_pay87 (F := Ideal) (k0_pay4 x0) (k0_pay68 (k0_pay12 (k0_pay5 x1) (k0_pay7 x1) (k0_pay8 x1) (k0_pay9 (F := Ideal)))) (k0_pay83 (k0_pay3 x0)) (k0_pay85 (k0_pay3 x0)) (k0_pay86 (k0_pay3 x0)) (ix2 p 0)
      = Basis.entry 35 (x0 (ix1 p) * ((1 / 5 : ℝ) : EReal)) (Ideal.cos (x1 (ix1 p))) := by
  simp only [scaled, envelope, cosine, legendre2, legendre3num]
  unfold k0_pay87
  refine (Cert.LibColumnCast.shapeCast_a_a1_apply _ _ p 0).trans ?_
  rfl

end Cert.KernelIdeal.KColumns

end
-- ==== Proof.KColumns6.lean ====
/-
  Columns 36–41 of a block: the entries with angular index `l = 6`.

  At row `p` column `6·6 + i` is `((n · j_6(z · x)) · u(x)) · (P_6(t) · y)` with `x` the scaled distance, `t` the cosine of
  the angle, and `z`, `n`, `y` the column's constants.  The column is stored as a `[1024, 1]` array whose entry `(p, 0)` is
  entry `p` of the vector it was cast from; that vector is built entry by entry from the shared vectors by the
  extended reals' own operations, in the grouping of the specification's `Basis.entry`, so once the shared vectors
  are read the two sides are one term.
-/
import proofs.«113305_j49366354100415_2_alg».proof.Proof.KCommon

noncomputable section

namespace Cert.KernelIdeal.KColumns

open Idealize.ShloMosaic Idealize.ShloMosaic.ValueIdx Cert.KernelIdeal Cert.KernelIdeal.Gen Cert.KernelIdeal.KCommon

/-- Column 36 (`l = 6`, `i = 0`) at row `p`. -/
theorem col36 (x0 x1 : Vec Ideal S1024 .f32) (p : Fin 1024) :
    k0_pay90 (F := Ideal) (k0_pay89 (k0_pay3 x0) (k0_pay4 x0) (k0_pay13 (k0_pay5 x1) (k0_pay7 x1) (k0_pay8 x1) (k0_pay9 (F := Ideal)))) (ix2 p 0)
      = Basis.entry 36 (x0 (ix1 p) * ((1 / 5 : ℝ) : EReal)) (Ideal.cos (x1 (ix1 p))) := by
  simp only [scaled, envelope, cosine, legendre2, legendre3num]
  unfold k0_pay90
  refine (Cert.LibColumnCast.shapeCast_a_a1_apply _ _ p 0).trans ?_
  rfl

/-- Column 37 (`l = 6`, `i = 1`) at row `p`. -/
theorem col37 (x0 x1 : Vec Ideal S1024 .f32) (p : Fin 1024) :
    k0_pay91 (F := Ideal) (k0_pay3 x0) (k0_pay4 x0) (k0_pay88 (k0_pay13 (k0_pay5 x1) (k0_pay7 x1) (k0_pay8 x1) (k0_pay9 (F := Ideal)))) (ix2 p 0)
      = Basis.entry 37 (x0 (ix1 p) * ((1 / 5 : ℝ) : EReal)) (Ideal.cos (x1 (ix1 p))) := by
  simp only [scaled, envelope, cosine, legendre2, legendre3num]
  unfold k0_pay91
  refine (Cert.LibColumnCast.shapeCast_a_a1_apply _ _ p 0).trans ?_
  rfl

/-- Column 38 (`l = 6`, `i = 2`) at row `p`. -/
theorem col38 (x0 x1 : Vec Ideal S1024 .f32) (p : Fin 1024) :
    k0_pay95 (F := Ideal) (k0_pay4 x0) (k0_pay88 (k0_pay13 (k0_pay5 x1) (k0_pay7 x1) (k0_pay8 x1) (k0_pay9 (F := Ideal)))) (k0_pay92 (k0_pay3 x0)) (k0_pay93 (k0_pay3 x0)) (k0_pay94 (k0_pay3 x0)) (Scalar.ofBits .f32 0x40A00000#32) (ix2 p 0)
      = Basis.entry 38 (x0 (ix1 p) * ((1 / 5 : ℝ) : EReal)) (Ideal.cos (x1 (ix1 p))) := by
  simp only [scaled, envelope, cosine, legendre2, legendre3num]
  unfold k0_pay95
  refine (Cert.LibColumnCast.shapeCast_a_a1_apply _ _ p 0).trans ?_
  rfl

/-- Column 39 (`l = 6`, `i = 3`) at row `p`. -/
theorem col39 (x0 x1 : Vec Ideal S1024 .f32) (p : Fin 1024) :
    k0_pay102 (F := Ideal) (k0_pay4 x0) (k0_pay88 (k0_pay13 (k0_pay5 x1) (k0_pay7 x1) (k0_pay8 x1) (k0_pay9 (F := Ideal)))) (k0_pay100 (k0_pay3 x0)) (k0_pay101 (k0_pay3 x0)) (ix2 p 0)
      = Basis.entry 39 (x0 (ix1 p) * ((1 / 5 : ℝ) : EReal)) (Ideal.cos (x1 (ix1 p))) := by
  simp only [scaled, envelope, cosine, legendre2, legendre3num]
  unfold k0_pay102
  refine (Cert.LibColumnCast.shapeCast_a_a1_apply _ _ p 0).trans ?_
  rfl

/-- Column 40 (`l = 6`, `i = 4`) at row `p`. -/
theorem col40 (x0 x1 : Vec Ideal S1024 .f32) (p : Fin 1024) :
    k0_pay103 (F := Ideal) (k0_pay3 x0) (k0_pay4 x0) (k0_pay88 (k0_pay13 (k0_pay5 x1) (k0_pay7 x1) (k0_pay8 x1) (k0_pay9 (F := Ideal)))) (ix2 p 0)
      = Basis.entry 40 (x0 (ix1 p) * ((1 / 5 : ℝ) : EReal)) (Ideal.cos (x1 (ix1 p))) := by
  simp only [scaled, envelope, cosine, legendre2, legendre3num]
  unfold k0_pay103
  refine (Cert.LibColumnCast.shapeCast_a_a1_apply _ _ p 0).trans ?_
  rfl

/-- Column 41 (`l = 6`, `i = 5`) at row `p`. -/
theorem col41 (x0 x1 : Vec Ideal S1024 .f32) (p : Fin 1024) :
    shapeCast S1024x1 (k0_pay1 (F := Ideal) (k0_pay4 x0) (k0_pay88 (k0_pay13 (k0_pay5 x1) (k0_pay7 x1) (k0_pay8 x1) (k0_pay9 (F := Ideal)))) (k0_pay104 (k0_pay3 x0)) (k0_pay105 (k0_pay3 x0)) (k0_pay106 (k0_pay3 x0))) shapeCasts_S1024_S1024x1 (ix2 p 0)
      = Basis.entry 41 (x0 (ix1 p) * ((1 / 5 : ℝ) : EReal)) (Ideal.cos (x1 (ix1 p))) := by
  simp only [scaled, envelope, cosine, legendre2, legendre3num]
  refine (Cert.LibColumnCast.shapeCast_a_a1_apply _ _ p 0).trans ?_
  rfl

end Cert.KernelIdeal.KColumns

end
-- ==== Proof.KBlock.lean ====
/-
  A block at an index.

  The body stores one `[1024, 42]` value: the 42 columns side by side.  Entry `(p, j)` of the concatenation is entry
  `(p, 0)` of column `j` (the columns before it have width one each), and that is the specification's entry `j` at the
  scaled distance and the cosine of row `p` of the two input blocks.
-/
import proofs.«113305_j49366354100415_2_alg».proof.Proof.Gen.KernelIdeal.Frame
import proofs.«113305_j49366354100415_2_alg».proof.Proof.KColumns0
import proofs.«113305_j49366354100415_2_alg».proof.Proof.KColumns1
import proofs.«113305_j49366354100415_2_alg».proof.Proof.KColumns2
import proofs.«113305_j49366354100415_2_alg».proof.Proof.KColumns3
import proofs.«113305_j49366354100415_2_alg».proof.Proof.KColumns4
import proofs.«113305_j49366354100415_2_alg».proof.Proof.KColumns5
import proofs.«113305_j49366354100415_2_alg».proof.Proof.KColumns6

noncomputable section

namespace Cert.KernelIdeal.KBlock

open Idealize.ShloMosaic Idealize.ShloMosaic.ValueIdx Cert.KernelIdeal Cert.KernelIdeal.Gen Cert.KernelIdeal.KColumns

theorem zeros1 : (![0] : Fin 1 → Nat) = fun _ => 0 := funext fun a => by fin_cases a <;> rfl
theorem zeros2 : (![0, 0] : Fin 2 → Nat) = fun _ => 0 := funext fun a => by fin_cases a <;> rfl

/-- Off the concatenation axis, index `(p, 0)` of a column and index `(p, j)` of the block have the same coordinate. -/
theorem offAxis (p : Fin 1024) (j : Fin 42) :
    ∀ b : Fin S1024x1.rank, b.cast (rfl : S1024x1.rank = S1024x42.rank) ≠ (1 : Fin 2) →
      ((ix2 p (0 : Fin 1) : S1024x1.Idx) b).val = ((ix2 p j : S1024x42.Idx) (b.cast rfl)).val := by
  intro b hb
  match b with
  | ⟨0, _⟩ => rfl
  | ⟨1, _⟩ => exact absurd rfl hb

/-- The extent of a `[1024, 1]` piece along axis 1 is one. -/
theorem width_one : (if h : S1024x1.rank = S1024x42.rank then S1024x1.size ((1 : Fin 2).cast h.symm) else 0) = 1 := by
  decide

/-- 42 pieces of width one along axis 1: piece `k` starts at column `k`, so the concatenation at `(p, k)` is piece
    `k` at `(p, 0)`. -/
theorem piece_read {α : Type} (xs : List ((s : Shape) × (s.Idx → α)))
    (h : Shape.Concatenates (xs.map (·.1)) S1024x42 (1 : Fin 2)) (p : Fin 1024) (k : Nat) (hk42 : k < 42)
    (x₁ : S1024x1.Idx → α) (hxk : xs[k]? = some ⟨S1024x1, x₁⟩)
    (hsh : xs.map (·.1) = List.replicate 42 S1024x1) :
    concatenate S1024x42 (1 : Fin 2) xs h (ix2 p ⟨k, hk42⟩) = x₁ (ix2 p 0) := by
  obtain ⟨hk, hxk'⟩ := List.getElem?_eq_some_iff.mp hxk
  have hpre : (((xs.take k).map (·.1)).map fun s =>
      if h : s.rank = S1024x42.rank then s.size ((1 : Fin 2).cast h.symm) else 0).sum = k := by
    rw [List.map_take, hsh, List.take_replicate, List.map_replicate, width_one, List.sum_replicate, smul_eq_mul,
      Nat.mul_one]
    exact Nat.min_eq_left (Nat.le_of_lt hk42)
  exact concatenate_apply_piece (1 : Fin 2) xs h (ix2 p ⟨k, hk42⟩) k hk S1024x1 x₁ hxk' rfl k hpre (ix2 p 0)
    (offAxis p ⟨k, hk42⟩) rfl

/-- THE BLOCK AT `(p, j)`: the specification's entry `j` at the scaled distance and the cosine of row `p`. -/
theorem block_apply (x0 x1 : Vec Ideal S1024 .f32) (p : Fin 1024) (j : Fin 42) :
    out0_2 (F := Ideal) x0 x1 (ix2 p j)
      = Basis.entry j (x0 (ix1 p) * ((1 / 5 : ℝ) : EReal)) (Ideal.cos (x1 (ix1 p))) := by
  unfold out0_2
  rw [View.canon_unit_zero zeros2]
  simp only [View.ld_unit_zero (S := S1024) zeros1]
  unfold k0_pay2
  fin_cases j
  · refine (piece_read _ _ p 0 _ _ ?hxk ?hsh).trans (col0 x0 x1 p)
    case hxk => rfl
    case hsh => rfl
  · refine (piece_read _ _ p 1 _ _ ?hxk ?hsh).trans (col1 x0 x1 p)
    case hxk => rfl
    case hsh => rfl
  · refine (piece_read _ _ p 2 _ _ ?hxk ?hsh).trans (col2 x0 x1 p)
    case hxk => rfl
    case hsh => rfl
  · refine (piece_read _ _ p 3 _ _ ?hxk ?hsh).trans (col3 x0 x1 p)
    case hxk => rfl
    case hsh => rfl
  · refine (piece_read _ _ p 4 _ _ ?hxk ?hsh).trans (col4 x0 x1 p)
    case hxk => rfl
    case hsh => rfl
  · refine (piece_read _ _ p 5 _ _ ?hxk ?hsh).trans (col5 x0 x1 p)
    case hxk => rfl
    case hsh => rfl
  · refine (piece_read _ _ p 6 _ _ ?hxk ?hsh).trans (col6 x0 x1 p)
    case hxk => rfl
    case hsh => rfl
  · refine (piece_read _ _ p 7 _ _ ?hxk ?hsh).trans (col7 x0 x1 p)
    case hxk => rfl
    case hsh => rfl
  · refine (piece_read _ _ p 8 _ _ ?hxk ?hsh).trans (col8 x0 x1 p)
    case hxk => rfl
    case hsh => rfl
  · refine (piece_read _ _ p 9 _ _ ?hxk ?hsh).trans (col9 x0 x1 p)
    case hxk => rfl
    case hsh => rfl
  · refine (piece_read _ _ p 10 _ _ ?hxk ?hsh).trans (col10 x0 x1 p)
    case hxk => rfl
    case hsh => rfl
  · refine (piece_read _ _ p 11 _ _ ?hxk ?hsh).trans (col11 x0 x1 p)
    case hxk => rfl
    case hsh => rfl
  · refine (piece_read _ _ p 12 _ _ ?hxk ?hsh).trans (col12 x0 x1 p)
    case hxk => rfl
    case hsh => rfl
  · refine (piece_read _ _ p 13 _ _ ?hxk ?hsh).trans (col13 x0 x1 p)
    case hxk => rfl
    case hsh => rfl
  · refine (piece_read _ _ p 14 _ _ ?hxk ?hsh).trans (col14 x0 x1 p)
    case hxk => rfl
    case hsh => rfl
  · refine (piece_read _ _ p 15 _ _ ?hxk ?hsh).trans (col15 x0 x1 p)
    case hxk => rfl
    case hsh => rfl
  · refine (piece_read _ _ p 16 _ _ ?hxk ?hsh).trans (col16 x0 x1 p)
    case hxk => rfl
    case hsh => rfl
  · refine (piece_read _ _ p 17 _ _ ?hxk ?hsh).trans (col17 x0 x1 p)
    case hxk => rfl
    case hsh => rfl
  · refine (piece_read _ _ p 18 _ _ ?hxk ?hsh).trans (col18 x0 x1 p)
    case hxk => rfl
    case hsh => rfl
  · refine (piece_read _ _ p 19 _ _ ?hxk ?hsh).trans (col19 x0 x1 p)
    case hxk => rfl
    case hsh => rfl
  · refine (piece_read _ _ p 20 _ _ ?hxk ?hsh).trans (col20 x0 x1 p)
    case hxk => rfl
    case hsh => rfl
  · refine (piece_read _ _ p 21 _ _ ?hxk ?hsh).trans (col21 x0 x1 p)
    case hxk => rfl
    case hsh => rfl
  · refine (piece_read _ _ p 22 _ _ ?hxk ?hsh).trans (col22 x0 x1 p)
    case hxk => rfl
    case hsh => rfl
  · refine (piece_read _ _ p 23 _ _ ?hxk ?hsh).trans (col23 x0 x1 p)
    case hxk => rfl
    case hsh => rfl
  · refine (piece_read _ _ p 24 _ _ ?hxk ?hsh).trans (col24 x0 x1 p)
    case hxk => rfl
    case hsh => rfl
  · refine (piece_read _ _ p 25 _ _ ?hxk ?hsh).trans (col25 x0 x1 p)
    case hxk => rfl
    case hsh => rfl
  · refine (piece_read _ _ p 26 _ _ ?hxk ?hsh).trans (col26 x0 x1 p)
    case hxk => rfl
    case hsh => rfl
  · refine (piece_read _ _ p 27 _ _ ?hxk ?hsh).trans (col27 x0 x1 p)
    case hxk => rfl
    case hsh => rfl
  · refine (piece_read _ _ p 28 _ _ ?hxk ?hsh).trans (col28 x0 x1 p)
    case hxk => rfl
    case hsh => rfl
  · refine (piece_read _ _ p 29 _ _ ?hxk ?hsh).trans (col29 x0 x1 p)
    case hxk => rfl
    case hsh => rfl
  · refine (piece_read _ _ p 30 _ _ ?hxk ?hsh).trans (col30 x0 x1 p)
    case hxk => rfl
    case hsh => rfl
  · refine (piece_read _ _ p 31 _ _ ?hxk ?hsh).trans (col31 x0 x1 p)
    case hxk => rfl
    case hsh => rfl
  · refine (piece_read _ _ p 32 _ _ ?hxk ?hsh).trans (col32 x0 x1 p)
    case hxk => rfl
    case hsh => rfl
  · refine (piece_read _ _ p 33 _ _ ?hxk ?hsh).trans (col33 x0 x1 p)
    case hxk => rfl
    case hsh => rfl
  · refine (piece_read _ _ p 34 _ _ ?hxk ?hsh).trans (col34 x0 x1 p)
    case hxk => rfl
    case hsh => rfl
  · refine (piece_read _ _ p 35 _ _ ?hxk ?hsh).trans (col35 x0 x1 p)
    case hxk => rfl
    case hsh => rfl
  · refine (piece_read _ _ p 36 _ _ ?hxk ?hsh).trans (col36 x0 x1 p)
    case hxk => rfl
    case hsh => rfl
  · refine (piece_read _ _ p 37 _ _ ?hxk ?hsh).trans (col37 x0 x1 p)
    case hxk => rfl
    case hsh => rfl
  · refine (piece_read _ _ p 38 _ _ ?hxk ?hsh).trans (col38 x0 x1 p)
    case hxk => rfl
    case hsh => rfl
  · refine (piece_read _ _ p 39 _ _ ?hxk ?hsh).trans (col39 x0 x1 p)
    case hxk => rfl
    case hsh => rfl
  · refine (piece_read _ _ p 40 _ _ ?hxk ?hsh).trans (col40 x0 x1 p)
    case hxk => rfl
    case hsh => rfl
  · refine (piece_read _ _ p 41 _ _ ?hxk ?hsh).trans (col41 x0 x1 p)
    case hxk => rfl
    case hsh => rfl

end Cert.KernelIdeal.KBlock

end
-- ==== Proof.LibGatherRows.lean ====
/-
  A general lemma: `stablehlo.gather` of a flat array at a column of start indices, read at an index.

  What `x[idx]` of a flat array `x : [N]` at an integer vector `idx : [R]` lowers to: a gather with no offset
  axes, the operand's one axis collapsed, start index map `[0]`, slice size one and the index vector on axis 1 of
  the start indices laid out as `[R, 1]`.  Result element `t` is `x` at the start index `idx[t, 0]`, read as a
  signed integer and clamped into `[0, N − 1]`.  It is the rank-one twin of the library's reading of a gather at
  an `[R, C, 1]` array of start indices, and is proved the same way.
-/
import Idealize.ShloMosaic.Lib.ValueIdx

noncomputable section

namespace Idealize.ShloMosaic.GatherRows

open Idealize.ShloMosaic Idealize.ShloMosaic.ValueIdx

variable {α : Type}

/-- The dimension numbers of `x[idx]` for an operand `[N]`, start indices `[R, 1]` and result `[R]`; their
    conditions `wf` are decided on a program's literal shapes. -/
abbrev rowDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `t`: the operand at the start index `idx[t, 0]`, read signed and clamped into
    `[0, N − 1]`. -/
theorem gather_rows_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (t : Fin R) :
    Host.gather (rowDims N R wf) x idx (ix1 t)
      = x (ix1 ⟨min (idx (ix2 t (0 : Fin 1))).toInt.toNat (N - 1), by omega⟩) := by
  unfold Host.gather
  congr 1
  funext a
  obtain rfl : a = 0 := Subsingleton.elim _ _
  refine Fin.ext ?_
  show (rowDims N R wf).start (ix1 t) idx 0 + (rowDims N R wf).batchCoord (ix1 t) 0
    + (rowDims N R wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (rowDims N R wf).startIndexMap from List.mem_singleton.mpr rfl)]
  have hsi : (rowDims N R wf).siIdx (ix1 t) ⟨List.idxOf (0 : Fin 1) (rowDims N R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]
  rfl

end Idealize.ShloMosaic.GatherRows

end
-- ==== Proof.KArrays.lean ====
/-
  The two arrays the pipelined region reads.

  Before the region the program normalises each index word (a negative index counts from the end), reads the
  distance array at the normalised index (signed, clamped into range) and extends the `2000000` gathered distances
  by `896` copies of `1.0`; it extends the angle array by `896` zeros.  At a row `r < 2000000` the first array holds
  the distance at the row the `r`-th index word selects and the second the `r`-th angle; the `896` rows after them
  are padding that the final slice drops, and nothing below speaks about them.
-/
import proofs.«113305_j49366354100415_2_alg».proof.Proof.Gen.KernelIdeal.Frame
import proofs.«113305_j49366354100415_2_alg».proof.Proof.Spec
import proofs.«113305_j49366354100415_2_alg».proof.Proof.LibGatherRows
import Idealize.ShloMosaic.Lib.KernelVsHost

noncomputable section

namespace Cert.KernelIdeal.KArrays

open Idealize.ShloMosaic Idealize.ShloMosaic.ValueIdx Idealize.ShloMosaic.TcCoe Idealize.ShloMosaic.GatherRows
open Idealize.SL.Sem
open Cert.KernelIdeal Cert.KernelIdeal.Gen

variable (m : (ℓ : Loc nD τ sig) → Buf (Elt Ideal) ℓ)

/-- The index words after normalisation: where the word is negative, the word plus `500000`. -/
abbrev normalised (idx : IVec S2000000 32) : IVec S2000000 32 :=
  select (cmpi CmpIPredicate.slt idx (broadcastInDim S2000000 ![] bcast_S_S2000000 (constantI S_ 32 0#32)))
    (addi idx (broadcastInDim S2000000 ![] bcast_S_S2000000 (constantI S_ 32 500000#32))) idx

/-- The first array the region reads: the distances gathered at the normalised indices, padded with `1.0`. -/
theorem dist_array (c : Dev nD) : (V m c main_v7 : S2000896.Idx → EReal) =
    pad S2000896 ![0] ![896] ![0]
      (Host.gather gather_S500000_S2000000x1_S2000000_n_0_n_n_0_1_1 (m ((c : Thread nD τ).loc main_arg0))
        (broadcastInDim S2000000x1 ![0] bcast_S2000000_S2000000x1_0 (normalised (m ((c : Thread nD τ).loc main_arg2)))))
      (constant (F := Ideal) S_ .f32 0x3F800000#32) pads_S2000000_S2000896_08960 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The second array the region reads: the angles, padded with zeros. -/
theorem angle_array (c : Dev nD) : (V m c main_v8 : S2000896.Idx → EReal) =
    pad S2000896 ![0] ![896] ![0] (m ((c : Thread nD τ).loc main_arg1))
      (constant (F := Ideal) S_ .f32 0x00000000#32) pads_S2000000_S2000896_08960 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- Row `r` of a padded array, for `r` below the operand's length, is the operand's row `r` (no low padding, no
    interior padding). -/
theorem pad_row {α : Type} (x : S2000000.Idx → α) (v : S_.Idx → α) (r : Fin 2000896) (hr : r.val < 2000000) :
    pad S2000896 ![0] ![896] ![0] x v pads_S2000000_S2000896_08960 h_S_ (ix1 r) = x (ix1 ⟨r.val, hr⟩) :=
  pad_apply_of_inside _ _ _ x v pads_S2000000_S2000896_08960 h_S_ (ix1 r) (ix1 ⟨r.val, hr⟩) (by
    intro a
    have ha : a = 0 := Subsingleton.elim _ _
    subst ha
    show r.val = 0 + r.val * (0 + 1)
    omega)

/-- The normalised index word at a row is the scalar normalisation of the word there. -/
theorem normalised_apply (idx : IVec S2000000 32) (t : Fin 2000000) :
    normalised idx (ix1 t) = Basis.normIdx (idx (ix1 t)) := rfl

/-- The start index of the gather at row `t`: the index words laid out as a column, read at `(t, 0)`. -/
theorem start_index (idx : IVec S2000000 32) (t : Fin 2000000) :
    broadcastInDim S2000000x1 ![0] bcast_S2000000_S2000000x1_0 (normalised idx) (ix2 t (0 : Fin 1))
      = Basis.normIdx (idx (ix1 t)) :=
  broadcastInDim_apply _ _ _ _ (ix1 t) (by
    intro a
    have ha : a = 0 := Subsingleton.elim _ _
    subst ha
    rw [if_neg (by decide)]
    rfl)

/-- THE DISTANCE ARRAY AT A ROW below `2000000`: the distance at the row the index word there selects. -/
theorem dist_row (c : Dev nD) (r : Fin 2000896) (hr : r.val < 2000000) :
    V m c main_v7 (ix1 r)
      = m ((c : Thread nD τ).loc main_arg0) (ix1 (Basis.row (m ((c : Thread nD τ).loc main_arg2) (ix1 ⟨r.val, hr⟩)))) := by
  rw [dist_array, pad_row _ _ r hr]
  show Host.gather (rowDims 500000 2000000 gather_S500000_S2000000x1_S2000000_n_0_n_n_0_1_1_wf) _ _ (ix1 _) = _
  rw [gather_rows_apply (by decide)]
  refine congrArg (m ((c : Thread nD τ).loc main_arg0)) (congrArg ix1 (Fin.ext ?_))
  show min (BitVec.toInt (broadcastInDim S2000000x1 ![0] bcast_S2000000_S2000000x1_0
      (normalised (m ((c : Thread nD τ).loc main_arg2))) (ix2 ⟨r.val, hr⟩ (0 : Fin 1)))).toNat (500000 - 1) = _
  rw [start_index]
  rfl

/-- THE ANGLE ARRAY AT A ROW below `2000000`: the angle there. -/
theorem angle_row (c : Dev nD) (r : Fin 2000896) (hr : r.val < 2000000) :
    V m c main_v8 (ix1 r) = m ((c : Thread nD τ).loc main_arg1) (ix1 ⟨r.val, hr⟩) := by
  rw [angle_array, pad_row _ _ r hr]

end Cert.KernelIdeal.KArrays

end
-- ==== Proof.KValue.lean ====
/-
  From blocks to the result array, and the run.

  The region writes a `[2000896, 42]` array in `1954` blocks of `1024` rows; block `t` is computed from rows
  `1024 t … 1024 t + 1023` of the two padded input arrays.  So the whole array is one function of those two
  arrays: entry `(r, j)` is the specification's entry `j` at the scaled distance and the cosine of the angle of row `r`
  (`cell`).  Every index lies in the block of point `r / 1024`, so after the run the array holds `cell` everywhere.
  The last host operation keeps rows `0 … 1999999`, where the padded arrays are the gathered distances and the
  angles themselves: the result is `Basis.out` of the three arguments.
-/
import proofs.«113305_j49366354100415_2_alg».proof.Proof.KBlock
import proofs.«113305_j49366354100415_2_alg».proof.Proof.KArrays
import Idealize.ShloMosaic.Lib.Pipeline.Value

noncomputable section

namespace Cert.KernelIdeal.KValue

open Idealize.ShloMosaic Idealize.ShloMosaic.ValueIdx Idealize.ShloMosaic.TcCoe
open Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- Entry `(r, j)` of the padded result from the two padded arrays: the specification's entry `j` at the scaled
    distance and the cosine of the angle of row `r`. -/
def cell (d a : S2000896.Idx → EReal) : S2000896x42.Idx → EReal := fun i =>
  Basis.entry ⟨(i 1).val, idx2_lt1 i⟩ (d (ix1 ⟨(i 0).val, idx2_lt0 i⟩) * ((1 / 5 : ℝ) : EReal))
    (Ideal.cos (a (ix1 ⟨(i 0).val, idx2_lt0 i⟩)))

/-- The cell at explicit coordinates. -/
theorem cell_apply (d a : S2000896.Idx → EReal) (r : Fin 2000896) (j : Fin 42) :
    cell d a (ix2 r j) = Basis.entry j (d (ix1 r) * ((1 / 5 : ℝ) : EReal)) (Ideal.cos (a (ix1 r))) := rfl

/-- A block entry is the cell of the array index it is written to, when the block's row `y 0` of each input block
    is row `r` of the corresponding array and the array index has row `r` and the block entry's column. -/
theorem block_point (x0 x1 : Vec Ideal S1024 .f32) (d a : S2000896.Idx → EReal) (y : S1024x42.Idx)
    (k : S2000896x42.Idx) (r : Fin 2000896) (hk0 : (k 0).val = r.val) (hk1 : (k 1).val = (y 1).val)
    (hx0 : x0 (ix1 ⟨(y 0).val, idx2_lt0 y⟩) = d (ix1 r)) (hx1 : x1 (ix1 ⟨(y 0).val, idx2_lt0 y⟩) = a (ix1 r)) :
    out0_2 (F := Ideal) x0 x1 y = cell d a k := by
  obtain ⟨p, j, rfl⟩ : ∃ (p : Fin 1024) (j : Fin 42), y = ix2 p j := ⟨y 0, y 1, eq_ix2 y⟩
  rw [KBlock.block_apply]
  have e0 : (⟨(k 0).val, idx2_lt0 k⟩ : Fin 2000896) = r := Fin.ext hk0
  have e1 : (⟨(k 1).val, idx2_lt1 k⟩ : Fin 42) = j := Fin.ext hk1
  unfold cell
  rw [e0, e1, ← hx0, ← hx1]

/-- The index maps over the grid: at point `t` every window is at block `t` along the rows, and the output at block
    `0` along the columns. -/
theorem idx_facts : ∀ t : Fin cfg0.N, win0_0.index t (0 : Fin 1) = t.val ∧ win0_1.index t (0 : Fin 1) = t.val
    ∧ win0_2.index t (0 : Fin 2) = t.val ∧ win0_2.index t (1 : Fin 2) = 0 :=
  (by decide +kernel : ∀ t : Fin grid0.N, win0_0.index t (0 : Fin 1) = t.val ∧ win0_1.index t (0 : Fin 1) = t.val
    ∧ win0_2.index t (0 : Fin 2) = t.val ∧ win0_2.index t (1 : Fin 2) = 0)

/-- WHAT POINT `t` WRITES BACK is block `t` of `cell` of the two arrays the region reads. -/
theorem flushed_eq (c : Dev nD) (t : Fin cfg0.N) :
    (dats m 0 c).flushed 2 t
      = ((cfg0.win 2).blk t).view.read (Elt Ideal) (cell (V m c main_v7) (V m c main_v8)) := by
  show (cfg0.win 2).cut (grid0.coords t) ((dats m 0 c).after 2 t) = _
  rw [after0_2]
  obtain ⟨e0, e1, e2, e3⟩ := idx_facts t
  have ht : t.val < 1954 := Nat.lt_of_lt_of_eq t.isLt (show cfg0.N = 1954 from N_0)
  funext y
  have hy0 : (y 0).val < 1024 := (y 0).isLt
  refine block_point (iblk m c 0 t) (iblk m c 1 t) (V m c main_v7) (V m c main_v8) y
    (((cfg0.win 2).blk t).view.emb y) ⟨t.val * 1024 + (y 0).val, by omega⟩ ?_ ?_ ?_ ?_
  · show win0_2.index t (0 : Fin 2) * 1024 + 1 * (y 0).val = t.val * 1024 + (y 0).val
    omega
  · show win0_2.index t (1 : Fin 2) * 42 + 1 * (y 1).val = (y 1).val
    omega
  · show V m c main_v7 (((cfg0.win 0).blk t).view.emb (ix1 ⟨(y 0).val, hy0⟩)) = _
    refine congrArg (V m c main_v7) (funext fun a => Fin.ext ?_)
    match a with
    | ⟨0, _⟩ =>
      show win0_0.index t (0 : Fin 1) * 1024 + 1 * (y 0).val = t.val * 1024 + (y 0).val
      omega
  · show V m c main_v8 (((cfg0.win 1).blk t).view.emb (ix1 ⟨(y 0).val, hy0⟩)) = _
    refine congrArg (V m c main_v8) (funext fun a => Fin.ext ?_)
    match a with
    | ⟨0, _⟩ =>
      show win0_1.index t (0 : Fin 1) * 1024 + 1 * (y 0).val = t.val * 1024 + (y 0).val
      omega

/-- An index of the array is in point `t`'s block iff each coordinate is in the block's range on its axis. -/
theorem mem_blk (t : Fin cfg0.N) (i : S2000896x42.Idx) :
    i ∈ ((cfg0.win 2).blk t).view.set ↔ ∀ a : Fin 2, win0_2.index t a * S1024x42.size a ≤ (i a).val
      ∧ (i a).val < win0_2.index t a * S1024x42.size a + S1024x42.size a := by
  show i ∈ ((View.whole main_v9).slice (win0_2.rect t)).set ↔ _
  rw [View.set_slice_whole, Rect.mem_set_unit]
  exact Iff.rfl

/-- Every index is in the block of the point its row over `1024` names. -/
theorem cover (i : S2000896x42.Idx) :
    ∃ t : Fin cfg0.N, (cfg0.win 2).flush t = true ∧ i ∈ ((cfg0.win 2).blk t).view.set := by
  have h0 : (i 0).val < 2000896 := idx2_lt0 i
  have h1 : (i 1).val < 42 := idx2_lt1 i
  have hN : cfg0.N = 1954 := N_0
  have hq : (i 0).val / 1024 < cfg0.N := by rw [hN]; omega
  obtain ⟨e0, e1, e2, e3⟩ := idx_facts ⟨(i 0).val / 1024, hq⟩
  refine ⟨⟨(i 0).val / 1024, hq⟩, flush0_2 _, ?_⟩
  rw [mem_blk]
  intro a
  match a with
  | ⟨0, _⟩ =>
    show win0_2.index ⟨(i 0).val / 1024, hq⟩ (0 : Fin 2) * 1024 ≤ (i 0).val
      ∧ (i 0).val < win0_2.index ⟨(i 0).val / 1024, hq⟩ (0 : Fin 2) * 1024 + 1024
    rw [e2]
    show (i 0).val / 1024 * 1024 ≤ (i 0).val ∧ (i 0).val < (i 0).val / 1024 * 1024 + 1024
    omega
  | ⟨1, _⟩ =>
    show win0_2.index ⟨(i 0).val / 1024, hq⟩ (1 : Fin 2) * 42 ≤ (i 1).val
      ∧ (i 1).val < win0_2.index ⟨(i 0).val / 1024, hq⟩ (1 : Fin 2) * 42 + 42
    rw [e3]
    omega

/-- THE ARRAY after the region: `cell` of the two arrays the region reads. -/
theorem final (c : Dev nD) :
    (dats m 0 c).arrAt 2 cfg0.N = cell (V m c main_v7) (V m c main_v8) :=
  (dats m 0 c).arrAt_eq_of_cover 2 (cell (V m c main_v7) (V m c main_v8)) (fun t _ => flushed_eq m c t) cover

/-- THE RESULT: the rows the last host operation keeps are rows of the gathered distances and of the angles
    themselves, so the kept part of the array is `Basis.out` of the three arguments. -/
theorem result (c : Dev nD) :
    Pipeline.afterTail₀ cfgs (dats m) 0 (V0 m) [hostOps1] c main_v10
      = Basis.out (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v10) = _
  after_results
  rw [show Pipeline.withArrays (cfgs 0).spec c (V0 m c) (fun w => (dats m 0 c).arrAt w (cfgs 0).N)
        (Proc.devRef .tc main_v9) = cell (V m c main_v7) (V m c main_v8) from
      (Pipeline.withArrays_arr spec0 launch0.win.arr_inj c _ _ 2).trans (final m c)]
  funext y
  obtain ⟨r, j, rfl⟩ : ∃ (r : Fin 2000000) (j : Fin 42), y = ix2 r j := ⟨y 0, y 1, eq_ix2 y⟩
  have hr : r.val < 2000896 := Nat.lt_trans r.isLt (by decide)
  rw [extractStridedSlice_apply _ _ _ (ix2 r j) (ix2 (⟨r.val, hr⟩ : Fin 2000896) j) (by
    intro a
    match a with
    | ⟨0, _⟩ => show r.val = 0 + r.val; omega
    | ⟨1, _⟩ => show j.val = 0 + j.val; omega)]
  rw [Basis.out_apply, cell_apply, KArrays.dist_row m c ⟨r.val, hr⟩ r.isLt, KArrays.angle_row m c ⟨r.val, hr⟩ r.isLt]

/-- THE RUN, READ: the result buffer ends at `Basis.out` of the three arguments, which are unchanged. -/
theorem run : θ_run (Cert.KernelIdeal.defs (F := Ideal)) (onTc (τ := τ) (main (F := Ideal))) ⟨m, fun _ => 0, ρ⟩ (fun r => ∀ c : Dev nD,
      r.2.mem ((c.tc : Thread nD τ).loc main_v10) = Basis.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v10 (Pipeline.mem_restRefs_of main_v10 (by decide) (by decide))).trans (result m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.KValue

end
-- ==== Proof.RefOps.lean ====
/- The reference program's 334 host operations, in order, as seventeen consecutive segments `seg0` … `seg16`; each
   segment's operations use only references (every operation's buffers lie among the TensorCore references:
   `segK_sub`). The cut points are the printed windows of @main (every 60 statements) refined by the stages of the
   computation: the scaled distance; seven Bessel blocks; their stacking; the envelope; the Legendre block; the gather. -/
import proofs.«113305_j49366354100415_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 6 of @main. -/
def seg0 : List (HloOp τ sig (Elt F)) :=
  [ nullary main_cst (fun i => FloatOps.ofBits .f32 (lit0 (S7x6.rowMajor i))),
    nullary main_cst_0 (fun i => FloatOps.ofBits .f32 (lit1 (S7x6.rowMajor i))),
    nullary main_cst_1 (fun i => FloatOps.ofBits .f32 (lit2 (S7.rowMajor i))),
    nullary main_cst_2 (constant S_ .f32 0x40A00000#32),
    unary main_cst_2 main_v0 (broadcastInDim S500000 ![] bcast_S_S500000 : (⟨S_, .f32⟩ : BufTy).Contents (Elt F) → (⟨S500000, .f32⟩ : BufTy).Contents (Elt F)),
    binary main_arg0 main_v0 main_v1 (Host.divf : (⟨S500000, .f32⟩ : BufTy).Contents (Elt F) → (⟨S500000, .f32⟩ : BufTy).Contents (Elt F) → (⟨S500000, .f32⟩ : BufTy).Contents (Elt F)) ]

/-- The references they write. -/
def seg0_outs : List (Ref sig .tc) := [main_cst, main_cst_0, main_cst_1, main_cst_2, main_v0, main_v1]

theorem seg0_sub : (seg0 : List (HloOp τ sig (Elt F))).Forall fun op => op.bufs ⊆ tcRefs τ sig :=
  ⟨nullary_bufs_sub .., nullary_bufs_sub .., nullary_bufs_sub .., nullary_bufs_sub .., unary_bufs_sub .., binary_bufs_sub ..⟩

/-- Operations 7 … 20 of @main. -/
def seg1 : List (HloOp τ sig (Elt F)) :=
  [ unary main_cst main_v2 ((extractStridedSlice S1x6 ![0, 0] · slices_S7x6_S1x6_0_0) : (⟨S7x6, .f32⟩ : BufTy).Contents (Elt F) → (⟨S1x6, .f32⟩ : BufTy).Contents (Elt F)),
    reshape main_v2 main_v3 rfl shapeCasts_S1x6_S6,
    unary main_cst_0 main_v4 ((extractStridedSlice S1x6 ![0, 0] · slices_S7x6_S1x6_0_0) : (⟨S7x6, .f32⟩ : BufTy).Contents (Elt F) → (⟨S1x6, .f32⟩ : BufTy).Contents (Elt F)),
    reshape main_v4 main_v5 rfl shapeCasts_S1x6_S6,
    unary main_v1 main_v6 (broadcastInDim S500000x1 ![0] bcast_S500000_S500000x1_0 : (⟨S500000, .f32⟩ : BufTy).Contents (Elt F) → (⟨S500000x1, .f32⟩ : BufTy).Contents (Elt F)),
    unary main_v5 main_v7 (broadcastInDim S1x6 ![1] bcast_S6_S1x6_1 : (⟨S6, .f32⟩ : BufTy).Contents (Elt F) → (⟨S1x6, .f32⟩ : BufTy).Contents (Elt F)),
    unary main_v7 main_v8 (broadcastInDim S500000x6 ![0, 1] bcast_S1x6_S500000x6_0_1 : (⟨S1x6, .f32⟩ : BufTy).Contents (Elt F) → (⟨S500000x6, .f32⟩ : BufTy).Contents (Elt F)),
    unary main_v6 main_v9 (broadcastInDim S500000x6 ![0, 1] bcast_S500000x1_S500000x6_0_1 : (⟨S500000x1, .f32⟩ : BufTy).Contents (Elt F) → (⟨S500000x6, .f32⟩ : BufTy).Contents (Elt F)),
    binary main_v8 main_v9 main_v10 (mulf : (⟨S500000x6, .f32⟩ : BufTy).Contents (Elt F) → (⟨S500000x6, .f32⟩ : BufTy).Contents (Elt F) → (⟨S500000x6, .f32⟩ : BufTy).Contents (Elt F)),
    unary main_v10 main_v11 (Host.sin : (⟨S500000x6, .f32⟩ : BufTy).Contents (Elt F) → (⟨S500000x6, .f32⟩ : BufTy).Contents (Elt F)),
    binary main_v11 main_v10 main_v12 (Host.divf : (⟨S500000x6, .f32⟩ : BufTy).Contents (Elt F) → (⟨S500000x6, .f32⟩ : BufTy).Contents (Elt F) → (⟨S500000x6, .f32⟩ : BufTy).Contents (Elt F)),
    unary main_v3 main_v13 (broadcastInDim S1x6 ![1] bcast_S6_S1x6_1 : (⟨S6, .f32⟩ : BufTy).Contents (Elt F) → (⟨S1x6, .f32⟩ : BufTy).Contents (Elt F)),
    unary main_v13 main_v14 (broadcastInDim S500000x6 ![0, 1] bcast_S1x6_S500000x6_0_1 : (⟨S1x6, .f32⟩ : BufTy).Contents (Elt F) → (⟨S500000x6, .f32⟩ : BufTy).Contents (Elt F)),
    binary main_v14 main_v12 main_v15 (mulf : (⟨S500000x6, .f32⟩ : BufTy).Contents (Elt F) → (⟨S500000x6, .f32⟩ : BufTy).Contents (Elt F) → (⟨S500000x6, .f32⟩ : BufTy).Contents (Elt F)) ]

/-- The references they write. -/
def seg1_outs : List (Ref sig .tc) := [main_v2, main_v3, main_v4, main_v5, main_v6, main_v7, main_v8, main_v9, main_v10, main_v11, main_v12, main_v13, main_v14, main_v15]

theorem seg1_sub : (seg1 : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., unary_bufs_sub .., binary_bufs_sub .., unary_bufs_sub .., binary_bufs_sub .., unary_bufs_sub .., unary_bufs_sub .., binary_bufs_sub ..⟩

/-- Operations 21 … 40 of @main. -/
def seg2 : List (HloOp τ sig (Elt F)) :=
  [ unary main_cst main_v16 ((extractStridedSlice S1x6 ![1, 0] · slices_S7x6_S1x6_1_0) : (⟨S7x6, .f32⟩ : BufTy).Contents (Elt F) → (⟨S1x6, .f32⟩ : BufTy).Contents (Elt F)),
    reshape main_v16 main_v17 rfl shapeCasts_S1x6_S6,
    unary main_cst_0 main_v18 ((extractStridedSlice S1x6 ![1, 0] · slices_S7x6_S1x6_1_0) : (⟨S7x6, .f32⟩ : BufTy).Contents (Elt F) → (⟨S1x6, .f32⟩ : BufTy).Contents (Elt F)),
    reshape main_v18 main_v19 rfl shapeCasts_S1x6_S6,
    unary main_v1 main_v20 (broadcastInDim S500000x1 ![0] bcast_S500000_S500000x1_0 : (⟨S500000, .f32⟩ : BufTy).Contents (Elt F) → (⟨S500000x1, .f32⟩ : BufTy).Contents (Elt F)),
    unary main_v19 main_v21 (broadcastInDim S1x6 ![1] bcast_S6_S1x6_1 : (⟨S6, .f32⟩ : BufTy).Contents (Elt F) → (⟨S1x6, .f32⟩ : BufTy).Contents (Elt F)),
    unary main_v21 main_v22 (broadcastInDim S500000x6 ![0, 1] bcast_S1x6_S500000x6_0_1 : (⟨S1x6, .f32⟩ : BufTy).Contents (Elt F) → (⟨S500000x6, .f32⟩ : BufTy).Contents (Elt F)),
    unary main_v20 main_v23 (broadcastInDim S500000x6 ![0, 1] bcast_S500000x1_S500000x6_0_1 : (⟨S500000x1, .f32⟩ : BufTy).Contents (Elt F) → (⟨S500000x6, .f32⟩ : BufTy).Contents (Elt F)),
    binary main_v22 main_v23 main_v24 (mulf : (⟨S500000x6, .f32⟩ : BufTy).Contents (Elt F) → (⟨S500000x6, .f32⟩ : BufTy).Contents (Elt F) → (⟨S500000x6, .f32⟩ : BufTy).Contents (Elt F)),
    unary main_v24 main_v25 (Host.sin : (⟨S500000x6, .f32⟩ : BufTy).Contents (Elt F) → (⟨S500000x6, .f32⟩ : BufTy).Contents (Elt F)),
    binary main_v25 main_v24 main_v26 (Host.divf : (⟨S500000x6, .f32⟩ : BufTy).Contents (Elt F) → (⟨S500000x6, .f32⟩ : BufTy).Contents (Elt F) → (⟨S500000x6, .f32⟩ : BufTy).Contents (Elt F)),
    unary main_v24 main_v27 (Host.sin : (⟨S500000x6, .f32⟩ : BufTy).Contents (Elt F) → (⟨S500000x6, .f32⟩ : BufTy).Contents (Elt F)),
    binary main_v24 main_v24 main_v28 (mulf : (⟨S500000x6, .f32⟩ : BufTy).Contents (Elt F) → (⟨S500000x6, .f32⟩ : BufTy).Contents (Elt F) → (⟨S500000x6, .f32⟩ : BufTy).Contents (Elt F)),
    binary main_v27 main_v28 main_v29 (Host.divf : (⟨S500000x6, .f32⟩ : BufTy).Contents (Elt F) → (⟨S500000x6, .f32⟩ : BufTy).Contents (Elt F) → (⟨S500000x6, .f32⟩ : BufTy).Contents (Elt F)),
    unary main_v24 main_v30 (Host.cos : (⟨S500000x6, .f32⟩ : BufTy).Contents (Elt F) → (⟨S500000x6, .f32⟩ : BufTy).Contents (Elt F)),
    binary main_v30 main_v24 main_v31 (Host.divf : (⟨S500000x6, .f32⟩ : BufTy).Contents (Elt F) → (⟨S500000x6, .f32⟩ : BufTy).Contents (Elt F) → (⟨S500000x6, .f32⟩ : BufTy).Contents (Elt F)),
    binary main_v29 main_v31 main_v32 (subf : (⟨S500000x6, .f32⟩ : BufTy).Contents (Elt F) → (⟨S500000x6, .f32⟩ : BufTy).Contents (Elt F) → (⟨S500000x6, .f32⟩ : BufTy).Contents (Elt F)),
    unary main_v17 main_v33 (broadcastInDim S1x6 ![1] bcast_S6_S1x6_1 : (⟨S6, .f32⟩ : BufTy).Contents (Elt F) → (⟨S1x6, .f32⟩ : BufTy).Contents (Elt F)),
    unary main_v33 main_v34 (broadcastInDim S500000x6 ![0, 1] bcast_S1x6_S500000x6_0_1 : (⟨S1x6, .f32⟩ : BufTy).Contents (Elt F) → (⟨S500000x6, .f32⟩ : BufTy).Contents (Elt F)),
    binary main_v34 main_v32 main_v35 (mulf : (⟨S500000x6, .f32⟩ : BufTy).Contents (Elt F) → (⟨S500000x6, .f32⟩ : BufTy).Contents (Elt F) → (⟨S500000x6, .f32⟩ : BufTy).Contents (Elt F)) ]

/-- The references they write. -/
def seg2_outs : List (Ref sig .tc) := [main_v16, main_v17, main_v18, main_v19, main_v20, main_v21, main_v22, main_v23, main_v24, main_v25, main_v26, main_v27, main_v28, main_v29, main_v30, main_v31, main_v32, main_v33, main_v34, main_v35]

theorem seg2_sub : (seg2 : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., unary_bufs_sub .., unary_bufs_sub .., binary_bufs_sub ..⟩

/-- Operations 41 … 60 of @main. -/
def seg3 : List (HloOp τ sig (Elt F)) :=
  [ unary main_cst main_v36 ((extractStridedSlice S1x6 ![2, 0] · slices_S7x6_S1x6_2_0) : (⟨S7x6, .f32⟩ : BufTy).Contents (Elt F) → (⟨S1x6, .f32⟩ : BufTy).Contents (Elt F)),
    reshape main_v36 main_v37 rfl shapeCasts_S1x6_S6,
    unary main_cst_0 main_v38 ((extractStridedSlice S1x6 ![2, 0] · slices_S7x6_S1x6_2_0) : (⟨S7x6, .f32⟩ : BufTy).Contents (Elt F) → (⟨S1x6, .f32⟩ : BufTy).Contents (Elt F)),
    reshape main_v38 main_v39 rfl shapeCasts_S1x6_S6,
    unary main_v1 main_v40 (broadcastInDim S500000x1 ![0] bcast_S500000_S500000x1_0 : (⟨S500000, .f32⟩ : BufTy).Contents (Elt F) → (⟨S500000x1, .f32⟩ : BufTy).Contents (Elt F)),
    unary main_v39 main_v41 (broadcastInDim S1x6 ![1] bcast_S6_S1x6_1 : (⟨S6, .f32⟩ : BufTy).Contents (Elt F) → (⟨S1x6, .f32⟩ : BufTy).Contents (Elt F)),
    unary main_v41 main_v42 (broadcastInDim S500000x6 ![0, 1] bcast_S1x6_S500000x6_0_1 : (⟨S1x6, .f32⟩ : BufTy).Contents (Elt F) → (⟨S500000x6, .f32⟩ : BufTy).Contents (Elt F)),
    unary main_v40 main_v43 (broadcastInDim S500000x6 ![0, 1] bcast_S500000x1_S500000x6_0_1 : (⟨S500000x1, .f32⟩ : BufTy).Contents (Elt F) → (⟨S500000x6, .f32⟩ : BufTy).Contents (Elt F)),
    binary main_v42 main_v43 main_v44 (mulf : (⟨S500000x6, .f32⟩ : BufTy).Contents (Elt F) → (⟨S500000x6, .f32⟩ : BufTy).Contents (Elt F) → (⟨S500000x6, .f32⟩ : BufTy).Contents (Elt F)),
    unary main_v44 main_v45 (Host.sin : (⟨S500000x6, .f32⟩ : BufTy).Contents (Elt F) → (⟨S500000x6, .f32⟩ : BufTy).Contents (Elt F)),
    binary main_v45 main_v44 main_v46 (Host.divf : (⟨S500000x6, .f32⟩ : BufTy).Contents (Elt F) → (⟨S500000x6, .f32⟩ : BufTy).Contents (Elt F) → (⟨S500000x6, .f32⟩ : BufTy).Contents (Elt F)),
    unary main_v44 main_v47 (Host.sin : (⟨S500000x6, .f32⟩ : BufTy).Contents (Elt F) → (⟨S500000x6, .f32⟩ : BufTy).Contents (Elt F)),
    binary main_v44 main_v44 main_v48 (mulf : (⟨S500000x6, .f32⟩ : BufTy).Contents (Elt F) → (⟨S500000x6, .f32⟩ : BufTy).Contents (Elt F) → (⟨S500000x6, .f32⟩ : BufTy).Contents (Elt F)),
    binary main_v47 main_v48 main_v49 (Host.divf : (⟨S500000x6, .f32⟩ : BufTy).Contents (Elt F) → (⟨S500000x6, .f32⟩ : BufTy).Contents (Elt F) → (⟨S500000x6, .f32⟩ : BufTy).Contents (Elt F)),
    unary main_v44 main_v50 (Host.cos : (⟨S500000x6, .f32⟩ : BufTy).Contents (Elt F) → (⟨S500000x6, .f32⟩ : BufTy).Contents (Elt F)),
    binary main_v50 main_v44 main_v51 (Host.divf : (⟨S500000x6, .f32⟩ : BufTy).Contents (Elt F) → (⟨S500000x6, .f32⟩ : BufTy).Contents (Elt F) → (⟨S500000x6, .f32⟩ : BufTy).Contents (Elt F)),
    binary main_v49 main_v51 main_v52 (subf : (⟨S500000x6, .f32⟩ : BufTy).Contents (Elt F) → (⟨S500000x6, .f32⟩ : BufTy).Contents (Elt F) → (⟨S500000x6, .f32⟩ : BufTy).Contents (Elt F)),
    nullary main_cst_3 (constant S_ .f32 0x40400000#32),
    unary main_cst_3 main_v53 (broadcastInDim S500000x6 ![] bcast_S_S500000x6 : (⟨S_, .f32⟩ : BufTy).Contents (Elt F) → (⟨S500000x6, .f32⟩ : BufTy).Contents (Elt F)),
    binary main_v53 main_v44 main_v54 (Host.divf : (⟨S500000x6, .f32⟩ : BufTy).Contents (Elt F) → (⟨S500000x6, .f32⟩ : BufTy).Contents (Elt F) → (⟨S500000x6, .f32⟩ : BufTy).Contents (Elt F)) ]

/-- The references they write. -/
def seg3_outs : List (Ref sig .tc) := [main_v36, main_v37, main_v38, main_v39, main_v40, main_v41, main_v42, main_v43, main_v44, main_v45, main_v46, main_v47, main_v48, main_v49, main_v50, main_v51, main_v52, main_cst_3, main_v53, main_v54]

theorem seg3_sub : (seg3 : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub ..⟩

/-- Operations 61 … 65 of @main. -/
def seg4 : List (HloOp τ sig (Elt F)) :=
  [ binary main_v54 main_v52 main_v55 (mulf : (⟨S500000x6, .f32⟩ : BufTy).Contents (Elt F) → (⟨S500000x6, .f32⟩ : BufTy).Contents (Elt F) → (⟨S500000x6, .f32⟩ : BufTy).Contents (Elt F)),
    binary main_v55 main_v46 main_v56 (subf : (⟨S500000x6, .f32⟩ : BufTy).Contents (Elt F) → (⟨S500000x6, .f32⟩ : BufTy).Contents (Elt F) → (⟨S500000x6, .f32⟩ : BufTy).Contents (Elt F)),
    unary main_v37 main_v57 (broadcastInDim S1x6 ![1] bcast_S6_S1x6_1 : (⟨S6, .f32⟩ : BufTy).Contents (Elt F) → (⟨S1x6, .f32⟩ : BufTy).Contents (Elt F)),
    unary main_v57 main_v58 (broadcastInDim S500000x6 ![0, 1] bcast_S1x6_S500000x6_0_1 : (⟨S1x6, .f32⟩ : BufTy).Contents (Elt F) → (⟨S500000x6, .f32⟩ : BufTy).Contents (Elt F)),
    binary main_v58 main_v56 main_v59 (mulf : (⟨S500000x6, .f32⟩ : BufTy).Contents (Elt F) → (⟨S500000x6, .f32⟩ : BufTy).Contents (Elt F) → (⟨S500000x6, .f32⟩ : BufTy).Contents (Elt F)) ]

/-- The references they write. -/
def seg4_outs : List (Ref sig .tc) := [main_v55, main_v56, main_v57, main_v58, main_v59]

theorem seg4_sub : (seg4 : List (HloOp τ sig (Elt F))).Forall fun op => op.bufs ⊆ tcRefs τ sig :=
  ⟨binary_bufs_sub .., binary_bufs_sub .., unary_bufs_sub .., unary_bufs_sub .., binary_bufs_sub ..⟩

/-- Operations 66 … 95 of @main. -/
def seg5 : List (HloOp τ sig (Elt F)) :=
  [ unary main_cst main_v60 ((extractStridedSlice S1x6 ![3, 0] · slices_S7x6_S1x6_3_0) : (⟨S7x6, .f32⟩ : BufTy).Contents (Elt F) → (⟨S1x6, .f32⟩ : BufTy).Contents (Elt F)),
    reshape main_v60 main_v61 rfl shapeCasts_S1x6_S6,
    unary main_cst_0 main_v62 ((extractStridedSlice S1x6 ![3, 0] · slices_S7x6_S1x6_3_0) : (⟨S7x6, .f32⟩ : BufTy).Contents (Elt F) → (⟨S1x6, .f32⟩ : BufTy).Contents (Elt F)),
    reshape main_v62 main_v63 rfl shapeCasts_S1x6_S6,
    unary main_v1 main_v64 (broadcastInDim S500000x1 ![0] bcast_S500000_S500000x1_0 : (⟨S500000, .f32⟩ : BufTy).Contents (Elt F) → (⟨S500000x1, .f32⟩ : BufTy).Contents (Elt F)),
    unary main_v63 main_v65 (broadcastInDim S1x6 ![1] bcast_S6_S1x6_1 : (⟨S6, .f32⟩ : BufTy).Contents (Elt F) → (⟨S1x6, .f32⟩ : BufTy).Contents (Elt F)),
    unary main_v65 main_v66 (broadcastInDim S500000x6 ![0, 1] bcast_S1x6_S500000x6_0_1 : (⟨S1x6, .f32⟩ : BufTy).Contents (Elt F) → (⟨S500000x6, .f32⟩ : BufTy).Contents (Elt F)),
    unary main_v64 main_v67 (broadcastInDim S500000x6 ![0, 1] bcast_S500000x1_S500000x6_0_1 : (⟨S500000x1, .f32⟩ : BufTy).Contents (Elt F) → (⟨S500000x6, .f32⟩ : BufTy).Contents (Elt F)),
    binary main_v66 main_v67 main_v68 (mulf : (⟨S500000x6, .f32⟩ : BufTy).Contents (Elt F) → (⟨S500000x6, .f32⟩ : BufTy).Contents (Elt F) → (⟨S500000x6, .f32⟩ : BufTy).Contents (Elt F)),
    unary main_v68 main_v69 (Host.sin : (⟨S500000x6, .f32⟩ : BufTy).Contents (Elt F) → (⟨S500000x6, .f32⟩ : BufTy).Contents (Elt F)),
    binary main_v69 main_v68 main_v70 (Host.divf : (⟨S500000x6, .f32⟩ : BufTy).Contents (Elt F) → (⟨S500000x6, .f32⟩ : BufTy).Contents (Elt F) → (⟨S500000x6, .f32⟩ : BufTy).Contents (Elt F)),
    unary main_v68 main_v71 (Host.sin : (⟨S500000x6, .f32⟩ : BufTy).Contents (Elt F) → (⟨S500000x6, .f32⟩ : BufTy).Contents (Elt F)),
    binary main_v68 main_v68 main_v72 (mulf : (⟨S500000x6, .f32⟩ : BufTy).Contents (Elt F) → (⟨S500000x6, .f32⟩ : BufTy).Contents (Elt F) → (⟨S500000x6, .f32⟩ : BufTy).Contents (Elt F)),
    binary main_v71 main_v72 main_v73 (Host.divf : (⟨S500000x6, .f32⟩ : BufTy).Contents (Elt F) → (⟨S500000x6, .f32⟩ : BufTy).Contents (Elt F) → (⟨S500000x6, .f32⟩ : BufTy).Contents (Elt F)),
    unary main_v68 main_v74 (Host.cos : (⟨S500000x6, .f32⟩ : BufTy).Contents (Elt F) → (⟨S500000x6, .f32⟩ : BufTy).Contents (Elt F)),
    binary main_v74 main_v68 main_v75 (Host.divf : (⟨S500000x6, .f32⟩ : BufTy).Contents (Elt F) → (⟨S500000x6, .f32⟩ : BufTy).Contents (Elt F) → (⟨S500000x6, .f32⟩ : BufTy).Contents (Elt F)),
    binary main_v73 main_v75 main_v76 (subf : (⟨S500000x6, .f32⟩ : BufTy).Contents (Elt F) → (⟨S500000x6, .f32⟩ : BufTy).Contents (Elt F) → (⟨S500000x6, .f32⟩ : BufTy).Contents (Elt F)),
    nullary main_cst_4 (constant S_ .f32 0x40400000#32),
    unary main_cst_4 main_v77 (broadcastInDim S500000x6 ![] bcast_S_S500000x6 : (⟨S_, .f32⟩ : BufTy).Contents (Elt F) → (⟨S500000x6, .f32⟩ : BufTy).Contents (Elt F)),
    binary main_v77 main_v68 main_v78 (Host.divf : (⟨S500000x6, .f32⟩ : BufTy).Contents (Elt F) → (⟨S500000x6, .f32⟩ : BufTy).Contents (Elt F) → (⟨S500000x6, .f32⟩ : BufTy).Contents (Elt F)),
    binary main_v78 main_v76 main_v79 (mulf : (⟨S500000x6, .f32⟩ : BufTy).Contents (Elt F) → (⟨S500000x6, .f32⟩ : BufTy).Contents (Elt F) → (⟨S500000x6, .f32⟩ : BufTy).Contents (Elt F)),
    binary main_v79 main_v70 main_v80 (subf : (⟨S500000x6, .f32⟩ : BufTy).Contents (Elt F) → (⟨S500000x6, .f32⟩ : BufTy).Contents (Elt F) → (⟨S500000x6, .f32⟩ : BufTy).Contents (Elt F)),
    nullary main_cst_5 (constant S_ .f32 0x40A00000#32),
    unary main_cst_5 main_v81 (broadcastInDim S500000x6 ![] bcast_S_S500000x6 : (⟨S_, .f32⟩ : BufTy).Contents (Elt F) → (⟨S500000x6, .f32⟩ : BufTy).Contents (Elt F)),
    binary main_v81 main_v68 main_v82 (Host.divf : (⟨S500000x6, .f32⟩ : BufTy).Contents (Elt F) → (⟨S500000x6, .f32⟩ : BufTy).Contents (Elt F) → (⟨S500000x6, .f32⟩ : BufTy).Contents (Elt F)),
    binary main_v82 main_v80 main_v83 (mulf : (⟨S500000x6, .f32⟩ : BufTy).Contents (Elt F) → (⟨S500000x6, .f32⟩ : BufTy).Contents (Elt F) → (⟨S500000x6, .f32⟩ : BufTy).Contents (Elt F)),
    binary main_v83 main_v76 main_v84 (subf : (⟨S500000x6, .f32⟩ : BufTy).Contents (Elt F) → (⟨S500000x6, .f32⟩ : BufTy).Contents (Elt F) → (⟨S500000x6, .f32⟩ : BufTy).Contents (Elt F)),
    unary main_v61 main_v85 (broadcastInDim S1x6 ![1] bcast_S6_S1x6_1 : (⟨S6, .f32⟩ : BufTy).Contents (Elt F) → (⟨S1x6, .f32⟩ : BufTy).Contents (Elt F)),
    unary main_v85 main_v86 (broadcastInDim S500000x6 ![0, 1] bcast_S1x6_S500000x6_0_1 : (⟨S1x6, .f32⟩ : BufTy).Contents (Elt F) → (⟨S500000x6, .f32⟩ : BufTy).Contents (Elt F)),
    binary main_v86 main_v84 main_v87 (mulf : (⟨S500000x6, .f32⟩ : BufTy).Contents (Elt F) → (⟨S500000x6, .f32⟩ : BufTy).Contents (Elt F) → (⟨S500000x6, .f32⟩ : BufTy).Contents (Elt F)) ]

/-- The references they write. -/
def seg5_outs : List (Ref sig .tc) := [main_v60, main_v61, main_v62, main_v63, main_v64, main_v65, main_v66, main_v67, main_v68, main_v69, main_v70, main_v71, main_v72, main_v73, main_v74, main_v75, main_v76, main_cst_4, main_v77, main_v78, main_v79, main_v80, main_cst_5, main_v81, main_v82, main_v83, main_v84, main_v85, main_v86, main_v87]

theorem seg5_sub : (seg5 : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub ..⟩

/-- Operations 96 … 120 of @main. -/
def seg6 : List (HloOp τ sig (Elt F)) :=
  [ unary main_cst main_v88 ((extractStridedSlice S1x6 ![4, 0] · slices_S7x6_S1x6_4_0) : (⟨S7x6, .f32⟩ : BufTy).Contents (Elt F) → (⟨S1x6, .f32⟩ : BufTy).Contents (Elt F)),
    reshape main_v88 main_v89 rfl shapeCasts_S1x6_S6,
    unary main_cst_0 main_v90 ((extractStridedSlice S1x6 ![4, 0] · slices_S7x6_S1x6_4_0) : (⟨S7x6, .f32⟩ : BufTy).Contents (Elt F) → (⟨S1x6, .f32⟩ : BufTy).Contents (Elt F)),
    reshape main_v90 main_v91 rfl shapeCasts_S1x6_S6,
    unary main_v1 main_v92 (broadcastInDim S500000x1 ![0] bcast_S500000_S500000x1_0 : (⟨S500000, .f32⟩ : BufTy).Contents (Elt F) → (⟨S500000x1, .f32⟩ : BufTy).Contents (Elt F)),
    unary main_v91 main_v93 (broadcastInDim S1x6 ![1] bcast_S6_S1x6_1 : (⟨S6, .f32⟩ : BufTy).Contents (Elt F) → (⟨S1x6, .f32⟩ : BufTy).Contents (Elt F)),
    unary main_v93 main_v94 (broadcastInDim S500000x6 ![0, 1] bcast_S1x6_S500000x6_0_1 : (⟨S1x6, .f32⟩ : BufTy).Contents (Elt F) → (⟨S500000x6, .f32⟩ : BufTy).Contents (Elt F)),
    unary main_v92 main_v95 (broadcastInDim S500000x6 ![0, 1] bcast_S500000x1_S500000x6_0_1 : (⟨S500000x1, .f32⟩ : BufTy).Contents (Elt F) → (⟨S500000x6, .f32⟩ : BufTy).Contents (Elt F)),
    binary main_v94 main_v95 main_v96 (mulf : (⟨S500000x6, .f32⟩ : BufTy).Contents (Elt F) → (⟨S500000x6, .f32⟩ : BufTy).Contents (Elt F) → (⟨S500000x6, .f32⟩ : BufTy).Contents (Elt F)),
    unary main_v96 main_v97 (Host.sin : (⟨S500000x6, .f32⟩ : BufTy).Contents (Elt F) → (⟨S500000x6, .f32⟩ : BufTy).Contents (Elt F)),
    binary main_v97 main_v96 main_v98 (Host.divf : (⟨S500000x6, .f32⟩ : BufTy).Contents (Elt F) → (⟨S500000x6, .f32⟩ : BufTy).Contents (Elt F) → (⟨S500000x6, .f32⟩ : BufTy).Contents (Elt F)),
    unary main_v96 main_v99 (Host.sin : (⟨S500000x6, .f32⟩ : BufTy).Contents (Elt F) → (⟨S500000x6, .f32⟩ : BufTy).Contents (Elt F)),
    binary main_v96 main_v96 main_v100 (mulf : (⟨S500000x6, .f32⟩ : BufTy).Contents (Elt F) → (⟨S500000x6, .f32⟩ : BufTy).Contents (Elt F) → (⟨S500000x6, .f32⟩ : BufTy).Contents (Elt F)),
    binary main_v99 main_v100 main_v101 (Host.divf : (⟨S500000x6, .f32⟩ : BufTy).Contents (Elt F) → (⟨S500000x6, .f32⟩ : BufTy).Contents (Elt F) → (⟨S500000x6, .f32⟩ : BufTy).Contents (Elt F)),
    unary main_v96 main_v102 (Host.cos : (⟨S500000x6, .f32⟩ : BufTy).Contents (Elt F) → (⟨S500000x6, .f32⟩ : BufTy).Contents (Elt F)),
    binary main_v102 main_v96 main_v103 (Host.divf : (⟨S500000x6, .f32⟩ : BufTy).Contents (Elt F) → (⟨S500000x6, .f32⟩ : BufTy).Contents (Elt F) → (⟨S500000x6, .f32⟩ : BufTy).Contents (Elt F)),
    binary main_v101 main_v103 main_v104 (subf : (⟨S500000x6, .f32⟩ : BufTy).Contents (Elt F) → (⟨S500000x6, .f32⟩ : BufTy).Contents (Elt F) → (⟨S500000x6, .f32⟩ : BufTy).Contents (Elt F)),
    nullary main_cst_6 (constant S_ .f32 0x40400000#32),
    unary main_cst_6 main_v105 (broadcastInDim S500000x6 ![] bcast_S_S500000x6 : (⟨S_, .f32⟩ : BufTy).Contents (Elt F) → (⟨S500000x6, .f32⟩ : BufTy).Contents (Elt F)),
    binary main_v105 main_v96 main_v106 (Host.divf : (⟨S500000x6, .f32⟩ : BufTy).Contents (Elt F) → (⟨S500000x6, .f32⟩ : BufTy).Contents (Elt F) → (⟨S500000x6, .f32⟩ : BufTy).Contents (Elt F)),
    binary main_v106 main_v104 main_v107 (mulf : (⟨S500000x6, .f32⟩ : BufTy).Contents (Elt F) → (⟨S500000x6, .f32⟩ : BufTy).Contents (Elt F) → (⟨S500000x6, .f32⟩ : BufTy).Contents (Elt F)),
    binary main_v107 main_v98 main_v108 (subf : (⟨S500000x6, .f32⟩ : BufTy).Contents (Elt F) → (⟨S500000x6, .f32⟩ : BufTy).Contents (Elt F) → (⟨S500000x6, .f32⟩ : BufTy).Contents (Elt F)),
    nullary main_cst_7 (constant S_ .f32 0x40A00000#32),
    unary main_cst_7 main_v109 (broadcastInDim S500000x6 ![] bcast_S_S500000x6 : (⟨S_, .f32⟩ : BufTy).Contents (Elt F) → (⟨S500000x6, .f32⟩ : BufTy).Contents (Elt F)),
    binary main_v109 main_v96 main_v110 (Host.divf : (⟨S500000x6, .f32⟩ : BufTy).Contents (Elt F) → (⟨S500000x6, .f32⟩ : BufTy).Contents (Elt F) → (⟨S500000x6, .f32⟩ : BufTy).Contents (Elt F)) ]

/-- The references they write. -/
def seg6_outs : List (Ref sig .tc) := [main_v88, main_v89, main_v90, main_v91, main_v92, main_v93, main_v94, main_v95, main_v96, main_v97, main_v98, main_v99, main_v100, main_v101, main_v102, main_v103, main_v104, main_cst_6, main_v105, main_v106, main_v107, main_v108, main_cst_7, main_v109, main_v110]

theorem seg6_sub : (seg6 : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub ..⟩

/-- Operations 121 … 130 of @main. -/
def seg7 : List (HloOp τ sig (Elt F)) :=
  [ binary main_v110 main_v108 main_v111 (mulf : (⟨S500000x6, .f32⟩ : BufTy).Contents (Elt F) → (⟨S500000x6, .f32⟩ : BufTy).Contents (Elt F) → (⟨S500000x6, .f32⟩ : BufTy).Contents (Elt F)),
    binary main_v111 main_v104 main_v112 (subf : (⟨S500000x6, .f32⟩ : BufTy).Contents (Elt F) → (⟨S500000x6, .f32⟩ : BufTy).Contents (Elt F) → (⟨S500000x6, .f32⟩ : BufTy).Contents (Elt F)),
    nullary main_cst_8 (constant S_ .f32 0x40E00000#32),
    unary main_cst_8 main_v113 (broadcastInDim S500000x6 ![] bcast_S_S500000x6 : (⟨S_, .f32⟩ : BufTy).Contents (Elt F) → (⟨S500000x6, .f32⟩ : BufTy).Contents (Elt F)),
    binary main_v113 main_v96 main_v114 (Host.divf : (⟨S500000x6, .f32⟩ : BufTy).Contents (Elt F) → (⟨S500000x6, .f32⟩ : BufTy).Contents (Elt F) → (⟨S500000x6, .f32⟩ : BufTy).Contents (Elt F)),
    binary main_v114 main_v112 main_v115 (mulf : (⟨S500000x6, .f32⟩ : BufTy).Contents (Elt F) → (⟨S500000x6, .f32⟩ : BufTy).Contents (Elt F) → (⟨S500000x6, .f32⟩ : BufTy).Contents (Elt F)),
    binary main_v115 main_v108 main_v116 (subf : (⟨S500000x6, .f32⟩ : BufTy).Contents (Elt F) → (⟨S500000x6, .f32⟩ : BufTy).Contents (Elt F) → (⟨S500000x6, .f32⟩ : BufTy).Contents (Elt F)),
    unary main_v89 main_v117 (broadcastInDim S1x6 ![1] bcast_S6_S1x6_1 : (⟨S6, .f32⟩ : BufTy).Contents (Elt F) → (⟨S1x6, .f32⟩ : BufTy).Contents (Elt F)),
    unary main_v117 main_v118 (broadcastInDim S500000x6 ![0, 1] bcast_S1x6_S500000x6_0_1 : (⟨S1x6, .f32⟩ : BufTy).Contents (Elt F) → (⟨S500000x6, .f32⟩ : BufTy).Contents (Elt F)),
    binary main_v118 main_v116 main_v119 (mulf : (⟨S500000x6, .f32⟩ : BufTy).Contents (Elt F) → (⟨S500000x6, .f32⟩ : BufTy).Contents (Elt F) → (⟨S500000x6, .f32⟩ : BufTy).Contents (Elt F)) ]

/-- The references they write. -/
def seg7_outs : List (Ref sig .tc) := [main_v111, main_v112, main_cst_8, main_v113, main_v114, main_v115, main_v116, main_v117, main_v118, main_v119]

theorem seg7_sub : (seg7 : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., unary_bufs_sub .., unary_bufs_sub .., binary_bufs_sub ..⟩

/-- Operations 131 … 170 of @main. -/
def seg8 : List (HloOp τ sig (Elt F)) :=
  [ unary main_cst main_v120 ((extractStridedSlice S1x6 ![5, 0] · slices_S7x6_S1x6_5_0) : (⟨S7x6, .f32⟩ : BufTy).Contents (Elt F) → (⟨S1x6, .f32⟩ : BufTy).Contents (Elt F)),
    reshape main_v120 main_v121 rfl shapeCasts_S1x6_S6,
    unary main_cst_0 main_v122 ((extractStridedSlice S1x6 ![5, 0] · slices_S7x6_S1x6_5_0) : (⟨S7x6, .f32⟩ : BufTy).Contents (Elt F) → (⟨S1x6, .f32⟩ : BufTy).Contents (Elt F)),
    reshape main_v122 main_v123 rfl shapeCasts_S1x6_S6,
    unary main_v1 main_v124 (broadcastInDim S500000x1 ![0] bcast_S500000_S500000x1_0 : (⟨S500000, .f32⟩ : BufTy).Contents (Elt F) → (⟨S500000x1, .f32⟩ : BufTy).Contents (Elt F)),
    unary main_v123 main_v125 (broadcastInDim S1x6 ![1] bcast_S6_S1x6_1 : (⟨S6, .f32⟩ : BufTy).Contents (Elt F) → (⟨S1x6, .f32⟩ : BufTy).Contents (Elt F)),
    unary main_v125 main_v126 (broadcastInDim S500000x6 ![0, 1] bcast_S1x6_S500000x6_0_1 : (⟨S1x6, .f32⟩ : BufTy).Contents (Elt F) → (⟨S500000x6, .f32⟩ : BufTy).Contents (Elt F)),
    unary main_v124 main_v127 (broadcastInDim S500000x6 ![0, 1] bcast_S500000x1_S500000x6_0_1 : (⟨S500000x1, .f32⟩ : BufTy).Contents (Elt F) → (⟨S500000x6, .f32⟩ : BufTy).Contents (Elt F)),
    binary main_v126 main_v127 main_v128 (mulf : (⟨S500000x6, .f32⟩ : BufTy).Contents (Elt F) → (⟨S500000x6, .f32⟩ : BufTy).Contents (Elt F) → (⟨S500000x6, .f32⟩ : BufTy).Contents (Elt F)),
    unary main_v128 main_v129 (Host.sin : (⟨S500000x6, .f32⟩ : BufTy).Contents (Elt F) → (⟨S500000x6, .f32⟩ : BufTy).Contents (Elt F)),
    binary main_v129 main_v128 main_v130 (Host.divf : (⟨S500000x6, .f32⟩ : BufTy).Contents (Elt F) → (⟨S500000x6, .f32⟩ : BufTy).Contents (Elt F) → (⟨S500000x6, .f32⟩ : BufTy).Contents (Elt F)),
    unary main_v128 main_v131 (Host.sin : (⟨S500000x6, .f32⟩ : BufTy).Contents (Elt F) → (⟨S500000x6, .f32⟩ : BufTy).Contents (Elt F)),
    binary main_v128 main_v128 main_v132 (mulf : (⟨S500000x6, .f32⟩ : BufTy).Contents (Elt F) → (⟨S500000x6, .f32⟩ : BufTy).Contents (Elt F) → (⟨S500000x6, .f32⟩ : BufTy).Contents (Elt F)),
    binary main_v131 main_v132 main_v133 (Host.divf : (⟨S500000x6, .f32⟩ : BufTy).Contents (Elt F) → (⟨S500000x6, .f32⟩ : BufTy).Contents (Elt F) → (⟨S500000x6, .f32⟩ : BufTy).Contents (Elt F)),
    unary main_v128 main_v134 (Host.cos : (⟨S500000x6, .f32⟩ : BufTy).Contents (Elt F) → (⟨S500000x6, .f32⟩ : BufTy).Contents (Elt F)),
    binary main_v134 main_v128 main_v135 (Host.divf : (⟨S500000x6, .f32⟩ : BufTy).Contents (Elt F) → (⟨S500000x6, .f32⟩ : BufTy).Contents (Elt F) → (⟨S500000x6, .f32⟩ : BufTy).Contents (Elt F)),
    binary main_v133 main_v135 main_v136 (subf : (⟨S500000x6, .f32⟩ : BufTy).Contents (Elt F) → (⟨S500000x6, .f32⟩ : BufTy).Contents (Elt F) → (⟨S500000x6, .f32⟩ : BufTy).Contents (Elt F)),
    nullary main_cst_9 (constant S_ .f32 0x40400000#32),
    unary main_cst_9 main_v137 (broadcastInDim S500000x6 ![] bcast_S_S500000x6 : (⟨S_, .f32⟩ : BufTy).Contents (Elt F) → (⟨S500000x6, .f32⟩ : BufTy).Contents (Elt F)),
    binary main_v137 main_v128 main_v138 (Host.divf : (⟨S500000x6, .f32⟩ : BufTy).Contents (Elt F) → (⟨S500000x6, .f32⟩ : BufTy).Contents (Elt F) → (⟨S500000x6, .f32⟩ : BufTy).Contents (Elt F)),
    binary main_v138 main_v136 main_v139 (mulf : (⟨S500000x6, .f32⟩ : BufTy).Contents (Elt F) → (⟨S500000x6, .f32⟩ : BufTy).Contents (Elt F) → (⟨S500000x6, .f32⟩ : BufTy).Contents (Elt F)),
    binary main_v139 main_v130 main_v140 (subf : (⟨S500000x6, .f32⟩ : BufTy).Contents (Elt F) → (⟨S500000x6, .f32⟩ : BufTy).Contents (Elt F) → (⟨S500000x6, .f32⟩ : BufTy).Contents (Elt F)),
    nullary main_cst_10 (constant S_ .f32 0x40A00000#32),
    unary main_cst_10 main_v141 (broadcastInDim S500000x6 ![] bcast_S_S500000x6 : (⟨S_, .f32⟩ : BufTy).Contents (Elt F) → (⟨S500000x6, .f32⟩ : BufTy).Contents (Elt F)),
    binary main_v141 main_v128 main_v142 (Host.divf : (⟨S500000x6, .f32⟩ : BufTy).Contents (Elt F) → (⟨S500000x6, .f32⟩ : BufTy).Contents (Elt F) → (⟨S500000x6, .f32⟩ : BufTy).Contents (Elt F)),
    binary main_v142 main_v140 main_v143 (mulf : (⟨S500000x6, .f32⟩ : BufTy).Contents (Elt F) → (⟨S500000x6, .f32⟩ : BufTy).Contents (Elt F) → (⟨S500000x6, .f32⟩ : BufTy).Contents (Elt F)),
    binary main_v143 main_v136 main_v144 (subf : (⟨S500000x6, .f32⟩ : BufTy).Contents (Elt F) → (⟨S500000x6, .f32⟩ : BufTy).Contents (Elt F) → (⟨S500000x6, .f32⟩ : BufTy).Contents (Elt F)),
    nullary main_cst_11 (constant S_ .f32 0x40E00000#32),
    unary main_cst_11 main_v145 (broadcastInDim S500000x6 ![] bcast_S_S500000x6 : (⟨S_, .f32⟩ : BufTy).Contents (Elt F) → (⟨S500000x6, .f32⟩ : BufTy).Contents (Elt F)),
    binary main_v145 main_v128 main_v146 (Host.divf : (⟨S500000x6, .f32⟩ : BufTy).Contents (Elt F) → (⟨S500000x6, .f32⟩ : BufTy).Contents (Elt F) → (⟨S500000x6, .f32⟩ : BufTy).Contents (Elt F)),
    binary main_v146 main_v144 main_v147 (mulf : (⟨S500000x6, .f32⟩ : BufTy).Contents (Elt F) → (⟨S500000x6, .f32⟩ : BufTy).Contents (Elt F) → (⟨S500000x6, .f32⟩ : BufTy).Contents (Elt F)),
    binary main_v147 main_v140 main_v148 (subf : (⟨S500000x6, .f32⟩ : BufTy).Contents (Elt F) → (⟨S500000x6, .f32⟩ : BufTy).Contents (Elt F) → (⟨S500000x6, .f32⟩ : BufTy).Contents (Elt F)),
    nullary main_cst_12 (constant S_ .f32 0x41100000#32),
    unary main_cst_12 main_v149 (broadcastInDim S500000x6 ![] bcast_S_S500000x6 : (⟨S_, .f32⟩ : BufTy).Contents (Elt F) → (⟨S500000x6, .f32⟩ : BufTy).Contents (Elt F)),
    binary main_v149 main_v128 main_v150 (Host.divf : (⟨S500000x6, .f32⟩ : BufTy).Contents (Elt F) → (⟨S500000x6, .f32⟩ : BufTy).Contents (Elt F) → (⟨S500000x6, .f32⟩ : BufTy).Contents (Elt F)),
    binary main_v150 main_v148 main_v151 (mulf : (⟨S500000x6, .f32⟩ : BufTy).Contents (Elt F) → (⟨S500000x6, .f32⟩ : BufTy).Contents (Elt F) → (⟨S500000x6, .f32⟩ : BufTy).Contents (Elt F)),
    binary main_v151 main_v144 main_v152 (subf : (⟨S500000x6, .f32⟩ : BufTy).Contents (Elt F) → (⟨S500000x6, .f32⟩ : BufTy).Contents (Elt F) → (⟨S500000x6, .f32⟩ : BufTy).Contents (Elt F)),
    unary main_v121 main_v153 (broadcastInDim S1x6 ![1] bcast_S6_S1x6_1 : (⟨S6, .f32⟩ : BufTy).Contents (Elt F) → (⟨S1x6, .f32⟩ : BufTy).Contents (Elt F)),
    unary main_v153 main_v154 (broadcastInDim S500000x6 ![0, 1] bcast_S1x6_S500000x6_0_1 : (⟨S1x6, .f32⟩ : BufTy).Contents (Elt F) → (⟨S500000x6, .f32⟩ : BufTy).Contents (Elt F)),
    binary main_v154 main_v152 main_v155 (mulf : (⟨S500000x6, .f32⟩ : BufTy).Contents (Elt F) → (⟨S500000x6, .f32⟩ : BufTy).Contents (Elt F) → (⟨S500000x6, .f32⟩ : BufTy).Contents (Elt F)) ]

/-- The references they write. -/
def seg8_outs : List (Ref sig .tc) := [main_v120, main_v121, main_v122, main_v123, main_v124, main_v125, main_v126, main_v127, main_v128, main_v129, main_v130, main_v131, main_v132, main_v133, main_v134, main_v135, main_v136, main_cst_9, main_v137, main_v138, main_v139, main_v140, main_cst_10, main_v141, main_v142, main_v143, main_v144, main_cst_11, main_v145, main_v146, main_v147, main_v148, main_cst_12, main_v149, main_v150, main_v151, main_v152, main_v153, main_v154, main_v155]

theorem seg8_sub : (seg8 : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., unary_bufs_sub .., binary_bufs_sub .., unary_bufs_sub .., binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub ..⟩

/-- Operations 171 … 180 of @main. -/
def seg9 : List (HloOp τ sig (Elt F)) :=
  [ unary main_cst main_v156 ((extractStridedSlice S1x6 ![6, 0] · slices_S7x6_S1x6_6_0) : (⟨S7x6, .f32⟩ : BufTy).Contents (Elt F) → (⟨S1x6, .f32⟩ : BufTy).Contents (Elt F)),
    reshape main_v156 main_v157 rfl shapeCasts_S1x6_S6,
    unary main_cst_0 main_v158 ((extractStridedSlice S1x6 ![6, 0] · slices_S7x6_S1x6_6_0) : (⟨S7x6, .f32⟩ : BufTy).Contents (Elt F) → (⟨S1x6, .f32⟩ : BufTy).Contents (Elt F)),
    reshape main_v158 main_v159 rfl shapeCasts_S1x6_S6,
    unary main_v1 main_v160 (broadcastInDim S500000x1 ![0] bcast_S500000_S500000x1_0 : (⟨S500000, .f32⟩ : BufTy).Contents (Elt F) → (⟨S500000x1, .f32⟩ : BufTy).Contents (Elt F)),
    unary main_v159 main_v161 (broadcastInDim S1x6 ![1] bcast_S6_S1x6_1 : (⟨S6, .f32⟩ : BufTy).Contents (Elt F) → (⟨S1x6, .f32⟩ : BufTy).Contents (Elt F)),
    unary main_v161 main_v162 (broadcastInDim S500000x6 ![0, 1] bcast_S1x6_S500000x6_0_1 : (⟨S1x6, .f32⟩ : BufTy).Contents (Elt F) → (⟨S500000x6, .f32⟩ : BufTy).Contents (Elt F)),
    unary main_v160 main_v163 (broadcastInDim S500000x6 ![0, 1] bcast_S500000x1_S500000x6_0_1 : (⟨S500000x1, .f32⟩ : BufTy).Contents (Elt F) → (⟨S500000x6, .f32⟩ : BufTy).Contents (Elt F)),
    binary main_v162 main_v163 main_v164 (mulf : (⟨S500000x6, .f32⟩ : BufTy).Contents (Elt F) → (⟨S500000x6, .f32⟩ : BufTy).Contents (Elt F) → (⟨S500000x6, .f32⟩ : BufTy).Contents (Elt F)),
    unary main_v164 main_v165 (Host.sin : (⟨S500000x6, .f32⟩ : BufTy).Contents (Elt F) → (⟨S500000x6, .f32⟩ : BufTy).Contents (Elt F)) ]

/-- The references they write. -/
def seg9_outs : List (Ref sig .tc) := [main_v156, main_v157, main_v158, main_v159, main_v160, main_v161, main_v162, main_v163, main_v164, main_v165]

theorem seg9_sub : (seg9 : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., unary_bufs_sub .., binary_bufs_sub .., unary_bufs_sub ..⟩

/-- Operations 181 … 215 of @main. -/
def seg10 : List (HloOp τ sig (Elt F)) :=
  [ binary main_v165 main_v164 main_v166 (Host.divf : (⟨S500000x6, .f32⟩ : BufTy).Contents (Elt F) → (⟨S500000x6, .f32⟩ : BufTy).Contents (Elt F) → (⟨S500000x6, .f32⟩ : BufTy).Contents (Elt F)),
    unary main_v164 main_v167 (Host.sin : (⟨S500000x6, .f32⟩ : BufTy).Contents (Elt F) → (⟨S500000x6, .f32⟩ : BufTy).Contents (Elt F)),
    binary main_v164 main_v164 main_v168 (mulf : (⟨S500000x6, .f32⟩ : BufTy).Contents (Elt F) → (⟨S500000x6, .f32⟩ : BufTy).Contents (Elt F) → (⟨S500000x6, .f32⟩ : BufTy).Contents (Elt F)),
    binary main_v167 main_v168 main_v169 (Host.divf : (⟨S500000x6, .f32⟩ : BufTy).Contents (Elt F) → (⟨S500000x6, .f32⟩ : BufTy).Contents (Elt F) → (⟨S500000x6, .f32⟩ : BufTy).Contents (Elt F)),
    unary main_v164 main_v170 (Host.cos : (⟨S500000x6, .f32⟩ : BufTy).Contents (Elt F) → (⟨S500000x6, .f32⟩ : BufTy).Contents (Elt F)),
    binary main_v170 main_v164 main_v171 (Host.divf : (⟨S500000x6, .f32⟩ : BufTy).Contents (Elt F) → (⟨S500000x6, .f32⟩ : BufTy).Contents (Elt F) → (⟨S500000x6, .f32⟩ : BufTy).Contents (Elt F)),
    binary main_v169 main_v171 main_v172 (subf : (⟨S500000x6, .f32⟩ : BufTy).Contents (Elt F) → (⟨S500000x6, .f32⟩ : BufTy).Contents (Elt F) → (⟨S500000x6, .f32⟩ : BufTy).Contents (Elt F)),
    nullary main_cst_13 (constant S_ .f32 0x40400000#32),
    unary main_cst_13 main_v173 (broadcastInDim S500000x6 ![] bcast_S_S500000x6 : (⟨S_, .f32⟩ : BufTy).Contents (Elt F) → (⟨S500000x6, .f32⟩ : BufTy).Contents (Elt F)),
    binary main_v173 main_v164 main_v174 (Host.divf : (⟨S500000x6, .f32⟩ : BufTy).Contents (Elt F) → (⟨S500000x6, .f32⟩ : BufTy).Contents (Elt F) → (⟨S500000x6, .f32⟩ : BufTy).Contents (Elt F)),
    binary main_v174 main_v172 main_v175 (mulf : (⟨S500000x6, .f32⟩ : BufTy).Contents (Elt F) → (⟨S500000x6, .f32⟩ : BufTy).Contents (Elt F) → (⟨S500000x6, .f32⟩ : BufTy).Contents (Elt F)),
    binary main_v175 main_v166 main_v176 (subf : (⟨S500000x6, .f32⟩ : BufTy).Contents (Elt F) → (⟨S500000x6, .f32⟩ : BufTy).Contents (Elt F) → (⟨S500000x6, .f32⟩ : BufTy).Contents (Elt F)),
    nullary main_cst_14 (constant S_ .f32 0x40A00000#32),
    unary main_cst_14 main_v177 (broadcastInDim S500000x6 ![] bcast_S_S500000x6 : (⟨S_, .f32⟩ : BufTy).Contents (Elt F) → (⟨S500000x6, .f32⟩ : BufTy).Contents (Elt F)),
    binary main_v177 main_v164 main_v178 (Host.divf : (⟨S500000x6, .f32⟩ : BufTy).Contents (Elt F) → (⟨S500000x6, .f32⟩ : BufTy).Contents (Elt F) → (⟨S500000x6, .f32⟩ : BufTy).Contents (Elt F)),
    binary main_v178 main_v176 main_v179 (mulf : (⟨S500000x6, .f32⟩ : BufTy).Contents (Elt F) → (⟨S500000x6, .f32⟩ : BufTy).Contents (Elt F) → (⟨S500000x6, .f32⟩ : BufTy).Contents (Elt F)),
    binary main_v179 main_v172 main_v180 (subf : (⟨S500000x6, .f32⟩ : BufTy).Contents (Elt F) → (⟨S500000x6, .f32⟩ : BufTy).Contents (Elt F) → (⟨S500000x6, .f32⟩ : BufTy).Contents (Elt F)),
    nullary main_cst_15 (constant S_ .f32 0x40E00000#32),
    unary main_cst_15 main_v181 (broadcastInDim S500000x6 ![] bcast_S_S500000x6 : (⟨S_, .f32⟩ : BufTy).Contents (Elt F) → (⟨S500000x6, .f32⟩ : BufTy).Contents (Elt F)),
    binary main_v181 main_v164 main_v182 (Host.divf : (⟨S500000x6, .f32⟩ : BufTy).Contents (Elt F) → (⟨S500000x6, .f32⟩ : BufTy).Contents (Elt F) → (⟨S500000x6, .f32⟩ : BufTy).Contents (Elt F)),
    binary main_v182 main_v180 main_v183 (mulf : (⟨S500000x6, .f32⟩ : BufTy).Contents (Elt F) → (⟨S500000x6, .f32⟩ : BufTy).Contents (Elt F) → (⟨S500000x6, .f32⟩ : BufTy).Contents (Elt F)),
    binary main_v183 main_v176 main_v184 (subf : (⟨S500000x6, .f32⟩ : BufTy).Contents (Elt F) → (⟨S500000x6, .f32⟩ : BufTy).Contents (Elt F) → (⟨S500000x6, .f32⟩ : BufTy).Contents (Elt F)),
    nullary main_cst_16 (constant S_ .f32 0x41100000#32),
    unary main_cst_16 main_v185 (broadcastInDim S500000x6 ![] bcast_S_S500000x6 : (⟨S_, .f32⟩ : BufTy).Contents (Elt F) → (⟨S500000x6, .f32⟩ : BufTy).Contents (Elt F)),
    binary main_v185 main_v164 main_v186 (Host.divf : (⟨S500000x6, .f32⟩ : BufTy).Contents (Elt F) → (⟨S500000x6, .f32⟩ : BufTy).Contents (Elt F) → (⟨S500000x6, .f32⟩ : BufTy).Contents (Elt F)),
    binary main_v186 main_v184 main_v187 (mulf : (⟨S500000x6, .f32⟩ : BufTy).Contents (Elt F) → (⟨S500000x6, .f32⟩ : BufTy).Contents (Elt F) → (⟨S500000x6, .f32⟩ : BufTy).Contents (Elt F)),
    binary main_v187 main_v180 main_v188 (subf : (⟨S500000x6, .f32⟩ : BufTy).Contents (Elt F) → (⟨S500000x6, .f32⟩ : BufTy).Contents (Elt F) → (⟨S500000x6, .f32⟩ : BufTy).Contents (Elt F)),
    nullary main_cst_17 (constant S_ .f32 0x41300000#32),
    unary main_cst_17 main_v189 (broadcastInDim S500000x6 ![] bcast_S_S500000x6 : (⟨S_, .f32⟩ : BufTy).Contents (Elt F) → (⟨S500000x6, .f32⟩ : BufTy).Contents (Elt F)),
    binary main_v189 main_v164 main_v190 (Host.divf : (⟨S500000x6, .f32⟩ : BufTy).Contents (Elt F) → (⟨S500000x6, .f32⟩ : BufTy).Contents (Elt F) → (⟨S500000x6, .f32⟩ : BufTy).Contents (Elt F)),
    binary main_v190 main_v188 main_v191 (mulf : (⟨S500000x6, .f32⟩ : BufTy).Contents (Elt F) → (⟨S500000x6, .f32⟩ : BufTy).Contents (Elt F) → (⟨S500000x6, .f32⟩ : BufTy).Contents (Elt F)),
    binary main_v191 main_v184 main_v192 (subf : (⟨S500000x6, .f32⟩ : BufTy).Contents (Elt F) → (⟨S500000x6, .f32⟩ : BufTy).Contents (Elt F) → (⟨S500000x6, .f32⟩ : BufTy).Contents (Elt F)),
    unary main_v157 main_v193 (broadcastInDim S1x6 ![1] bcast_S6_S1x6_1 : (⟨S6, .f32⟩ : BufTy).Contents (Elt F) → (⟨S1x6, .f32⟩ : BufTy).Contents (Elt F)),
    unary main_v193 main_v194 (broadcastInDim S500000x6 ![0, 1] bcast_S1x6_S500000x6_0_1 : (⟨S1x6, .f32⟩ : BufTy).Contents (Elt F) → (⟨S500000x6, .f32⟩ : BufTy).Contents (Elt F)),
    binary main_v194 main_v192 main_v195 (mulf : (⟨S500000x6, .f32⟩ : BufTy).Contents (Elt F) → (⟨S500000x6, .f32⟩ : BufTy).Contents (Elt F) → (⟨S500000x6, .f32⟩ : BufTy).Contents (Elt F)) ]

/-- The references they write. -/
def seg10_outs : List (Ref sig .tc) := [main_v166, main_v167, main_v168, main_v169, main_v170, main_v171, main_v172, main_cst_13, main_v173, main_v174, main_v175, main_v176, main_cst_14, main_v177, main_v178, main_v179, main_v180, main_cst_15, main_v181, main_v182, main_v183, main_v184, main_cst_16, main_v185, main_v186, main_v187, main_v188, main_cst_17, main_v189, main_v190, main_v191, main_v192, main_v193, main_v194, main_v195]

theorem seg10_sub : (seg10 : List (HloOp τ sig (Elt F))).Forall fun op => op.bufs ⊆ tcRefs τ sig :=
  ⟨binary_bufs_sub .., unary_bufs_sub .., binary_bufs_sub .., binary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub ..⟩

/-- Operations 216 … 223 of @main. -/
def seg11 : List (HloOp τ sig (Elt F)) :=
  [ unary main_v15 main_v196 (broadcastInDim S500000x1x6 ![0, 2] bcast_S500000x6_S500000x1x6_0_2 : (⟨S500000x6, .f32⟩ : BufTy).Contents (Elt F) → (⟨S500000x1x6, .f32⟩ : BufTy).Contents (Elt F)),
    unary main_v35 main_v197 (broadcastInDim S500000x1x6 ![0, 2] bcast_S500000x6_S500000x1x6_0_2 : (⟨S500000x6, .f32⟩ : BufTy).Contents (Elt F) → (⟨S500000x1x6, .f32⟩ : BufTy).Contents (Elt F)),
    unary main_v59 main_v198 (broadcastInDim S500000x1x6 ![0, 2] bcast_S500000x6_S500000x1x6_0_2 : (⟨S500000x6, .f32⟩ : BufTy).Contents (Elt F) → (⟨S500000x1x6, .f32⟩ : BufTy).Contents (Elt F)),
    unary main_v87 main_v199 (broadcastInDim S500000x1x6 ![0, 2] bcast_S500000x6_S500000x1x6_0_2 : (⟨S500000x6, .f32⟩ : BufTy).Contents (Elt F) → (⟨S500000x1x6, .f32⟩ : BufTy).Contents (Elt F)),
    unary main_v119 main_v200 (broadcastInDim S500000x1x6 ![0, 2] bcast_S500000x6_S500000x1x6_0_2 : (⟨S500000x6, .f32⟩ : BufTy).Contents (Elt F) → (⟨S500000x1x6, .f32⟩ : BufTy).Contents (Elt F)),
    unary main_v155 main_v201 (broadcastInDim S500000x1x6 ![0, 2] bcast_S500000x6_S500000x1x6_0_2 : (⟨S500000x6, .f32⟩ : BufTy).Contents (Elt F) → (⟨S500000x1x6, .f32⟩ : BufTy).Contents (Elt F)),
    unary main_v195 main_v202 (broadcastInDim S500000x1x6 ![0, 2] bcast_S500000x6_S500000x1x6_0_2 : (⟨S500000x6, .f32⟩ : BufTy).Contents (Elt F) → (⟨S500000x1x6, .f32⟩ : BufTy).Contents (Elt F)),
    nary ![main_v196, main_v197, main_v198, main_v199, main_v200, main_v201, main_v202] main_v203 (fun u => concatenate S500000x7x6 1 [⟨S500000x1x6, u 0⟩, ⟨S500000x1x6, u 1⟩, ⟨S500000x1x6, u 2⟩, ⟨S500000x1x6, u 3⟩, ⟨S500000x1x6, u 4⟩, ⟨S500000x1x6, u 5⟩, ⟨S500000x1x6, u 6⟩] concatenates_S500000x1x6_S500000x1x6_S500000x1x6_S500000x1x6_S500000x1x6_S500000x1x6_S500000x1x6_S500000x7x6_d1) ]

/-- The references they write. -/
def seg11_outs : List (Ref sig .tc) := [main_v196, main_v197, main_v198, main_v199, main_v200, main_v201, main_v202, main_v203]

theorem seg11_sub : (seg11 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., nary_bufs_sub ..⟩

/-- Operations 224 … 240 of @main. -/
def seg12 : List (HloOp τ sig (Elt F)) :=
  [ binary main_v1 main_v1 main_v204 (mulf : (⟨S500000, .f32⟩ : BufTy).Contents (Elt F) → (⟨S500000, .f32⟩ : BufTy).Contents (Elt F) → (⟨S500000, .f32⟩ : BufTy).Contents (Elt F)),
    binary main_v204 main_v204 main_v205 (mulf : (⟨S500000, .f32⟩ : BufTy).Contents (Elt F) → (⟨S500000, .f32⟩ : BufTy).Contents (Elt F) → (⟨S500000, .f32⟩ : BufTy).Contents (Elt F)),
    binary main_v1 main_v205 main_v206 (mulf : (⟨S500000, .f32⟩ : BufTy).Contents (Elt F) → (⟨S500000, .f32⟩ : BufTy).Contents (Elt F) → (⟨S500000, .f32⟩ : BufTy).Contents (Elt F)),
    binary main_v206 main_v1 main_v207 (mulf : (⟨S500000, .f32⟩ : BufTy).Contents (Elt F) → (⟨S500000, .f32⟩ : BufTy).Contents (Elt F) → (⟨S500000, .f32⟩ : BufTy).Contents (Elt F)),
    nullary main_cst_18 (constant S_ .f32 0x3F800000#32),
    unary main_cst_18 main_v208 (broadcastInDim S500000 ![] bcast_S_S500000 : (⟨S_, .f32⟩ : BufTy).Contents (Elt F) → (⟨S500000, .f32⟩ : BufTy).Contents (Elt F)),
    binary main_v208 main_v1 main_v209 (Host.divf : (⟨S500000, .f32⟩ : BufTy).Contents (Elt F) → (⟨S500000, .f32⟩ : BufTy).Contents (Elt F) → (⟨S500000, .f32⟩ : BufTy).Contents (Elt F)),
    nullary main_cst_19 (constant S_ .f32 0xC1A80000#32),
    unary main_cst_19 main_v210 (broadcastInDim S500000 ![] bcast_S_S500000 : (⟨S_, .f32⟩ : BufTy).Contents (Elt F) → (⟨S500000, .f32⟩ : BufTy).Contents (Elt F)),
    binary main_v210 main_v206 main_v211 (mulf : (⟨S500000, .f32⟩ : BufTy).Contents (Elt F) → (⟨S500000, .f32⟩ : BufTy).Contents (Elt F) → (⟨S500000, .f32⟩ : BufTy).Contents (Elt F)),
    binary main_v209 main_v211 main_v212 (addf : (⟨S500000, .f32⟩ : BufTy).Contents (Elt F) → (⟨S500000, .f32⟩ : BufTy).Contents (Elt F) → (⟨S500000, .f32⟩ : BufTy).Contents (Elt F)),
    nullary main_cst_20 (constant S_ .f32 0x420C0000#32),
    unary main_cst_20 main_v213 (broadcastInDim S500000 ![] bcast_S_S500000 : (⟨S_, .f32⟩ : BufTy).Contents (Elt F) → (⟨S500000, .f32⟩ : BufTy).Contents (Elt F)),
    binary main_v213 main_v207 main_v214 (mulf : (⟨S500000, .f32⟩ : BufTy).Contents (Elt F) → (⟨S500000, .f32⟩ : BufTy).Contents (Elt F) → (⟨S500000, .f32⟩ : BufTy).Contents (Elt F)),
    binary main_v212 main_v214 main_v215 (addf : (⟨S500000, .f32⟩ : BufTy).Contents (Elt F) → (⟨S500000, .f32⟩ : BufTy).Contents (Elt F) → (⟨S500000, .f32⟩ : BufTy).Contents (Elt F)),
    nullary main_cst_21 (constant S_ .f32 0xC1700000#32),
    unary main_cst_21 main_v216 (broadcastInDim S500000 ![] bcast_S_S500000 : (⟨S_, .f32⟩ : BufTy).Contents (Elt F) → (⟨S500000, .f32⟩ : BufTy).Contents (Elt F)) ]

/-- The references they write. -/
def seg12_outs : List (Ref sig .tc) := [main_v204, main_v205, main_v206, main_v207, main_cst_18, main_v208, main_v209, main_cst_19, main_v210, main_v211, main_v212, main_cst_20, main_v213, main_v214, main_v215, main_cst_21, main_v216]

theorem seg12_sub : (seg12 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub ..⟩

/-- Operations 241 … 252 of @main. -/
def seg13 : List (HloOp τ sig (Elt F)) :=
  [ binary main_v216 main_v207 main_v217 (mulf : (⟨S500000, .f32⟩ : BufTy).Contents (Elt F) → (⟨S500000, .f32⟩ : BufTy).Contents (Elt F) → (⟨S500000, .f32⟩ : BufTy).Contents (Elt F)),
    binary main_v217 main_v1 main_v218 (mulf : (⟨S500000, .f32⟩ : BufTy).Contents (Elt F) → (⟨S500000, .f32⟩ : BufTy).Contents (Elt F) → (⟨S500000, .f32⟩ : BufTy).Contents (Elt F)),
    binary main_v215 main_v218 main_v219 (addf : (⟨S500000, .f32⟩ : BufTy).Contents (Elt F) → (⟨S500000, .f32⟩ : BufTy).Contents (Elt F) → (⟨S500000, .f32⟩ : BufTy).Contents (Elt F)),
    nullary main_cst_22 (constant S_ .f32 0x3F800000#32),
    unary main_cst_22 main_v220 (broadcastInDim S500000 ![] bcast_S_S500000 : (⟨S_, .f32⟩ : BufTy).Contents (Elt F) → (⟨S500000, .f32⟩ : BufTy).Contents (Elt F)),
    binary main_v1 main_v220 main_v221 (cmpf .olt : (⟨S500000, .f32⟩ : BufTy).Contents (Elt F) → (⟨S500000, .f32⟩ : BufTy).Contents (Elt F) → (⟨S500000, .i1⟩ : BufTy).Contents (Elt F)),
    nullary main_cst_23 (constant S_ .f32 0x00000000#32),
    unary main_cst_23 main_v222 (broadcastInDim S500000 ![] bcast_S_S500000 : (⟨S_, .f32⟩ : BufTy).Contents (Elt F) → (⟨S500000, .f32⟩ : BufTy).Contents (Elt F)),
    TRef.ternary (.of main_v221) (.of main_v219) (.of main_v222) main_call0.v0 select,
    unary main_v223 main_v224 (broadcastInDim S500000x1x1 ![0] bcast_S500000_S500000x1x1_0 : (⟨S500000, .f32⟩ : BufTy).Contents (Elt F) → (⟨S500000x1x1, .f32⟩ : BufTy).Contents (Elt F)),
    unary main_v224 main_v225 (broadcastInDim S500000x7x6 ![0, 1, 2] bcast_S500000x1x1_S500000x7x6_0_1_2 : (⟨S500000x1x1, .f32⟩ : BufTy).Contents (Elt F) → (⟨S500000x7x6, .f32⟩ : BufTy).Contents (Elt F)),
    binary main_v225 main_v203 main_v226 (mulf : (⟨S500000x7x6, .f32⟩ : BufTy).Contents (Elt F) → (⟨S500000x7x6, .f32⟩ : BufTy).Contents (Elt F) → (⟨S500000x7x6, .f32⟩ : BufTy).Contents (Elt F)) ]

/-- The references they write. -/
def seg13_outs : List (Ref sig .tc) := [main_v217, main_v218, main_v219, main_cst_22, main_v220, main_v221, main_cst_23, main_v222, main_v223, main_v224, main_v225, main_v226]

theorem seg13_sub : (seg13 : List (HloOp τ sig (Elt F))).Forall fun op => op.bufs ⊆ tcRefs τ sig :=
  ⟨binary_bufs_sub .., binary_bufs_sub .., binary_bufs_sub .., nullary_bufs_sub .., unary_bufs_sub .., binary_bufs_sub .., nullary_bufs_sub .., unary_bufs_sub .., ternary_bufs_sub .., unary_bufs_sub .., unary_bufs_sub .., binary_bufs_sub ..⟩

/-- Operations 253 … 300 of @main. -/
def seg14 : List (HloOp τ sig (Elt F)) :=
  [ unary main_arg1 main_v227 (Host.cos : (⟨S2000000, .f32⟩ : BufTy).Contents (Elt F) → (⟨S2000000, .f32⟩ : BufTy).Contents (Elt F)),
    nullary main_cst_24 (constant S_ .f32 0x3F800000#32),
    unary main_cst_24 main_v228 (broadcastInDim S2000000 ![] bcast_S_S2000000 : (⟨S_, .f32⟩ : BufTy).Contents (Elt F) → (⟨S2000000, .f32⟩ : BufTy).Contents (Elt F)),
    nullary main_cst_25 (constant S_ .f32 0x40400000#32),
    unary main_cst_25 main_v229 (broadcastInDim S2000000 ![] bcast_S_S2000000 : (⟨S_, .f32⟩ : BufTy).Contents (Elt F) → (⟨S2000000, .f32⟩ : BufTy).Contents (Elt F)),
    binary main_v229 main_v227 main_v230 (mulf : (⟨S2000000, .f32⟩ : BufTy).Contents (Elt F) → (⟨S2000000, .f32⟩ : BufTy).Contents (Elt F) → (⟨S2000000, .f32⟩ : BufTy).Contents (Elt F)),
    binary main_v230 main_v227 main_v231 (mulf : (⟨S2000000, .f32⟩ : BufTy).Contents (Elt F) → (⟨S2000000, .f32⟩ : BufTy).Contents (Elt F) → (⟨S2000000, .f32⟩ : BufTy).Contents (Elt F)),
    nullary main_cst_26 (constant S_ .f32 0x3F800000#32),
    unary main_cst_26 main_v232 (broadcastInDim S2000000 ![] bcast_S_S2000000 : (⟨S_, .f32⟩ : BufTy).Contents (Elt F) → (⟨S2000000, .f32⟩ : BufTy).Contents (Elt F)),
    binary main_v232 main_v228 main_v233 (mulf : (⟨S2000000, .f32⟩ : BufTy).Contents (Elt F) → (⟨S2000000, .f32⟩ : BufTy).Contents (Elt F) → (⟨S2000000, .f32⟩ : BufTy).Contents (Elt F)),
    binary main_v231 main_v233 main_v234 (subf : (⟨S2000000, .f32⟩ : BufTy).Contents (Elt F) → (⟨S2000000, .f32⟩ : BufTy).Contents (Elt F) → (⟨S2000000, .f32⟩ : BufTy).Contents (Elt F)),
    nullary main_cst_27 (constant S_ .f32 0x40000000#32),
    unary main_cst_27 main_v235 (broadcastInDim S2000000 ![] bcast_S_S2000000 : (⟨S_, .f32⟩ : BufTy).Contents (Elt F) → (⟨S2000000, .f32⟩ : BufTy).Contents (Elt F)),
    binary main_v234 main_v235 main_v236 (Host.divf : (⟨S2000000, .f32⟩ : BufTy).Contents (Elt F) → (⟨S2000000, .f32⟩ : BufTy).Contents (Elt F) → (⟨S2000000, .f32⟩ : BufTy).Contents (Elt F)),
    nullary main_cst_28 (constant S_ .f32 0x40A00000#32),
    unary main_cst_28 main_v237 (broadcastInDim S2000000 ![] bcast_S_S2000000 : (⟨S_, .f32⟩ : BufTy).Contents (Elt F) → (⟨S2000000, .f32⟩ : BufTy).Contents (Elt F)),
    binary main_v237 main_v227 main_v238 (mulf : (⟨S2000000, .f32⟩ : BufTy).Contents (Elt F) → (⟨S2000000, .f32⟩ : BufTy).Contents (Elt F) → (⟨S2000000, .f32⟩ : BufTy).Contents (Elt F)),
    binary main_v238 main_v236 main_v239 (mulf : (⟨S2000000, .f32⟩ : BufTy).Contents (Elt F) → (⟨S2000000, .f32⟩ : BufTy).Contents (Elt F) → (⟨S2000000, .f32⟩ : BufTy).Contents (Elt F)),
    nullary main_cst_29 (constant S_ .f32 0x40000000#32),
    unary main_cst_29 main_v240 (broadcastInDim S2000000 ![] bcast_S_S2000000 : (⟨S_, .f32⟩ : BufTy).Contents (Elt F) → (⟨S2000000, .f32⟩ : BufTy).Contents (Elt F)),
    binary main_v240 main_v227 main_v241 (mulf : (⟨S2000000, .f32⟩ : BufTy).Contents (Elt F) → (⟨S2000000, .f32⟩ : BufTy).Contents (Elt F) → (⟨S2000000, .f32⟩ : BufTy).Contents (Elt F)),
    binary main_v239 main_v241 main_v242 (subf : (⟨S2000000, .f32⟩ : BufTy).Contents (Elt F) → (⟨S2000000, .f32⟩ : BufTy).Contents (Elt F) → (⟨S2000000, .f32⟩ : BufTy).Contents (Elt F)),
    nullary main_cst_30 (constant S_ .f32 0x40400000#32),
    unary main_cst_30 main_v243 (broadcastInDim S2000000 ![] bcast_S_S2000000 : (⟨S_, .f32⟩ : BufTy).Contents (Elt F) → (⟨S2000000, .f32⟩ : BufTy).Contents (Elt F)),
    binary main_v242 main_v243 main_v244 (Host.divf : (⟨S2000000, .f32⟩ : BufTy).Contents (Elt F) → (⟨S2000000, .f32⟩ : BufTy).Contents (Elt F) → (⟨S2000000, .f32⟩ : BufTy).Contents (Elt F)),
    nullary main_cst_31 (constant S_ .f32 0x40E00000#32),
    unary main_cst_31 main_v245 (broadcastInDim S2000000 ![] bcast_S_S2000000 : (⟨S_, .f32⟩ : BufTy).Contents (Elt F) → (⟨S2000000, .f32⟩ : BufTy).Contents (Elt F)),
    binary main_v245 main_v227 main_v246 (mulf : (⟨S2000000, .f32⟩ : BufTy).Contents (Elt F) → (⟨S2000000, .f32⟩ : BufTy).Contents (Elt F) → (⟨S2000000, .f32⟩ : BufTy).Contents (Elt F)),
    binary main_v246 main_v244 main_v247 (mulf : (⟨S2000000, .f32⟩ : BufTy).Contents (Elt F) → (⟨S2000000, .f32⟩ : BufTy).Contents (Elt F) → (⟨S2000000, .f32⟩ : BufTy).Contents (Elt F)),
    nullary main_cst_32 (constant S_ .f32 0x40400000#32),
    unary main_cst_32 main_v248 (broadcastInDim S2000000 ![] bcast_S_S2000000 : (⟨S_, .f32⟩ : BufTy).Contents (Elt F) → (⟨S2000000, .f32⟩ : BufTy).Contents (Elt F)),
    binary main_v248 main_v236 main_v249 (mulf : (⟨S2000000, .f32⟩ : BufTy).Contents (Elt F) → (⟨S2000000, .f32⟩ : BufTy).Contents (Elt F) → (⟨S2000000, .f32⟩ : BufTy).Contents (Elt F)),
    binary main_v247 main_v249 main_v250 (subf : (⟨S2000000, .f32⟩ : BufTy).Contents (Elt F) → (⟨S2000000, .f32⟩ : BufTy).Contents (Elt F) → (⟨S2000000, .f32⟩ : BufTy).Contents (Elt F)),
    nullary main_cst_33 (constant S_ .f32 0x40800000#32),
    unary main_cst_33 main_v251 (broadcastInDim S2000000 ![] bcast_S_S2000000 : (⟨S_, .f32⟩ : BufTy).Contents (Elt F) → (⟨S2000000, .f32⟩ : BufTy).Contents (Elt F)),
    binary main_v250 main_v251 main_v252 (Host.divf : (⟨S2000000, .f32⟩ : BufTy).Contents (Elt F) → (⟨S2000000, .f32⟩ : BufTy).Contents (Elt F) → (⟨S2000000, .f32⟩ : BufTy).Contents (Elt F)),
    nullary main_cst_34 (constant S_ .f32 0x41100000#32),
    unary main_cst_34 main_v253 (broadcastInDim S2000000 ![] bcast_S_S2000000 : (⟨S_, .f32⟩ : BufTy).Contents (Elt F) → (⟨S2000000, .f32⟩ : BufTy).Contents (Elt F)),
    binary main_v253 main_v227 main_v254 (mulf : (⟨S2000000, .f32⟩ : BufTy).Contents (Elt F) → (⟨S2000000, .f32⟩ : BufTy).Contents (Elt F) → (⟨S2000000, .f32⟩ : BufTy).Contents (Elt F)),
    binary main_v254 main_v252 main_v255 (mulf : (⟨S2000000, .f32⟩ : BufTy).Contents (Elt F) → (⟨S2000000, .f32⟩ : BufTy).Contents (Elt F) → (⟨S2000000, .f32⟩ : BufTy).Contents (Elt F)),
    nullary main_cst_35 (constant S_ .f32 0x40800000#32),
    unary main_cst_35 main_v256 (broadcastInDim S2000000 ![] bcast_S_S2000000 : (⟨S_, .f32⟩ : BufTy).Contents (Elt F) → (⟨S2000000, .f32⟩ : BufTy).Contents (Elt F)),
    binary main_v256 main_v244 main_v257 (mulf : (⟨S2000000, .f32⟩ : BufTy).Contents (Elt F) → (⟨S2000000, .f32⟩ : BufTy).Contents (Elt F) → (⟨S2000000, .f32⟩ : BufTy).Contents (Elt F)),
    binary main_v255 main_v257 main_v258 (subf : (⟨S2000000, .f32⟩ : BufTy).Contents (Elt F) → (⟨S2000000, .f32⟩ : BufTy).Contents (Elt F) → (⟨S2000000, .f32⟩ : BufTy).Contents (Elt F)),
    nullary main_cst_36 (constant S_ .f32 0x40A00000#32),
    unary main_cst_36 main_v259 (broadcastInDim S2000000 ![] bcast_S_S2000000 : (⟨S_, .f32⟩ : BufTy).Contents (Elt F) → (⟨S2000000, .f32⟩ : BufTy).Contents (Elt F)),
    binary main_v258 main_v259 main_v260 (Host.divf : (⟨S2000000, .f32⟩ : BufTy).Contents (Elt F) → (⟨S2000000, .f32⟩ : BufTy).Contents (Elt F) → (⟨S2000000, .f32⟩ : BufTy).Contents (Elt F)),
    nullary main_cst_37 (constant S_ .f32 0x41300000#32) ]

/-- The references they write. -/
def seg14_outs : List (Ref sig .tc) := [main_v227, main_cst_24, main_v228, main_cst_25, main_v229, main_v230, main_v231, main_cst_26, main_v232, main_v233, main_v234, main_cst_27, main_v235, main_v236, main_cst_28, main_v237, main_v238, main_v239, main_cst_29, main_v240, main_v241, main_v242, main_cst_30, main_v243, main_v244, main_cst_31, main_v245, main_v246, main_v247, main_cst_32, main_v248, main_v249, main_v250, main_cst_33, main_v251, main_v252, main_cst_34, main_v253, main_v254, main_v255, main_cst_35, main_v256, main_v257, main_v258, main_cst_36, main_v259, main_v260, main_cst_37]

theorem seg14_sub : (seg14 : List (HloOp τ sig (Elt F))).Forall fun op => op.bufs ⊆ tcRefs τ sig :=
  ⟨unary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub ..⟩

/-- Operations 301 … 321 of @main. -/
def seg15 : List (HloOp τ sig (Elt F)) :=
  [ unary main_cst_37 main_v261 (broadcastInDim S2000000 ![] bcast_S_S2000000 : (⟨S_, .f32⟩ : BufTy).Contents (Elt F) → (⟨S2000000, .f32⟩ : BufTy).Contents (Elt F)),
    binary main_v261 main_v227 main_v262 (mulf : (⟨S2000000, .f32⟩ : BufTy).Contents (Elt F) → (⟨S2000000, .f32⟩ : BufTy).Contents (Elt F) → (⟨S2000000, .f32⟩ : BufTy).Contents (Elt F)),
    binary main_v262 main_v260 main_v263 (mulf : (⟨S2000000, .f32⟩ : BufTy).Contents (Elt F) → (⟨S2000000, .f32⟩ : BufTy).Contents (Elt F) → (⟨S2000000, .f32⟩ : BufTy).Contents (Elt F)),
    nullary main_cst_38 (constant S_ .f32 0x40A00000#32),
    unary main_cst_38 main_v264 (broadcastInDim S2000000 ![] bcast_S_S2000000 : (⟨S_, .f32⟩ : BufTy).Contents (Elt F) → (⟨S2000000, .f32⟩ : BufTy).Contents (Elt F)),
    binary main_v264 main_v252 main_v265 (mulf : (⟨S2000000, .f32⟩ : BufTy).Contents (Elt F) → (⟨S2000000, .f32⟩ : BufTy).Contents (Elt F) → (⟨S2000000, .f32⟩ : BufTy).Contents (Elt F)),
    binary main_v263 main_v265 main_v266 (subf : (⟨S2000000, .f32⟩ : BufTy).Contents (Elt F) → (⟨S2000000, .f32⟩ : BufTy).Contents (Elt F) → (⟨S2000000, .f32⟩ : BufTy).Contents (Elt F)),
    nullary main_cst_39 (constant S_ .f32 0x40C00000#32),
    unary main_cst_39 main_v267 (broadcastInDim S2000000 ![] bcast_S_S2000000 : (⟨S_, .f32⟩ : BufTy).Contents (Elt F) → (⟨S2000000, .f32⟩ : BufTy).Contents (Elt F)),
    binary main_v266 main_v267 main_v268 (Host.divf : (⟨S2000000, .f32⟩ : BufTy).Contents (Elt F) → (⟨S2000000, .f32⟩ : BufTy).Contents (Elt F) → (⟨S2000000, .f32⟩ : BufTy).Contents (Elt F)),
    unary main_v228 main_v269 (broadcastInDim S2000000x1 ![0] bcast_S2000000_S2000000x1_0 : (⟨S2000000, .f32⟩ : BufTy).Contents (Elt F) → (⟨S2000000x1, .f32⟩ : BufTy).Contents (Elt F)),
    unary main_v227 main_v270 (broadcastInDim S2000000x1 ![0] bcast_S2000000_S2000000x1_0 : (⟨S2000000, .f32⟩ : BufTy).Contents (Elt F) → (⟨S2000000x1, .f32⟩ : BufTy).Contents (Elt F)),
    unary main_v236 main_v271 (broadcastInDim S2000000x1 ![0] bcast_S2000000_S2000000x1_0 : (⟨S2000000, .f32⟩ : BufTy).Contents (Elt F) → (⟨S2000000x1, .f32⟩ : BufTy).Contents (Elt F)),
    unary main_v244 main_v272 (broadcastInDim S2000000x1 ![0] bcast_S2000000_S2000000x1_0 : (⟨S2000000, .f32⟩ : BufTy).Contents (Elt F) → (⟨S2000000x1, .f32⟩ : BufTy).Contents (Elt F)),
    unary main_v252 main_v273 (broadcastInDim S2000000x1 ![0] bcast_S2000000_S2000000x1_0 : (⟨S2000000, .f32⟩ : BufTy).Contents (Elt F) → (⟨S2000000x1, .f32⟩ : BufTy).Contents (Elt F)),
    unary main_v260 main_v274 (broadcastInDim S2000000x1 ![0] bcast_S2000000_S2000000x1_0 : (⟨S2000000, .f32⟩ : BufTy).Contents (Elt F) → (⟨S2000000x1, .f32⟩ : BufTy).Contents (Elt F)),
    unary main_v268 main_v275 (broadcastInDim S2000000x1 ![0] bcast_S2000000_S2000000x1_0 : (⟨S2000000, .f32⟩ : BufTy).Contents (Elt F) → (⟨S2000000x1, .f32⟩ : BufTy).Contents (Elt F)),
    nary ![main_v269, main_v270, main_v271, main_v272, main_v273, main_v274, main_v275] main_v276 (fun u => concatenate S2000000x7 1 [⟨S2000000x1, u 0⟩, ⟨S2000000x1, u 1⟩, ⟨S2000000x1, u 2⟩, ⟨S2000000x1, u 3⟩, ⟨S2000000x1, u 4⟩, ⟨S2000000x1, u 5⟩, ⟨S2000000x1, u 6⟩] concatenates_S2000000x1_S2000000x1_S2000000x1_S2000000x1_S2000000x1_S2000000x1_S2000000x1_S2000000x7_d1),
    unary main_cst_1 main_v277 (broadcastInDim S1x7 ![1] bcast_S7_S1x7_1 : (⟨S7, .f32⟩ : BufTy).Contents (Elt F) → (⟨S1x7, .f32⟩ : BufTy).Contents (Elt F)),
    unary main_v277 main_v278 (broadcastInDim S2000000x7 ![0, 1] bcast_S1x7_S2000000x7_0_1 : (⟨S1x7, .f32⟩ : BufTy).Contents (Elt F) → (⟨S2000000x7, .f32⟩ : BufTy).Contents (Elt F)),
    binary main_v276 main_v278 main_v279 (mulf : (⟨S2000000x7, .f32⟩ : BufTy).Contents (Elt F) → (⟨S2000000x7, .f32⟩ : BufTy).Contents (Elt F) → (⟨S2000000x7, .f32⟩ : BufTy).Contents (Elt F)) ]

/-- The references they write. -/
def seg15_outs : List (Ref sig .tc) := [main_v261, main_v262, main_v263, main_cst_38, main_v264, main_v265, main_v266, main_cst_39, main_v267, main_v268, main_v269, main_v270, main_v271, main_v272, main_v273, main_v274, main_v275, main_v276, main_v277, main_v278, main_v279]

theorem seg15_sub : (seg15 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., nary_bufs_sub .., unary_bufs_sub .., unary_bufs_sub .., binary_bufs_sub ..⟩

/-- Operations 322 … 334 of @main. -/
def seg16 : List (HloOp τ sig (Elt F)) :=
  [ nullary main_c (constantI S_ 32 0#32),
    unary main_c main_v280 (broadcastInDim S2000000 ![] bcast_S_S2000000 : (⟨S_, .i32⟩ : BufTy).Contents (Elt F) → (⟨S2000000, .i32⟩ : BufTy).Contents (Elt F)),
    binary main_arg2 main_v280 main_v281 (cmpi .slt : (⟨S2000000, .i32⟩ : BufTy).Contents (Elt F) → (⟨S2000000, .i32⟩ : BufTy).Contents (Elt F) → (⟨S2000000, .i1⟩ : BufTy).Contents (Elt F)),
    nullary main_c_40 (constantI S_ 32 500000#32),
    unary main_c_40 main_v282 (broadcastInDim S2000000 ![] bcast_S_S2000000 : (⟨S_, .i32⟩ : BufTy).Contents (Elt F) → (⟨S2000000, .i32⟩ : BufTy).Contents (Elt F)),
    binary main_arg2 main_v282 main_v283 (addi : (⟨S2000000, .i32⟩ : BufTy).Contents (Elt F) → (⟨S2000000, .i32⟩ : BufTy).Contents (Elt F) → (⟨S2000000, .i32⟩ : BufTy).Contents (Elt F)),
    ternary main_v281 main_v283 main_arg2 main_v284 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v284 main_v285 (broadcastInDim S2000000x1 ![0] bcast_S2000000_S2000000x1_0 : (⟨S2000000, .i32⟩ : BufTy).Contents (Elt F) → (⟨S2000000x1, .i32⟩ : BufTy).Contents (Elt F)),
    binary main_v226 main_v285 main_v286 ((fun x i => Host.gather gather_S500000x7x6_S2000000x1_S2000000x7x6_12_0_n_n_0_1_176 x i) : (⟨S500000x7x6, .f32⟩ : BufTy).Contents (Elt F) → (⟨S2000000x1, .i32⟩ : BufTy).Contents (Elt F) → (⟨S2000000x7x6, .f32⟩ : BufTy).Contents (Elt F)),
    unary main_v279 main_v287 (broadcastInDim S2000000x7x1 ![0, 1] bcast_S2000000x7_S2000000x7x1_0_1 : (⟨S2000000x7, .f32⟩ : BufTy).Contents (Elt F) → (⟨S2000000x7x1, .f32⟩ : BufTy).Contents (Elt F)),
    unary main_v287 main_v288 (broadcastInDim S2000000x7x6 ![0, 1, 2] bcast_S2000000x7x1_S2000000x7x6_0_1_2 : (⟨S2000000x7x1, .f32⟩ : BufTy).Contents (Elt F) → (⟨S2000000x7x6, .f32⟩ : BufTy).Contents (Elt F)),
    binary main_v286 main_v288 main_v289 (mulf : (⟨S2000000x7x6, .f32⟩ : BufTy).Contents (Elt F) → (⟨S2000000x7x6, .f32⟩ : BufTy).Contents (Elt F) → (⟨S2000000x7x6, .f32⟩ : BufTy).Contents (Elt F)),
    reshape main_v289 main_v290 rfl shapeCasts_S2000000x7x6_S2000000x42 ]

/-- The references they write. -/
def seg16_outs : List (Ref sig .tc) := [main_c, main_v280, main_v281, main_c_40, main_v282, main_v283, main_v284, main_v285, main_v286, main_v287, main_v288, main_v289, main_v290]

theorem seg16_sub : (seg16 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., reshape_bufs_sub ..⟩

end Cert.ReferenceIdeal.RefRun

end
-- ==== Proof.RefRun.lean ====
/-
  The reference program's run.

  @main is a straight line of 334 host operations (RefOps: the segments `seg0` … `seg16`).  Every weakly fair execution
  terminates, and each buffer ends at the fold of the operations over the launch contents (`run`).  The fold over a
  concatenation is the fold over the second list from what the first leaves (`after_append`), and a segment leaves
  every reference it does not write as it found it (`keep`); the stages of the computation are groups of segments
  (`gX` … `gF`), whose concatenation is the whole line (`ops_eq_groups`).
-/
import proofs.«113305_j49366354100415_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

local notation "L" => List (HloOp τ sig (Elt F))

/-! ## The printed windows of @main, and the whole line -/

def w0 : L := seg0 ++ (seg1 ++ (seg2 ++ seg3))
def w1 : L := seg4 ++ (seg5 ++ seg6)
def w2 : L := seg7 ++ (seg8 ++ seg9)
def w3 : L := seg10 ++ (seg11 ++ seg12)
def w4 : L := seg13 ++ seg14
def w5 : L := seg15 ++ seg16

/-- @main's operations, in order. -/
def ops : L := w0 ++ (w1 ++ (w2 ++ (w3 ++ (w4 ++ w5))))

set_option maxRecDepth 8192 in
theorem main_part0_eq (c : Dev nD) : main_part0 (F := F) c = seq w0 := rfl
set_option maxRecDepth 8192 in
theorem main_part1_eq (c : Dev nD) : main_part1 (F := F) c = seq w1 := rfl
set_option maxRecDepth 8192 in
theorem main_part2_eq (c : Dev nD) : main_part2 (F := F) c = seq w2 := rfl
set_option maxRecDepth 8192 in
theorem main_part3_eq (c : Dev nD) : main_part3 (F := F) c = seq w3 := rfl
set_option maxRecDepth 8192 in
theorem main_part4_eq (c : Dev nD) : main_part4 (F := F) c = seq w4 := rfl
set_option maxRecDepth 8192 in
theorem main_part5_eq (c : Dev nD) : main_part5 (F := F) c = seq w5 := rfl

/-- @main is that line: window by window, a concatenation run as one line being its parts run in turn. -/
theorem main_eq (c : Dev nD) : main (F := F) c = seq ops := by
  unfold ops
  rw [seq_append, seq_append, seq_append, seq_append, seq_append, ← main_part0_eq c, ← main_part1_eq c, ← main_part2_eq c,
    ← main_part3_eq c, ← main_part4_eq c, ← main_part5_eq c]
  rfl

theorem mem_ops {op : HloOp τ sig (Elt F)} (h : op ∈ (ops : L)) :
    op ∈ (seg0 : L) ∨ op ∈ (seg1 : L) ∨ op ∈ (seg2 : L) ∨ op ∈ (seg3 : L) ∨ op ∈ (seg4 : L) ∨ op ∈ (seg5 : L) ∨ op ∈ (seg6 : L)
      ∨ op ∈ (seg7 : L) ∨ op ∈ (seg8 : L) ∨ op ∈ (seg9 : L) ∨ op ∈ (seg10 : L) ∨ op ∈ (seg11 : L) ∨ op ∈ (seg12 : L)
      ∨ op ∈ (seg13 : L) ∨ op ∈ (seg14 : L) ∨ op ∈ (seg15 : L) ∨ op ∈ (seg16 : L) := by
  simpa only [ops, w0, w1, w2, w3, w4, w5, List.mem_append, or_assoc] using h

theorem ops_sub : (ops : L).Forall fun op => op.bufs ⊆ tcRefs τ sig :=
  List.forall_iff_forall_mem.mpr fun op h => by
    rcases mem_ops h with h | h | h | h | h | h | h | h | h | h | h | h | h | h | h | h | h
    exacts [List.forall_iff_forall_mem.mp seg0_sub op h,
      List.forall_iff_forall_mem.mp seg1_sub op h,
      List.forall_iff_forall_mem.mp seg2_sub op h,
      List.forall_iff_forall_mem.mp seg3_sub op h,
      List.forall_iff_forall_mem.mp seg4_sub op h,
      List.forall_iff_forall_mem.mp seg5_sub op h,
      List.forall_iff_forall_mem.mp seg6_sub op h,
      List.forall_iff_forall_mem.mp seg7_sub op h,
      List.forall_iff_forall_mem.mp seg8_sub op h,
      List.forall_iff_forall_mem.mp seg9_sub op h,
      List.forall_iff_forall_mem.mp seg10_sub op h,
      List.forall_iff_forall_mem.mp seg11_sub op h,
      List.forall_iff_forall_mem.mp seg12_sub op h,
      List.forall_iff_forall_mem.mp seg13_sub op h,
      List.forall_iff_forall_mem.mp seg14_sub op h,
      List.forall_iff_forall_mem.mp seg15_sub op h,
      List.forall_iff_forall_mem.mp seg16_sub op h]

/-! ## No operation allocates -/

local macro "fresh_tac" : tactic => `(tactic| (simp only [List.Forall]; repeat' constructor))

theorem seg0_fresh : (seg0 : L).Forall fun op => op.fresh = ∅ := by unfold seg0; fresh_tac
theorem seg1_fresh : (seg1 : L).Forall fun op => op.fresh = ∅ := by unfold seg1; fresh_tac
theorem seg2_fresh : (seg2 : L).Forall fun op => op.fresh = ∅ := by unfold seg2; fresh_tac
theorem seg3_fresh : (seg3 : L).Forall fun op => op.fresh = ∅ := by unfold seg3; fresh_tac
theorem seg4_fresh : (seg4 : L).Forall fun op => op.fresh = ∅ := by unfold seg4; fresh_tac
theorem seg5_fresh : (seg5 : L).Forall fun op => op.fresh = ∅ := by unfold seg5; fresh_tac
theorem seg6_fresh : (seg6 : L).Forall fun op => op.fresh = ∅ := by unfold seg6; fresh_tac
theorem seg7_fresh : (seg7 : L).Forall fun op => op.fresh = ∅ := by unfold seg7; fresh_tac
theorem seg8_fresh : (seg8 : L).Forall fun op => op.fresh = ∅ := by unfold seg8; fresh_tac
theorem seg9_fresh : (seg9 : L).Forall fun op => op.fresh = ∅ := by unfold seg9; fresh_tac
theorem seg10_fresh : (seg10 : L).Forall fun op => op.fresh = ∅ := by unfold seg10; fresh_tac
theorem seg11_fresh : (seg11 : L).Forall fun op => op.fresh = ∅ := by unfold seg11; fresh_tac
theorem seg12_fresh : (seg12 : L).Forall fun op => op.fresh = ∅ := by unfold seg12; fresh_tac
theorem seg13_fresh : (seg13 : L).Forall fun op => op.fresh = ∅ := by unfold seg13; fresh_tac
theorem seg14_fresh : (seg14 : L).Forall fun op => op.fresh = ∅ := by unfold seg14; fresh_tac
theorem seg15_fresh : (seg15 : L).Forall fun op => op.fresh = ∅ := by unfold seg15; fresh_tac
theorem seg16_fresh : (seg16 : L).Forall fun op => op.fresh = ∅ := by unfold seg16; fresh_tac

theorem ops_fresh : ∀ op ∈ (ops : L), op.fresh = ∅ := fun op h => by
  rcases mem_ops h with h | h | h | h | h | h | h | h | h | h | h | h | h | h | h | h | h
  exacts [List.forall_iff_forall_mem.mp seg0_fresh op h,
    List.forall_iff_forall_mem.mp seg1_fresh op h,
    List.forall_iff_forall_mem.mp seg2_fresh op h,
    List.forall_iff_forall_mem.mp seg3_fresh op h,
    List.forall_iff_forall_mem.mp seg4_fresh op h,
    List.forall_iff_forall_mem.mp seg5_fresh op h,
    List.forall_iff_forall_mem.mp seg6_fresh op h,
    List.forall_iff_forall_mem.mp seg7_fresh op h,
    List.forall_iff_forall_mem.mp seg8_fresh op h,
    List.forall_iff_forall_mem.mp seg9_fresh op h,
    List.forall_iff_forall_mem.mp seg10_fresh op h,
    List.forall_iff_forall_mem.mp seg11_fresh op h,
    List.forall_iff_forall_mem.mp seg12_fresh op h,
    List.forall_iff_forall_mem.mp seg13_fresh op h,
    List.forall_iff_forall_mem.mp seg14_fresh op h,
    List.forall_iff_forall_mem.mp seg15_fresh op h,
    List.forall_iff_forall_mem.mp seg16_fresh op h]

theorem scopedRefs_eq : (Finset.univ.filter fun b : Ref sig .tc => b.isScoped) = ∅ := by decide
theorem scopedSems_eq : (Finset.univ.filter fun sm : SemLoc sig => sm.isScoped .tc) = ∅ := by decide

/-- On every device, from any memory with zero counters: every weakly fair execution of @main terminates with
    each buffer at the fold of the 334 operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## Folding over a concatenation; what a segment leaves alone -/

theorem after_append (l₁ l₂ : L) (V : Valuation τ sig (Elt F)) : after (l₁ ++ l₂) V = after l₂ (after l₁ V) := by
  induction l₁ generalizing V with
  | nil => rfl
  | cons op l ih => simp only [List.cons_append, after_cons, ih]

local macro "writes_tac" : tactic => `(tactic| (
  simp only [List.Forall, nullary_writes, unary_writes, binary_writes, ternary_writes, reshape_writes, nary_writes]
  repeat' apply And.intro
  all_goals (apply Finset.singleton_subset_iff.mpr; apply List.mem_toFinset.mpr; exact List.mem_map_of_mem (by decide))))

theorem seg0_writes : (seg0 : L).Forall fun op => op.writes ⊆ ((seg0_outs).map (Proc.devRef (τ := τ) .tc)).toFinset := by
  unfold seg0 seg0_outs; writes_tac
theorem seg1_writes : (seg1 : L).Forall fun op => op.writes ⊆ ((seg1_outs).map (Proc.devRef (τ := τ) .tc)).toFinset := by
  unfold seg1 seg1_outs; writes_tac
theorem seg2_writes : (seg2 : L).Forall fun op => op.writes ⊆ ((seg2_outs).map (Proc.devRef (τ := τ) .tc)).toFinset := by
  unfold seg2 seg2_outs; writes_tac
theorem seg3_writes : (seg3 : L).Forall fun op => op.writes ⊆ ((seg3_outs).map (Proc.devRef (τ := τ) .tc)).toFinset := by
  unfold seg3 seg3_outs; writes_tac
theorem seg4_writes : (seg4 : L).Forall fun op => op.writes ⊆ ((seg4_outs).map (Proc.devRef (τ := τ) .tc)).toFinset := by
  unfold seg4 seg4_outs; writes_tac
theorem seg5_writes : (seg5 : L).Forall fun op => op.writes ⊆ ((seg5_outs).map (Proc.devRef (τ := τ) .tc)).toFinset := by
  unfold seg5 seg5_outs; writes_tac
theorem seg6_writes : (seg6 : L).Forall fun op => op.writes ⊆ ((seg6_outs).map (Proc.devRef (τ := τ) .tc)).toFinset := by
  unfold seg6 seg6_outs; writes_tac
theorem seg7_writes : (seg7 : L).Forall fun op => op.writes ⊆ ((seg7_outs).map (Proc.devRef (τ := τ) .tc)).toFinset := by
  unfold seg7 seg7_outs; writes_tac
theorem seg8_writes : (seg8 : L).Forall fun op => op.writes ⊆ ((seg8_outs).map (Proc.devRef (τ := τ) .tc)).toFinset := by
  unfold seg8 seg8_outs; writes_tac
theorem seg9_writes : (seg9 : L).Forall fun op => op.writes ⊆ ((seg9_outs).map (Proc.devRef (τ := τ) .tc)).toFinset := by
  unfold seg9 seg9_outs; writes_tac
theorem seg10_writes : (seg10 : L).Forall fun op => op.writes ⊆ ((seg10_outs).map (Proc.devRef (τ := τ) .tc)).toFinset := by
  unfold seg10 seg10_outs; writes_tac
theorem seg11_writes : (seg11 : L).Forall fun op => op.writes ⊆ ((seg11_outs).map (Proc.devRef (τ := τ) .tc)).toFinset := by
  unfold seg11 seg11_outs; writes_tac
theorem seg12_writes : (seg12 : L).Forall fun op => op.writes ⊆ ((seg12_outs).map (Proc.devRef (τ := τ) .tc)).toFinset := by
  unfold seg12 seg12_outs; writes_tac
theorem seg13_writes : (seg13 : L).Forall fun op => op.writes ⊆ ((seg13_outs).map (Proc.devRef (τ := τ) .tc)).toFinset := by
  unfold seg13 seg13_outs; writes_tac
theorem seg14_writes : (seg14 : L).Forall fun op => op.writes ⊆ ((seg14_outs).map (Proc.devRef (τ := τ) .tc)).toFinset := by
  unfold seg14 seg14_outs; writes_tac
theorem seg15_writes : (seg15 : L).Forall fun op => op.writes ⊆ ((seg15_outs).map (Proc.devRef (τ := τ) .tc)).toFinset := by
  unfold seg15 seg15_outs; writes_tac
theorem seg16_writes : (seg16 : L).Forall fun op => op.writes ⊆ ((seg16_outs).map (Proc.devRef (τ := τ) .tc)).toFinset := by
  unfold seg16 seg16_outs; writes_tac

/-- Segment 0 leaves a reference it does not write as it found it. -/
theorem keep0 (V : Valuation τ sig (Elt F)) {r : Ref sig .tc} (hr : r ∉ seg0_outs) :
    after (seg0 : L) V (no_index (Proc.devRef .tc r)) = V (Proc.devRef .tc r) := after_of_writes_sub _ V seg0_writes hr
/-- Segment 1 leaves a reference it does not write as it found it. -/
theorem keep1 (V : Valuation τ sig (Elt F)) {r : Ref sig .tc} (hr : r ∉ seg1_outs) :
    after (seg1 : L) V (no_index (Proc.devRef .tc r)) = V (Proc.devRef .tc r) := after_of_writes_sub _ V seg1_writes hr
/-- Segment 2 leaves a reference it does not write as it found it. -/
theorem keep2 (V : Valuation τ sig (Elt F)) {r : Ref sig .tc} (hr : r ∉ seg2_outs) :
    after (seg2 : L) V (no_index (Proc.devRef .tc r)) = V (Proc.devRef .tc r) := after_of_writes_sub _ V seg2_writes hr
/-- Segment 3 leaves a reference it does not write as it found it. -/
theorem keep3 (V : Valuation τ sig (Elt F)) {r : Ref sig .tc} (hr : r ∉ seg3_outs) :
    after (seg3 : L) V (no_index (Proc.devRef .tc r)) = V (Proc.devRef .tc r) := after_of_writes_sub _ V seg3_writes hr
/-- Segment 4 leaves a reference it does not write as it found it. -/
theorem keep4 (V : Valuation τ sig (Elt F)) {r : Ref sig .tc} (hr : r ∉ seg4_outs) :
    after (seg4 : L) V (no_index (Proc.devRef .tc r)) = V (Proc.devRef .tc r) := after_of_writes_sub _ V seg4_writes hr
/-- Segment 5 leaves a reference it does not write as it found it. -/
theorem keep5 (V : Valuation τ sig (Elt F)) {r : Ref sig .tc} (hr : r ∉ seg5_outs) :
    after (seg5 : L) V (no_index (Proc.devRef .tc r)) = V (Proc.devRef .tc r) := after_of_writes_sub _ V seg5_writes hr
/-- Segment 6 leaves a reference it does not write as it found it. -/
theorem keep6 (V : Valuation τ sig (Elt F)) {r : Ref sig .tc} (hr : r ∉ seg6_outs) :
    after (seg6 : L) V (no_index (Proc.devRef .tc r)) = V (Proc.devRef .tc r) := after_of_writes_sub _ V seg6_writes hr
/-- Segment 7 leaves a reference it does not write as it found it. -/
theorem keep7 (V : Valuation τ sig (Elt F)) {r : Ref sig .tc} (hr : r ∉ seg7_outs) :
    after (seg7 : L) V (no_index (Proc.devRef .tc r)) = V (Proc.devRef .tc r) := after_of_writes_sub _ V seg7_writes hr
/-- Segment 8 leaves a reference it does not write as it found it. -/
theorem keep8 (V : Valuation τ sig (Elt F)) {r : Ref sig .tc} (hr : r ∉ seg8_outs) :
    after (seg8 : L) V (no_index (Proc.devRef .tc r)) = V (Proc.devRef .tc r) := after_of_writes_sub _ V seg8_writes hr
/-- Segment 9 leaves a reference it does not write as it found it. -/
theorem keep9 (V : Valuation τ sig (Elt F)) {r : Ref sig .tc} (hr : r ∉ seg9_outs) :
    after (seg9 : L) V (no_index (Proc.devRef .tc r)) = V (Proc.devRef .tc r) := after_of_writes_sub _ V seg9_writes hr
/-- Segment 10 leaves a reference it does not write as it found it. -/
theorem keep10 (V : Valuation τ sig (Elt F)) {r : Ref sig .tc} (hr : r ∉ seg10_outs) :
    after (seg10 : L) V (no_index (Proc.devRef .tc r)) = V (Proc.devRef .tc r) := after_of_writes_sub _ V seg10_writes hr
/-- Segment 11 leaves a reference it does not write as it found it. -/
theorem keep11 (V : Valuation τ sig (Elt F)) {r : Ref sig .tc} (hr : r ∉ seg11_outs) :
    after (seg11 : L) V (no_index (Proc.devRef .tc r)) = V (Proc.devRef .tc r) := after_of_writes_sub _ V seg11_writes hr
/-- Segment 12 leaves a reference it does not write as it found it. -/
theorem keep12 (V : Valuation τ sig (Elt F)) {r : Ref sig .tc} (hr : r ∉ seg12_outs) :
    after (seg12 : L) V (no_index (Proc.devRef .tc r)) = V (Proc.devRef .tc r) := after_of_writes_sub _ V seg12_writes hr
/-- Segment 13 leaves a reference it does not write as it found it. -/
theorem keep13 (V : Valuation τ sig (Elt F)) {r : Ref sig .tc} (hr : r ∉ seg13_outs) :
    after (seg13 : L) V (no_index (Proc.devRef .tc r)) = V (Proc.devRef .tc r) := after_of_writes_sub _ V seg13_writes hr
/-- Segment 14 leaves a reference it does not write as it found it. -/
theorem keep14 (V : Valuation τ sig (Elt F)) {r : Ref sig .tc} (hr : r ∉ seg14_outs) :
    after (seg14 : L) V (no_index (Proc.devRef .tc r)) = V (Proc.devRef .tc r) := after_of_writes_sub _ V seg14_writes hr
/-- Segment 15 leaves a reference it does not write as it found it. -/
theorem keep15 (V : Valuation τ sig (Elt F)) {r : Ref sig .tc} (hr : r ∉ seg15_outs) :
    after (seg15 : L) V (no_index (Proc.devRef .tc r)) = V (Proc.devRef .tc r) := after_of_writes_sub _ V seg15_writes hr
/-- Segment 16 leaves a reference it does not write as it found it. -/
theorem keep16 (V : Valuation τ sig (Elt F)) {r : Ref sig .tc} (hr : r ∉ seg16_outs) :
    after (seg16 : L) V (no_index (Proc.devRef .tc r)) = V (Proc.devRef .tc r) := after_of_writes_sub _ V seg16_writes hr

/-- The fold over the whole line, segment by segment. -/
theorem after_ops (V : Valuation τ sig (Elt F)) :
    after (ops : L) V = after seg16 (after seg15 (after seg14 (after seg13 (after seg12 (after seg11 (after seg10 (after seg9
      (after seg8 (after seg7 (after seg6 (after seg5 (after seg4 (after seg3 (after seg2 (after seg1 (after seg0 V)))))))))))))))) := by
  simp only [ops, w0, w1, w2, w3, w4, w5, after_append]

end Cert.ReferenceIdeal.RefRun

end
-- ==== Proof.RefLayout.lean ====
/-
  Layout operations of small rank read at an index given by coordinates: the broadcasts, slices, shape casts and
  concatenations through which a host program lifts vectors and constant tables to the arrays it multiplies.
  Each lemma says which operand entry the result entry at given coordinates is.
-/
import Idealize.ShloMosaic.Lib.ValueIdx
import Idealize.ShloMosaic.Lib.ValueLayout
import Idealize.ShloMosaic.Lib.Pipeline.Value

noncomputable section

namespace Basis.Layout

open Idealize.ShloMosaic Idealize.ShloMosaic.ValueIdx

variable {α : Type}

/-- A scalar broadcast to any shape reads the scalar everywhere. -/
theorem bc_scalar {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- `[n] → [n, 1]` along axis 0: entry `(e, ·)` is entry `e`. -/
theorem bc_n_n1 {n : ℕ} (h : (⟨1, ![n]⟩ : Shape).BroadcastsInDim ⟨2, ![n, 1]⟩ ![0])
    (x : (⟨1, ![n]⟩ : Shape).Idx → α) (e : Fin n) (u : Fin 1) :
    broadcastInDim ⟨2, ![n, 1]⟩ ![0] h x (ix2 e u) = x (ix1 e) := by
  refine broadcastInDim_apply _ h x _ (ix1 e) fun a => ?_
  match a with
  | ⟨0, _⟩ =>
    show e.val = if n = 1 then 0 else e.val
    split_ifs with h1
    · have := e.isLt; omega
    · rfl

/-- `[n, 1] → [n, m]`: entry `(e, i)` is entry `(e, 0)`. -/
theorem bc_n1_nm {n m : ℕ} (h : (⟨2, ![n, 1]⟩ : Shape).BroadcastsInDim ⟨2, ![n, m]⟩ ![0, 1])
    (x : (⟨2, ![n, 1]⟩ : Shape).Idx → α) (e : Fin n) (i : Fin m) :
    broadcastInDim ⟨2, ![n, m]⟩ ![0, 1] h x (ix2 e i) = x (ix2 e 0) := by
  refine broadcastInDim_apply _ h x _ (ix2 e 0) fun a => ?_
  match a with
  | ⟨0, _⟩ =>
    show e.val = if n = 1 then 0 else e.val
    split_ifs with h1
    · have := e.isLt; omega
    · rfl
  | ⟨1, _⟩ => rfl

/-- `[m] → [1, m]` along axis 1: entry `(·, i)` is entry `i`. -/
theorem bc_m_1m {m : ℕ} (h : (⟨1, ![m]⟩ : Shape).BroadcastsInDim ⟨2, ![1, m]⟩ ![1])
    (x : (⟨1, ![m]⟩ : Shape).Idx → α) (u : Fin 1) (i : Fin m) :
    broadcastInDim ⟨2, ![1, m]⟩ ![1] h x (ix2 u i) = x (ix1 i) := by
  refine broadcastInDim_apply _ h x _ (ix1 i) fun a => ?_
  match a with
  | ⟨0, _⟩ =>
    show i.val = if m = 1 then 0 else i.val
    split_ifs with h1
    · have := i.isLt; omega
    · rfl

/-- `[1, m] → [n, m]`: entry `(e, i)` is entry `(0, i)`. -/
theorem bc_1m_nm {n m : ℕ} (h : (⟨2, ![1, m]⟩ : Shape).BroadcastsInDim ⟨2, ![n, m]⟩ ![0, 1])
    (x : (⟨2, ![1, m]⟩ : Shape).Idx → α) (e : Fin n) (i : Fin m) :
    broadcastInDim ⟨2, ![n, m]⟩ ![0, 1] h x (ix2 e i) = x (ix2 0 i) := by
  refine broadcastInDim_apply _ h x _ (ix2 0 i) fun a => ?_
  match a with
  | ⟨0, _⟩ => rfl
  | ⟨1, _⟩ =>
    show i.val = if m = 1 then 0 else i.val
    split_ifs with h1
    · have := i.isLt; omega
    · rfl

/-- A one-row slice `[l : l+1, 0 : m]` of an `[r, m]` table: entry `(0, i)` is the table's `(l, i)`. -/
theorem slice_row {r m : ℕ} (l : ℕ) (hl : l < r) (h : (⟨2, ![r, m]⟩ : Shape).Slices ![l, 0] ⟨2, ![1, m]⟩)
    (X : (⟨2, ![r, m]⟩ : Shape).Idx → α) (u : Fin 1) (i : Fin m) :
    extractStridedSlice ⟨2, ![1, m]⟩ ![l, 0] X h (ix2 u i) = X (ix2 ⟨l, hl⟩ i) := by
  refine extractStridedSlice_apply _ X h _ (ix2 ⟨l, hl⟩ i) fun a => ?_
  match a with
  | ⟨0, _⟩ => show l = l + u.val; omega
  | ⟨1, _⟩ => show i.val = 0 + i.val; omega

/-- `[n, m] → [n, 1, m]` along axes 0 and 2: entry `(e, ·, i)` is entry `(e, i)`. -/
theorem bc_nm_n1m {n m : ℕ} (h : (⟨2, ![n, m]⟩ : Shape).BroadcastsInDim ⟨3, ![n, 1, m]⟩ ![0, 2])
    (x : (⟨2, ![n, m]⟩ : Shape).Idx → α) (e : Fin n) (u : Fin 1) (i : Fin m) :
    broadcastInDim ⟨3, ![n, 1, m]⟩ ![0, 2] h x (ix3 e u i) = x (ix2 e i) := by
  refine broadcastInDim_apply _ h x _ (ix2 e i) fun a => ?_
  match a with
  | ⟨0, _⟩ =>
    show e.val = if n = 1 then 0 else e.val
    split_ifs with h1
    · have := e.isLt; omega
    · rfl
  | ⟨1, _⟩ =>
    show i.val = if m = 1 then 0 else i.val
    split_ifs with h1
    · have := i.isLt; omega
    · rfl

/-- `[n] → [n, 1, 1]` along axis 0: entry `(e, ·, ·)` is entry `e`. -/
theorem bc_n_n11 {n : ℕ} (h : (⟨1, ![n]⟩ : Shape).BroadcastsInDim ⟨3, ![n, 1, 1]⟩ ![0])
    (x : (⟨1, ![n]⟩ : Shape).Idx → α) (e : Fin n) (u v : Fin 1) :
    broadcastInDim ⟨3, ![n, 1, 1]⟩ ![0] h x (ix3 e u v) = x (ix1 e) := by
  refine broadcastInDim_apply _ h x _ (ix1 e) fun a => ?_
  match a with
  | ⟨0, _⟩ =>
    show e.val = if n = 1 then 0 else e.val
    split_ifs with h1
    · have := e.isLt; omega
    · rfl

/-- `[n, 1, 1] → [n, p, m]`: entry `(e, l, i)` is entry `(e, 0, 0)`. -/
theorem bc_n11_npm {n p m : ℕ} (h : (⟨3, ![n, 1, 1]⟩ : Shape).BroadcastsInDim ⟨3, ![n, p, m]⟩ ![0, 1, 2])
    (x : (⟨3, ![n, 1, 1]⟩ : Shape).Idx → α) (e : Fin n) (l : Fin p) (i : Fin m) :
    broadcastInDim ⟨3, ![n, p, m]⟩ ![0, 1, 2] h x (ix3 e l i) = x (ix3 e 0 0) := by
  refine broadcastInDim_apply _ h x _ (ix3 e 0 0) fun a => ?_
  match a with
  | ⟨0, _⟩ =>
    show e.val = if n = 1 then 0 else e.val
    split_ifs with h1
    · have := e.isLt; omega
    · rfl
  | ⟨1, _⟩ => rfl
  | ⟨2, _⟩ => rfl

/-- `[n, p] → [n, p, 1]` along axes 0 and 1: entry `(t, l, ·)` is entry `(t, l)`. -/
theorem bc_np_np1 {n p : ℕ} (h : (⟨2, ![n, p]⟩ : Shape).BroadcastsInDim ⟨3, ![n, p, 1]⟩ ![0, 1])
    (x : (⟨2, ![n, p]⟩ : Shape).Idx → α) (t : Fin n) (l : Fin p) (u : Fin 1) :
    broadcastInDim ⟨3, ![n, p, 1]⟩ ![0, 1] h x (ix3 t l u) = x (ix2 t l) := by
  refine broadcastInDim_apply _ h x _ (ix2 t l) fun a => ?_
  match a with
  | ⟨0, _⟩ =>
    show t.val = if n = 1 then 0 else t.val
    split_ifs with h1
    · have := t.isLt; omega
    · rfl
  | ⟨1, _⟩ =>
    show l.val = if p = 1 then 0 else l.val
    split_ifs with h1
    · have := l.isLt; omega
    · rfl

/-- `[n, p, 1] → [n, p, m]`: entry `(t, l, i)` is entry `(t, l, 0)`. -/
theorem bc_np1_npm {n p m : ℕ} (h : (⟨3, ![n, p, 1]⟩ : Shape).BroadcastsInDim ⟨3, ![n, p, m]⟩ ![0, 1, 2])
    (x : (⟨3, ![n, p, 1]⟩ : Shape).Idx → α) (t : Fin n) (l : Fin p) (i : Fin m) :
    broadcastInDim ⟨3, ![n, p, m]⟩ ![0, 1, 2] h x (ix3 t l i) = x (ix3 t l 0) := by
  refine broadcastInDim_apply _ h x _ (ix3 t l 0) fun a => ?_
  match a with
  | ⟨0, _⟩ =>
    show t.val = if n = 1 then 0 else t.val
    split_ifs with h1
    · have := t.isLt; omega
    · rfl
  | ⟨1, _⟩ =>
    show l.val = if p = 1 then 0 else l.val
    split_ifs with h1
    · have := l.isLt; omega
    · rfl
  | ⟨2, _⟩ => rfl

/-- `[n, p, m] → [n, p·m]` (a reshape merging the last two axes): entry `(t, m·l + i)` is entry `(t, l, i)`. -/
theorem merge_last {n p m q : ℕ} (hq : p * m = q) (h : (⟨3, ![n, p, m]⟩ : Shape).ShapeCasts ⟨2, ![n, q]⟩)
    (x : (⟨3, ![n, p, m]⟩ : Shape).Idx → α) (t : Fin n) (l : Fin p) (i : Fin m) (j : Fin q) (hj : j.val = m * l.val + i.val) :
    shapeCast ⟨2, ![n, q]⟩ x h (ix2 t j) = x (ix3 t l i) := by
  refine shapeCast_apply x h _ (ix3 t l i) ?_
  rw [Shape.rowMajor_val_three, Shape.rowMajor_val_two]
  show (t.val * p + l.val) * m + i.val = t.val * q + j.val
  subst hq
  rw [hj]; ring

/-- A buffer's contents as an array of extended reals of a stated shape (the identity: it fixes the type an
    entry is read at). -/
abbrev rd {S : Shape} (x : S.Idx → EReal) : S.Idx → EReal := x
/-- A buffer's contents as an array of 32-bit words of a stated shape. -/
abbrev rdI {S : Shape} (x : S.Idx → BitVec 32) : S.Idx → BitVec 32 := x

end Basis.Layout

end
-- ==== Proof.RefConcat.lean ====
/-
  Seven arrays of unit extent on one axis, concatenated along that axis, read at an index: entry `l` along the axis
  comes from the `l`-th array.  Two layouts: `[n, 1, m]` pieces into `[n, 7, m]` (axis 1 of three), and `[n, 1]`
  pieces into `[n, 7]` (axis 1 of two).
-/
import Idealize.ShloMosaic.Lib.ValueIdx
import Idealize.ShloMosaic.Lib.Pipeline.Value

noncomputable section

namespace Basis.Layout

open Idealize.ShloMosaic Idealize.ShloMosaic.ValueIdx

variable {α : Type}

/-- Seven `[n, 1, m]` arrays stacked along axis 1: entry `(e, l, i)` is the `l`-th array's `(e, 0, i)`. -/
theorem cat7_mid {n m : ℕ} (x0 x1 x2 x3 x4 x5 x6 : (⟨3, ![n, 1, m]⟩ : Shape).Idx → α)
    (h : Shape.Concatenates [⟨3, ![n, 1, m]⟩, ⟨3, ![n, 1, m]⟩, ⟨3, ![n, 1, m]⟩, ⟨3, ![n, 1, m]⟩, ⟨3, ![n, 1, m]⟩, ⟨3, ![n, 1, m]⟩,
      ⟨3, ![n, 1, m]⟩] ⟨3, ![n, 7, m]⟩ 1)
    (e : Fin n) (l : Fin 7) (i : Fin m) :
    concatenate ⟨3, ![n, 7, m]⟩ 1 [⟨⟨3, ![n, 1, m]⟩, x0⟩, ⟨⟨3, ![n, 1, m]⟩, x1⟩, ⟨⟨3, ![n, 1, m]⟩, x2⟩, ⟨⟨3, ![n, 1, m]⟩, x3⟩,
      ⟨⟨3, ![n, 1, m]⟩, x4⟩, ⟨⟨3, ![n, 1, m]⟩, x5⟩, ⟨⟨3, ![n, 1, m]⟩, x6⟩] h (ix3 e l i)
      = (![x0, x1, x2, x3, x4, x5, x6] l) (ix3 e 0 i) := by
  have hi : ∀ b : Fin 3, b.cast (rfl : 3 = 3) ≠ (1 : Fin 3) →
      ((ix3 e (0 : Fin 1) i : (⟨3, ![n, 1, m]⟩ : Shape).Idx) b).val = ((ix3 e l i : (⟨3, ![n, 7, m]⟩ : Shape).Idx) (b.cast rfl)).val := by
    intro b hb
    match b with
    | ⟨0, _⟩ => rfl
    | ⟨1, _⟩ => exact absurd rfl hb
    | ⟨2, _⟩ => rfl
  fin_cases l
  · exact concatenate_apply_piece 1 ([⟨⟨3, ![n, 1, m]⟩, x0⟩, ⟨⟨3, ![n, 1, m]⟩, x1⟩, ⟨⟨3, ![n, 1, m]⟩, x2⟩, ⟨⟨3, ![n, 1, m]⟩, x3⟩, ⟨⟨3, ![n, 1, m]⟩, x4⟩, ⟨⟨3, ![n, 1, m]⟩, x5⟩, ⟨⟨3, ![n, 1, m]⟩, x6⟩] : List ((s : Shape) × (s.Idx → α))) h _ 0 (by simp) _ x0 rfl rfl 0 rfl (ix3 e 0 i) hi rfl
  · exact concatenate_apply_piece 1 ([⟨⟨3, ![n, 1, m]⟩, x0⟩, ⟨⟨3, ![n, 1, m]⟩, x1⟩, ⟨⟨3, ![n, 1, m]⟩, x2⟩, ⟨⟨3, ![n, 1, m]⟩, x3⟩, ⟨⟨3, ![n, 1, m]⟩, x4⟩, ⟨⟨3, ![n, 1, m]⟩, x5⟩, ⟨⟨3, ![n, 1, m]⟩, x6⟩] : List ((s : Shape) × (s.Idx → α))) h _ 1 (by simp) _ x1 rfl rfl 1 rfl (ix3 e 0 i) hi rfl
  · exact concatenate_apply_piece 1 ([⟨⟨3, ![n, 1, m]⟩, x0⟩, ⟨⟨3, ![n, 1, m]⟩, x1⟩, ⟨⟨3, ![n, 1, m]⟩, x2⟩, ⟨⟨3, ![n, 1, m]⟩, x3⟩, ⟨⟨3, ![n, 1, m]⟩, x4⟩, ⟨⟨3, ![n, 1, m]⟩, x5⟩, ⟨⟨3, ![n, 1, m]⟩, x6⟩] : List ((s : Shape) × (s.Idx → α))) h _ 2 (by simp) _ x2 rfl rfl 2 rfl (ix3 e 0 i) hi rfl
  · exact concatenate_apply_piece 1 ([⟨⟨3, ![n, 1, m]⟩, x0⟩, ⟨⟨3, ![n, 1, m]⟩, x1⟩, ⟨⟨3, ![n, 1, m]⟩, x2⟩, ⟨⟨3, ![n, 1, m]⟩, x3⟩, ⟨⟨3, ![n, 1, m]⟩, x4⟩, ⟨⟨3, ![n, 1, m]⟩, x5⟩, ⟨⟨3, ![n, 1, m]⟩, x6⟩] : List ((s : Shape) × (s.Idx → α))) h _ 3 (by simp) _ x3 rfl rfl 3 rfl (ix3 e 0 i) hi rfl
  · exact concatenate_apply_piece 1 ([⟨⟨3, ![n, 1, m]⟩, x0⟩, ⟨⟨3, ![n, 1, m]⟩, x1⟩, ⟨⟨3, ![n, 1, m]⟩, x2⟩, ⟨⟨3, ![n, 1, m]⟩, x3⟩, ⟨⟨3, ![n, 1, m]⟩, x4⟩, ⟨⟨3, ![n, 1, m]⟩, x5⟩, ⟨⟨3, ![n, 1, m]⟩, x6⟩] : List ((s : Shape) × (s.Idx → α))) h _ 4 (by simp) _ x4 rfl rfl 4 rfl (ix3 e 0 i) hi rfl
  · exact concatenate_apply_piece 1 ([⟨⟨3, ![n, 1, m]⟩, x0⟩, ⟨⟨3, ![n, 1, m]⟩, x1⟩, ⟨⟨3, ![n, 1, m]⟩, x2⟩, ⟨⟨3, ![n, 1, m]⟩, x3⟩, ⟨⟨3, ![n, 1, m]⟩, x4⟩, ⟨⟨3, ![n, 1, m]⟩, x5⟩, ⟨⟨3, ![n, 1, m]⟩, x6⟩] : List ((s : Shape) × (s.Idx → α))) h _ 5 (by simp) _ x5 rfl rfl 5 rfl (ix3 e 0 i) hi rfl
  · exact concatenate_apply_piece 1 ([⟨⟨3, ![n, 1, m]⟩, x0⟩, ⟨⟨3, ![n, 1, m]⟩, x1⟩, ⟨⟨3, ![n, 1, m]⟩, x2⟩, ⟨⟨3, ![n, 1, m]⟩, x3⟩, ⟨⟨3, ![n, 1, m]⟩, x4⟩, ⟨⟨3, ![n, 1, m]⟩, x5⟩, ⟨⟨3, ![n, 1, m]⟩, x6⟩] : List ((s : Shape) × (s.Idx → α))) h _ 6 (by simp) _ x6 rfl rfl 6 rfl (ix3 e 0 i) hi rfl

/-- Seven `[n, 1]` columns set side by side: entry `(t, l)` is the `l`-th column's `(t, 0)`. -/
theorem cat7_cols {n : ℕ} (x0 x1 x2 x3 x4 x5 x6 : (⟨2, ![n, 1]⟩ : Shape).Idx → α)
    (h : Shape.Concatenates [⟨2, ![n, 1]⟩, ⟨2, ![n, 1]⟩, ⟨2, ![n, 1]⟩, ⟨2, ![n, 1]⟩, ⟨2, ![n, 1]⟩, ⟨2, ![n, 1]⟩, ⟨2, ![n, 1]⟩]
      ⟨2, ![n, 7]⟩ 1)
    (t : Fin n) (l : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩,
      ⟨⟨2, ![n, 1]⟩, x4⟩, ⟨⟨2, ![n, 1]⟩, x5⟩, ⟨⟨2, ![n, 1]⟩, x6⟩] h (ix2 t l)
      = (![x0, x1, x2, x3, x4, x5, x6] l) (ix2 t 0) := by
  have hi : ∀ b : Fin 2, b.cast (rfl : 2 = 2) ≠ (1 : Fin 2) →
      ((ix2 t (0 : Fin 1) : (⟨2, ![n, 1]⟩ : Shape).Idx) b).val = ((ix2 t l : (⟨2, ![n, 7]⟩ : Shape).Idx) (b.cast rfl)).val := by
    intro b hb
    match b with
    | ⟨0, _⟩ => rfl
    | ⟨1, _⟩ => exact absurd rfl hb
  fin_cases l
  · exact concatenate_apply_piece 1 ([⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] : List ((s : Shape) × (s.Idx → α))) h _ 0 (by simp) _ x0 rfl rfl 0 rfl (ix2 t 0) hi rfl
  · exact concatenate_apply_piece 1 ([⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] : List ((s : Shape) × (s.Idx → α))) h _ 1 (by simp) _ x1 rfl rfl 1 rfl (ix2 t 0) hi rfl
  · exact concatenate_apply_piece 1 ([⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] : List ((s : Shape) × (s.Idx → α))) h _ 2 (by simp) _ x2 rfl rfl 2 rfl (ix2 t 0) hi rfl
  · exact concatenate_apply_piece 1 ([⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] : List ((s : Shape) × (s.Idx → α))) h _ 3 (by simp) _ x3 rfl rfl 3 rfl (ix2 t 0) hi rfl
  · exact concatenate_apply_piece 1 ([⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] : List ((s : Shape) × (s.Idx → α))) h _ 4 (by simp) _ x4 rfl rfl 4 rfl (ix2 t 0) hi rfl
  · exact concatenate_apply_piece 1 ([⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] : List ((s : Shape) × (s.Idx → α))) h _ 5 (by simp) _ x5 rfl rfl 5 rfl (ix2 t 0) hi rfl
  · exact concatenate_apply_piece 1 ([⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] : List ((s : Shape) × (s.Idx → α))) h _ 6 (by simp) _ x6 rfl rfl 6 rfl (ix2 t 0) hi rfl

end Basis.Layout

end
-- ==== Proof.RefTac.lean ====
/-
  Reading a composed host term at an index: the layout operations are rewritten, innermost last, by the lemmas that
  say which operand entry each result entry is, until only the operands at their own indices are left.
-/
import proofs.«113305_j49366354100415_2_alg».proof.Proof.RefLayout
import proofs.«113305_j49366354100415_2_alg».proof.Proof.RefConcat
import Idealize.ShloMosaic.Lib.ValueLayout

namespace Basis.Layout

open Idealize.ShloMosaic Idealize.ShloMosaic.ValueIdx

/-- Rewrites every broadcast, one-row slice and unit-axis shape cast read at coordinates to its operand's entry. -/
macro "layout_read" : tactic =>
  `(tactic| repeat (first
      | rw [bc_1m_nm] | rw [bc_m_1m] | rw [shapeCast_1a_a_apply] | erw [shapeCast_1a_a_apply]
      | rw [slice_row _ (by decide)] | rw [bc_n1_nm] | rw [bc_n_n1] | rw [bc_scalar] | rw [bc_nm_n1m]
      | rw [bc_n_n11] | rw [bc_n11_npm] | rw [bc_np_np1] | rw [bc_np1_npm]))

end Basis.Layout
-- ==== Proof.RefBessel.lean ====
/-
  The seven Bessel blocks of the reference, each read at an entry.

  Block `l` takes row `l` of the two constant tables (the normalisers `n`, the roots `z`), the scaled distances `x`,
  and leaves the array whose entry `(e, i)` is `n(l, i) · j_l (z(l, i) · x(e))`: the tables' rows are sliced, reshaped
  and broadcast down the rows, `x` is broadcast along the columns, and `j_l` is computed entry by entry by the upward
  recurrence.  The statements hold from any contents `W` of the buffers the block reads.
-/
import proofs.«113305_j49366354100415_2_alg».proof.Proof.RefOps
import proofs.«113305_j49366354100415_2_alg».proof.Proof.RefRun
import proofs.«113305_j49366354100415_2_alg».proof.Proof.RefTac
import proofs.«113305_j49366354100415_2_alg».proof.Proof.Spec

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo
open Idealize.ShloMosaic.ValueIdx Basis.Layout

local notation "L" => List (HloOp τ sig (Elt Ideal))
local notation "Val" => Valuation τ sig (Elt Ideal)

set_option maxHeartbeats 4000000 in
/-- Block 0: entry `(e, i)` is `n(0, i) · j_0 (z(0, i) · x(e))`. -/
theorem B0_apply (W : Val) (e : Fin 500000) (i : Fin 6) :
    rd (S := S500000x6) (after (seg1 : L) W (Proc.devRef .tc main_v15)) (ix2 e i)
      = rd (S := S7x6) (W (Proc.devRef .tc main_cst)) (ix2 0 i)
        * Basis.j0 (rd (S := S7x6) (W (Proc.devRef .tc main_cst_0)) (ix2 0 i) * rd (S := S500000) (W (Proc.devRef .tc main_v1)) (ix1 e)) := by
  unfold seg1
  after_results_simp
  simp only [rd, mulf, subf, addf, Host.divf, Host.sin, Host.cos, cmpf, select, constant]
  layout_read
  rfl

set_option maxHeartbeats 4000000 in
/-- Block 1: entry `(e, i)` is `n(1, i) · j_1 (z(1, i) · x(e))`. -/
theorem B1_apply (W : Val) (e : Fin 500000) (i : Fin 6) :
    rd (S := S500000x6) (after (seg2 : L) W (Proc.devRef .tc main_v35)) (ix2 e i)
      = rd (S := S7x6) (W (Proc.devRef .tc main_cst)) (ix2 1 i)
        * Basis.j1 (rd (S := S7x6) (W (Proc.devRef .tc main_cst_0)) (ix2 1 i) * rd (S := S500000) (W (Proc.devRef .tc main_v1)) (ix1 e)) := by
  unfold seg2
  after_results_simp
  simp only [rd, mulf, subf, addf, Host.divf, Host.sin, Host.cos, cmpf, select, constant]
  layout_read
  rfl

set_option maxHeartbeats 4000000 in
/-- Block 2: entry `(e, i)` is `n(2, i) · j_2 (z(2, i) · x(e))`. -/
theorem B2_apply (W : Val) (e : Fin 500000) (i : Fin 6) :
    rd (S := S500000x6) (after (seg4 : L) (after (seg3 : L) W) (Proc.devRef .tc main_v59)) (ix2 e i)
      = rd (S := S7x6) (W (Proc.devRef .tc main_cst)) (ix2 2 i)
        * Basis.j2 (rd (S := S7x6) (W (Proc.devRef .tc main_cst_0)) (ix2 2 i) * rd (S := S500000) (W (Proc.devRef .tc main_v1)) (ix1 e)) := by
  rw [← after_append]
  unfold seg3 seg4
  simp only [List.cons_append, List.nil_append]
  after_results_simp
  simp only [rd, mulf, subf, addf, Host.divf, Host.sin, Host.cos, cmpf, select, constant]
  layout_read
  rfl

set_option maxHeartbeats 4000000 in
/-- Block 3: entry `(e, i)` is `n(3, i) · j_3 (z(3, i) · x(e))`. -/
theorem B3_apply (W : Val) (e : Fin 500000) (i : Fin 6) :
    rd (S := S500000x6) (after (seg5 : L) W (Proc.devRef .tc main_v87)) (ix2 e i)
      = rd (S := S7x6) (W (Proc.devRef .tc main_cst)) (ix2 3 i)
        * Basis.j3 (rd (S := S7x6) (W (Proc.devRef .tc main_cst_0)) (ix2 3 i) * rd (S := S500000) (W (Proc.devRef .tc main_v1)) (ix1 e)) := by
  unfold seg5
  after_results_simp
  simp only [rd, mulf, subf, addf, Host.divf, Host.sin, Host.cos, cmpf, select, constant]
  layout_read
  rfl

set_option maxHeartbeats 4000000 in
/-- Block 4: entry `(e, i)` is `n(4, i) · j_4 (z(4, i) · x(e))`. -/
theorem B4_apply (W : Val) (e : Fin 500000) (i : Fin 6) :
    rd (S := S500000x6) (after (seg7 : L) (after (seg6 : L) W) (Proc.devRef .tc main_v119)) (ix2 e i)
      = rd (S := S7x6) (W (Proc.devRef .tc main_cst)) (ix2 4 i)
        * Basis.j4 (rd (S := S7x6) (W (Proc.devRef .tc main_cst_0)) (ix2 4 i) * rd (S := S500000) (W (Proc.devRef .tc main_v1)) (ix1 e)) := by
  rw [← after_append]
  unfold seg6 seg7
  simp only [List.cons_append, List.nil_append]
  after_results_simp
  simp only [rd, mulf, subf, addf, Host.divf, Host.sin, Host.cos, cmpf, select, constant]
  layout_read
  rfl

set_option maxHeartbeats 4000000 in
/-- Block 5: entry `(e, i)` is `n(5, i) · j_5 (z(5, i) · x(e))`. -/
theorem B5_apply (W : Val) (e : Fin 500000) (i : Fin 6) :
    rd (S := S500000x6) (after (seg8 : L) W (Proc.devRef .tc main_v155)) (ix2 e i)
      = rd (S := S7x6) (W (Proc.devRef .tc main_cst)) (ix2 5 i)
        * Basis.j5 (rd (S := S7x6) (W (Proc.devRef .tc main_cst_0)) (ix2 5 i) * rd (S := S500000) (W (Proc.devRef .tc main_v1)) (ix1 e)) := by
  unfold seg8
  after_results_simp
  simp only [rd, mulf, subf, addf, Host.divf, Host.sin, Host.cos, cmpf, select, constant]
  layout_read
  rfl

set_option maxHeartbeats 4000000 in
/-- Block 6: entry `(e, i)` is `n(6, i) · j_6 (z(6, i) · x(e))`. -/
theorem B6_apply (W : Val) (e : Fin 500000) (i : Fin 6) :
    rd (S := S500000x6) (after (seg10 : L) (after (seg9 : L) W) (Proc.devRef .tc main_v195)) (ix2 e i)
      = rd (S := S7x6) (W (Proc.devRef .tc main_cst)) (ix2 6 i)
        * Basis.j6 (rd (S := S7x6) (W (Proc.devRef .tc main_cst_0)) (ix2 6 i) * rd (S := S500000) (W (Proc.devRef .tc main_v1)) (ix1 e)) := by
  rw [← after_append]
  unfold seg9 seg10
  simp only [List.cons_append, List.nil_append]
  after_results_simp
  simp only [rd, mulf, subf, addf, Host.divf, Host.sin, Host.cos, cmpf, select, constant]
  layout_read
  rfl

end Cert.ReferenceIdeal.RefVal

end
-- ==== Proof.LibGatherSlabs.lean ====
/-
  A general lemma: `stablehlo.gather` of whole SLABS of a rank-3 array at a column of start indices, read at an index.

  What `x[idx]` of an array `x : [N, P, M]` at an integer vector `idx : [R]` lowers to: a gather whose result
  `[R, P, M]` has two offset axes, the operand's leading axis collapsed, start index map `[0]`, slice sizes
  `[1, P, M]` and the index vector on axis 1 of the start indices laid out as `[R, 1]`.  Result element
  `(t, l, i)` is `x` at slab `idx[t, 0]` — read as a signed integer and clamped into `[0, N − 1]` — and position
  `(l, i)` inside the slab.  It is the rank-3 twin of the row gather of a matrix read at an index.
-/
import Idealize.ShloMosaic.Lib.ValueIdx

noncomputable section

namespace Idealize.ShloMosaic.GatherSlabs

open Idealize.ShloMosaic Idealize.ShloMosaic.ValueIdx

variable {α : Type}

/-- The dimension numbers of `x[idx]` for an operand `[N, P, M]`, start indices `[R, 1]` and result `[R, P, M]`. -/
abbrev slabDims (N R P M : Nat)
    (wf : GatherDims.WF ⟨3, ![N, P, M]⟩ ⟨2, ![R, 1]⟩ ⟨3, ![R, P, M]⟩ [1, 2] [0] [] [0] [] 1 ![1, P, M]) :
    GatherDims ⟨3, ![N, P, M]⟩ ⟨2, ![R, 1]⟩ ⟨3, ![R, P, M]⟩ where
  offsetDims := [1, 2]
  collapsedSliceDims := [0]
  operandBatchingDims := []
  startIndicesBatchingDims := []
  startIndexMap := [0]
  indexVectorDim := 1
  sliceSizes := ![1, P, M]
  wf := wf

/-- THE SLAB GATHER READ AT `(t, l, i)`: the operand at slab `idx[t, 0]`, read signed and clamped into
    `[0, N − 1]`, and position `(l, i)`. -/
theorem gather_slab_apply {N R P M w : Nat} (hN : 0 < N)
    (wf : GatherDims.WF ⟨3, ![N, P, M]⟩ ⟨2, ![R, 1]⟩ ⟨3, ![R, P, M]⟩ [1, 2] [0] [] [0] [] 1 ![1, P, M])
    (x : (⟨3, ![N, P, M]⟩ : Shape).Idx → α) (idx : IVec ⟨2, ![R, 1]⟩ w) (t : Fin R) (l : Fin P) (i : Fin M) :
    Host.gather (slabDims N R P M wf) x idx (ix3 t l i)
      = x (ix3 ⟨min (idx (ix2 t (0 : Fin 1))).toInt.toNat (N - 1), by omega⟩ l i) := by
  unfold Host.gather
  congr 1
  funext a
  refine Fin.ext ?_
  match a with
  | ⟨0, _⟩ =>
    show (slabDims N R P M wf).start (ix3 t l i) idx 0 + (slabDims N R P M wf).batchCoord (ix3 t l i) 0
      + (slabDims N R P M wf).offCoord (ix3 t l i) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N R P M wf).startIndexMap from List.mem_singleton.mpr rfl)]
    have hsi : (slabDims N R P M wf).siIdx (ix3 t l i) ⟨List.idxOf (0 : Fin 3) (slabDims N R P M wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    show (slabDims N R P M wf).start (ix3 t l i) idx 1 + (slabDims N R P M wf).batchCoord (ix3 t l i) 1
      + (slabDims N R P M wf).offCoord (ix3 t l i) 1 = l.val
    rw [GatherDims.batchCoord_eq_zero _ _ _ List.not_mem_nil]
    have hs : (slabDims N R P M wf).start (ix3 t l i) idx 1 = 0 := by
      unfold GatherDims.start
      rw [dif_neg (by simp)]
    have ho : (slabDims N R P M wf).offCoord (ix3 t l i) 1 = l.val := by
      unfold GatherDims.offCoord
      rw [dif_pos ((GatherDims.mem_sKept _ _).mpr ⟨by simp, List.not_mem_nil⟩)]
      rfl
    rw [hs, ho]
    simp
  | ⟨2, _⟩ =>
    show (slabDims N R P M wf).start (ix3 t l i) idx 2 + (slabDims N R P M wf).batchCoord (ix3 t l i) 2
      + (slabDims N R P M wf).offCoord (ix3 t l i) 2 = i.val
    rw [GatherDims.batchCoord_eq_zero _ _ _ List.not_mem_nil]
    have hs : (slabDims N R P M wf).start (ix3 t l i) idx 2 = 0 := by
      unfold GatherDims.start
      rw [dif_neg (by simp)]
    have ho : (slabDims N R P M wf).offCoord (ix3 t l i) 2 = i.val := by
      unfold GatherDims.offCoord
      rw [dif_pos ((GatherDims.mem_sKept _ _).mpr ⟨by simp, List.not_mem_nil⟩)]
      rfl
    rw [hs, ho]
    simp

end Idealize.ShloMosaic.GatherSlabs

end
-- ==== Proof.RefStages.lean ====
/-
  The other stages of the reference, each read at an entry, from any contents `W` of the buffers the stage reads.

  The scaled distance `x = d / 5` and the three constant tables; the stacking of the seven Bessel blocks along a new
  middle axis; the envelope `u(x)` broadcast over `(l, i)` and multiplied in; the Legendre polynomials of `cos a` set
  side by side and scaled by the prefactors; and last the gather of the slab an index word selects, its product with
  the angular factor, and the merge of the two trailing axes.
-/
import proofs.«113305_j49366354100415_2_alg».proof.Proof.RefOps
import proofs.«113305_j49366354100415_2_alg».proof.Proof.RefRun
import proofs.«113305_j49366354100415_2_alg».proof.Proof.RefTac
import proofs.«113305_j49366354100415_2_alg».proof.Proof.LibGatherSlabs
import proofs.«113305_j49366354100415_2_alg».proof.Proof.Spec

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo
open Idealize.ShloMosaic.ValueIdx Basis.Layout

local notation "L" => List (HloOp τ sig (Elt Ideal))
local notation "Val" => Valuation τ sig (Elt Ideal)

open Idealize.ShloMosaic.GatherSlabs

/-! ## The scaled distance and the tables -/

set_option maxHeartbeats 1000000 in
theorem X_apply (W : Val) (e : Fin 500000) :
    rd (S := S500000) (after (seg0 : L) W (Proc.devRef .tc main_v1)) (ix1 e)
      = Ideal.div (rd (S := S500000) (W (Proc.devRef .tc main_arg0)) (ix1 e)) (Basis.c 0x40A00000#32) := by
  unfold seg0
  after_results_simp
  simp only [rd, mulf, subf, addf, Host.divf, Host.sin, Host.cos, cmpf, select, constant]
  layout_read
  rfl

theorem lit0_eq : lit0 = Basis.nW := by funext k; fin_cases k <;> rfl
theorem lit1_eq : lit1 = Basis.zW := by funext k; fin_cases k <;> rfl
theorem lit2_eq : lit2 = Basis.yW := by funext k; fin_cases k <;> rfl

theorem N_apply (W : Val) (l : Fin 7) (i : Fin 6) (j : Fin 42) (hj : j.val = 6 * l.val + i.val) :
    rd (S := S7x6) (after (seg0 : L) W (Proc.devRef .tc main_cst)) (ix2 l i) = Basis.c (Basis.nW j) := by
  unfold seg0
  after_results_simp
  simp only [rd, lit0_eq]
  refine congrArg (fun k => Basis.c (Basis.nW k)) (Fin.ext ?_)
  rw [Shape.rowMajor_val_two]
  show l.val * 6 + i.val = j.val
  omega

theorem Z_apply (W : Val) (l : Fin 7) (i : Fin 6) (j : Fin 42) (hj : j.val = 6 * l.val + i.val) :
    rd (S := S7x6) (after (seg0 : L) W (Proc.devRef .tc main_cst_0)) (ix2 l i) = Basis.c (Basis.zW j) := by
  unfold seg0
  after_results_simp
  simp only [rd, lit1_eq]
  refine congrArg (fun k => Basis.c (Basis.zW k)) (Fin.ext ?_)
  rw [Shape.rowMajor_val_two]
  show l.val * 6 + i.val = j.val
  omega

theorem Y_apply (W : Val) (l : Fin 7) :
    rd (S := S7) (after (seg0 : L) W (Proc.devRef .tc main_cst_1)) (ix1 l) = Basis.c (Basis.yW l) := by
  unfold seg0
  after_results_simp
  simp only [rd, lit2_eq]
  refine congrArg (fun k => Basis.c (Basis.yW k)) (Fin.ext ?_)
  rw [Shape.rowMajor_val_one]

/-! ## The blocks stacked -/

set_option maxHeartbeats 1000000 in
theorem C_apply (W : Val) (e : Fin 500000) (l : Fin 7) (i : Fin 6) :
    rd (S := S500000x7x6) (after (seg11 : L) W (Proc.devRef .tc main_v203)) (ix3 e l i)
      = (![rd (S := S500000x6) (W (Proc.devRef .tc main_v15)), rd (S := S500000x6) (W (Proc.devRef .tc main_v35)),
          rd (S := S500000x6) (W (Proc.devRef .tc main_v59)), rd (S := S500000x6) (W (Proc.devRef .tc main_v87)),
          rd (S := S500000x6) (W (Proc.devRef .tc main_v119)), rd (S := S500000x6) (W (Proc.devRef .tc main_v155)),
          rd (S := S500000x6) (W (Proc.devRef .tc main_v195))] l) (ix2 e i) := by
  unfold seg11
  after_results_simp
  dsimp only [Matrix.cons_val]
  simp only [rd]
  rw [cat7_mid]
  simp (disch := decide) only [nullary_result', unary_result', binary_result', ternary_result', reshape_result', nary_result', nullary_result_ne', unary_result_ne', binary_result_ne', ternary_result_ne', reshape_result_ne', nary_result_ne']
  fin_cases l <;> exact bc_nm_n1m bcast_S500000x6_S500000x1x6_0_2 _ _ _ _

/-! ## The envelope -/

set_option maxHeartbeats 2000000 in
theorem D_apply (W : Val) (e : Fin 500000) (l : Fin 7) (i : Fin 6) :
    rd (S := S500000x7x6) (after (seg13 : L) (after (seg12 : L) W) (Proc.devRef .tc main_v226)) (ix3 e l i)
      = Basis.env' (rd (S := S500000) (W (Proc.devRef .tc main_v1)) (ix1 e))
        * rd (S := S500000x7x6) (W (Proc.devRef .tc main_v203)) (ix3 e l i) := by
  rw [← after_append]
  unfold seg12 seg13
  simp only [List.cons_append, List.nil_append]
  after_results_simp
  simp only [rd, mulf, subf, addf, Host.divf, Host.sin, Host.cos, cmpf, select, constant]
  layout_read
  rfl

/-! ## The angular factor -/

set_option maxHeartbeats 4000000 in
theorem E_apply (W : Val) (t : Fin 2000000) (l : Fin 7) :
    rd (S := S2000000x7) (after (seg15 : L) (after (seg14 : L) W) (Proc.devRef .tc main_v279)) (ix2 t l)
      = Basis.leg l (Ideal.cos (rd (S := S2000000) (W (Proc.devRef .tc main_arg1)) (ix1 t)))
        * rd (S := S7) (W (Proc.devRef .tc main_cst_1)) (ix1 l) := by
  rw [← after_append]
  unfold seg14 seg15
  simp only [List.cons_append, List.nil_append]
  after_results_simp
  dsimp only [Matrix.cons_val]
  simp only [rd, mulf, subf, addf, Host.divf, Host.sin, Host.cos, cmpf, select, constant]
  rw [cat7_cols]
  simp (disch := decide) only [nullary_result', unary_result', binary_result', ternary_result', reshape_result', nary_result', nullary_result_ne', unary_result_ne', binary_result_ne', ternary_result_ne', reshape_result_ne', nary_result_ne']
  layout_read
  fin_cases l <;> (simp only [Matrix.cons_val_zero', Matrix.cons_val_succ']; layout_read; (try simp only [rd, mulf, subf, addf, Host.divf, Host.sin, Host.cos, cmpf, select, constant]); layout_read; rfl)

/-! ## The gather, the product, the merge -/

set_option maxHeartbeats 2000000 in
theorem F_apply (W : Val) (t : Fin 2000000) (l : Fin 7) (i : Fin 6) (j : Fin 42) (hj : j.val = 6 * l.val + i.val) :
    rd (S := S2000000x42) (after (seg16 : L) W (Proc.devRef .tc main_v290)) (ix2 t j)
      = rd (S := S500000x7x6) (W (Proc.devRef .tc main_v226)) (ix3 (Basis.row (rdI (S := S2000000) (W (Proc.devRef .tc main_arg2)) (ix1 t))) l i)
        * rd (S := S2000000x7) (W (Proc.devRef .tc main_v279)) (ix2 t l) := by
  unfold seg16
  after_results_simp
  simp only [rd, rdI]
  erw [merge_last (by norm_num) _ _ t l i j hj]
  simp only [rd, mulf, subf, addf, Host.divf, Host.sin, Host.cos, cmpf, select, constant, cmpi, addi, constantI]
  rw [show (gather_S500000x7x6_S2000000x1_S2000000x7x6_12_0_n_n_0_1_176 : GatherDims S500000x7x6 S2000000x1 S2000000x7x6)
      = slabDims 500000 2000000 7 6 gather_S500000x7x6_S2000000x1_S2000000x7x6_12_0_n_n_0_1_176_wf from rfl,
    gather_slab_apply (by norm_num)]
  layout_read
  refine congrArg₂ (· * ·) (congrArg (fun r => rd (S := S500000x7x6) (W (Proc.devRef .tc main_v226)) (ix3 r l i)) (Fin.ext ?_)) rfl
  dsimp only
  rw [bc_n_n1]
  rfl

end Cert.ReferenceIdeal.RefVal

end
-- ==== Proof.RefValue.lean ====
/-
  The reference's result, entry by entry.

  Folding the 334 operations segment by segment, entry `(t, j)` of the result is the product of the gathered radial
  factor and the angular factor; the radial factor at the row `r` the index word selects is the envelope of `x = d(r) / 5`
  times block `l`'s entry `n(l, i) · j_l (z(l, i) · x)`, and the angular factor is `P_l (cos a(t)) · y(l)`.  A quotient
  by `5` is the product with `1/5` on every extended real, and the product is commutative, so this is the basis entry
  `Basis.entry j (d(r) · 1/5) (cos a(t))` in the grouping the specification fixes.
-/
import proofs.«113305_j49366354100415_2_alg».proof.Proof.RefRun
import proofs.«113305_j49366354100415_2_alg».proof.Proof.RefBessel
import proofs.«113305_j49366354100415_2_alg».proof.Proof.RefStages
import proofs.«113305_j49366354100415_2_alg».proof.Proof.Spec

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo
open Idealize.ShloMosaic.ValueIdx Basis.Layout

local notation "L" => List (HloOp τ sig (Elt Ideal))
local notation "Val" => Valuation τ sig (Elt Ideal)

/-- The word `0x40A00000` denotes the real `5`. -/
theorem ofBits_five : Ideal.ofBits .f32 0x40A00000#32 = ((5 : ℝ) : EReal) := by
  simp [Ideal.ofBits, Ideal.ieee, -EReal.coe_mul]; norm_num

/-- A quotient by `5` is the product with `1/5`, at the infinities too. -/
theorem div_five (d : EReal) : Ideal.div d (Basis.c 0x40A00000#32) = d * ((1 / 5 : ℝ) : EReal) := by
  rw [Basis.c, ofBits_five]; exact Ideal.div_coe (by norm_num) d

/-- The reference's grouping of one entry — envelope first, with its own grouping of the powers — is the
    specification's: multiplication is commutative and associative. -/
theorem col_ref (l : Fin 7) (z0 n y x ct : EReal) :
    (Basis.env' x * (n * Basis.bes l (z0 * x))) * (Basis.leg l ct * y) = Basis.col l z0 n y x ct := by
  unfold Basis.col
  rw [Basis.env'_eq, mul_comm (Basis.env x)]

set_option maxHeartbeats 4000000 in
/-- THE REFERENCE AT AN ENTRY. -/
theorem ref_apply (V : Val) (t : Fin 2000000) (j : Fin 42) :
    rd (S := S2000000x42) (after (ops : L) V (Proc.devRef .tc main_v290)) (ix2 t j)
      = Basis.entry j
          (rd (S := S500000) (V (Proc.devRef .tc main_arg0)) (ix1 (Basis.row (rdI (S := S2000000) (V (Proc.devRef .tc main_arg2)) (ix1 t))))
            * ((1 / 5 : ℝ) : EReal))
          (Ideal.cos (rd (S := S2000000) (V (Proc.devRef .tc main_arg1)) (ix1 t))) := by
  obtain ⟨l, i, hj⟩ : ∃ (l : Fin 7) (i : Fin 6), j.val = 6 * l.val + i.val :=
    ⟨⟨j.val / 6, by omega⟩, ⟨j.val % 6, by omega⟩, by show j.val = 6 * (j.val / 6) + j.val % 6; omega⟩
  have hl : Basis.lOf j = l := Fin.ext (by show j.val / 6 = l.val; omega)
  rw [Basis.entry, hl, ← col_ref, ← div_five]
  rw [after_ops, F_apply _ t l i j hj]
  simp (disch := decide) only [keep0, keep1, keep2, keep3, keep4, keep5, keep6, keep7, keep8, keep9, keep10, keep11, keep12, keep13, keep14, keep15, keep16]
  rw [E_apply, D_apply]
  simp (disch := decide) only [keep0, keep1, keep2, keep3, keep4, keep5, keep6, keep7, keep8, keep9, keep10, keep11, keep12, keep13, keep14, keep15, keep16]
  rw [Y_apply, X_apply, C_apply]
  fin_cases l
  · simp only [Matrix.cons_val_zero', Matrix.cons_val_succ']
    try simp (disch := decide) only [keep0, keep1, keep2, keep3, keep4, keep5, keep6, keep7, keep8, keep9, keep10, keep11, keep12, keep13, keep14, keep15, keep16]
    rw [B0_apply]
    try simp (disch := decide) only [keep0, keep1, keep2, keep3, keep4, keep5, keep6, keep7, keep8, keep9, keep10, keep11, keep12, keep13, keep14, keep15, keep16]
    rw [N_apply _ 0 i j hj, Z_apply _ 0 i j hj, X_apply]
    rfl
  · simp only [Matrix.cons_val_zero', Matrix.cons_val_succ']
    try simp (disch := decide) only [keep0, keep1, keep2, keep3, keep4, keep5, keep6, keep7, keep8, keep9, keep10, keep11, keep12, keep13, keep14, keep15, keep16]
    rw [B1_apply]
    try simp (disch := decide) only [keep0, keep1, keep2, keep3, keep4, keep5, keep6, keep7, keep8, keep9, keep10, keep11, keep12, keep13, keep14, keep15, keep16]
    rw [N_apply _ 1 i j hj, Z_apply _ 1 i j hj, X_apply]
    rfl
  · simp only [Matrix.cons_val_zero', Matrix.cons_val_succ']
    try simp (disch := decide) only [keep0, keep1, keep2, keep3, keep4, keep5, keep6, keep7, keep8, keep9, keep10, keep11, keep12, keep13, keep14, keep15, keep16]
    rw [B2_apply]
    try simp (disch := decide) only [keep0, keep1, keep2, keep3, keep4, keep5, keep6, keep7, keep8, keep9, keep10, keep11, keep12, keep13, keep14, keep15, keep16]
    rw [N_apply _ 2 i j hj, Z_apply _ 2 i j hj, X_apply]
    rfl
  · simp only [Matrix.cons_val_zero', Matrix.cons_val_succ']
    try simp (disch := decide) only [keep0, keep1, keep2, keep3, keep4, keep5, keep6, keep7, keep8, keep9, keep10, keep11, keep12, keep13, keep14, keep15, keep16]
    rw [B3_apply]
    try simp (disch := decide) only [keep0, keep1, keep2, keep3, keep4, keep5, keep6, keep7, keep8, keep9, keep10, keep11, keep12, keep13, keep14, keep15, keep16]
    rw [N_apply _ 3 i j hj, Z_apply _ 3 i j hj, X_apply]
    rfl
  · simp only [Matrix.cons_val_zero', Matrix.cons_val_succ']
    try simp (disch := decide) only [keep0, keep1, keep2, keep3, keep4, keep5, keep6, keep7, keep8, keep9, keep10, keep11, keep12, keep13, keep14, keep15, keep16]
    rw [B4_apply]
    try simp (disch := decide) only [keep0, keep1, keep2, keep3, keep4, keep5, keep6, keep7, keep8, keep9, keep10, keep11, keep12, keep13, keep14, keep15, keep16]
    rw [N_apply _ 4 i j hj, Z_apply _ 4 i j hj, X_apply]
    rfl
  · simp only [Matrix.cons_val_zero', Matrix.cons_val_succ']
    try simp (disch := decide) only [keep0, keep1, keep2, keep3, keep4, keep5, keep6, keep7, keep8, keep9, keep10, keep11, keep12, keep13, keep14, keep15, keep16]
    rw [B5_apply]
    try simp (disch := decide) only [keep0, keep1, keep2, keep3, keep4, keep5, keep6, keep7, keep8, keep9, keep10, keep11, keep12, keep13, keep14, keep15, keep16]
    rw [N_apply _ 5 i j hj, Z_apply _ 5 i j hj, X_apply]
    rfl
  · simp only [Matrix.cons_val_zero', Matrix.cons_val_succ']
    try simp (disch := decide) only [keep0, keep1, keep2, keep3, keep4, keep5, keep6, keep7, keep8, keep9, keep10, keep11, keep12, keep13, keep14, keep15, keep16]
    rw [B6_apply]
    try simp (disch := decide) only [keep0, keep1, keep2, keep3, keep4, keep5, keep6, keep7, keep8, keep9, keep10, keep11, keep12, keep13, keep14, keep15, keep16]
    rw [N_apply _ 6 i j hj, Z_apply _ 6 i j hj, X_apply]
    rfl

/-- No operation writes an argument. -/
theorem arg0_keep (V : Val) : after (ops : L) V (Proc.devRef .tc main_arg0) = V (Proc.devRef .tc main_arg0) := by
  rw [after_ops]; simp (disch := decide) only [keep0, keep1, keep2, keep3, keep4, keep5, keep6, keep7, keep8, keep9, keep10, keep11, keep12, keep13, keep14, keep15, keep16]
theorem arg1_keep (V : Val) : after (ops : L) V (Proc.devRef .tc main_arg1) = V (Proc.devRef .tc main_arg1) := by
  rw [after_ops]; simp (disch := decide) only [keep0, keep1, keep2, keep3, keep4, keep5, keep6, keep7, keep8, keep9, keep10, keep11, keep12, keep13, keep14, keep15, keep16]
theorem arg2_keep (V : Val) : after (ops : L) V (Proc.devRef .tc main_arg2) = V (Proc.devRef .tc main_arg2) := by
  rw [after_ops]; simp (disch := decide) only [keep0, keep1, keep2, keep3, keep4, keep5, keep6, keep7, keep8, keep9, keep10, keep11, keep12, keep13, keep14, keep15, keep16]

/-- THE REFERENCE'S RUN: every weakly fair execution terminates with the result array at the basis function of the
    argument arrays and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v290)
          = Basis.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c main_v290).trans (by
      funext y
      obtain ⟨t, j, rfl⟩ : ∃ (t : Fin 2000000) (j : Fin 42), y = ix2 t j := ⟨y 0, y 1, eq_ix2 y⟩
      exact (ref_apply (launchContents m c) t j).trans (Basis.out_apply _ _ _ t j).symm),
    (h c main_arg0).trans (arg0_keep _), (h c main_arg1).trans (arg1_keep _), (h c main_arg2).trans (arg2_keep _)⟩)
    (run (F := Ideal) m ρ)

end Cert.ReferenceIdeal.RefVal

end
-- ==== Proof.lean ====
/-
  The spherical basis kernel against its reference: both compute, for every triplet `t` and every column
  `j = 6 l + i`, the entry
      n(l,i) · j_l (z(l,i) · x) · u(x) · P_l(cos a_t) · y(l),      x = d[row(idx_t)] / 5,
  of the spherical Bessel function `j_l`, the polynomial envelope `u`, the Legendre polynomial `P_l` and three tables
  of constants (`Basis.out`, Proof/Spec.lean).

  The kernel gathers the distances first (the row an index word selects: negative words wrapped, the result clamped),
  pads both vectors to a multiple of the block length, computes the 42 columns of one block of 1024 rows at every grid
  point from the block of gathered distances and the block of angles, and slices the padding rows away: its result
  array is `Basis.out` of the arguments (Proof/KValue.lean, off the generated frame run).  The reference computes the
  radial factors for every distance — seven blocks stacked along a middle axis, times the envelope —, gathers the slab
  the index word selects, multiplies by the angular factors and merges the two trailing axes: entry by entry the same
  function (Proof/RefValue.lean, off the fold of its 334 host operations).  The kernel scales by the named constant
  `1/5` where the reference divides by `5`, and the two group the products differently; on the extended reals a quotient
  by `5` is the product with `1/5` and multiplication is commutative and associative, so no finiteness is used.
-/
import proofs.«113305_j49366354100415_2_alg».proof.Defs
import proofs.«113305_j49366354100415_2_alg».proof.Proof.Gen.Kernel
import proofs.«113305_j49366354100415_2_alg».proof.Proof.Gen.Kernel.Skeleton
import proofs.«113305_j49366354100415_2_alg».proof.Proof.Gen.Kernel.Launch
import proofs.«113305_j49366354100415_2_alg».proof.Proof.Gen.Kernel.Points
import proofs.«113305_j49366354100415_2_alg».proof.Proof.Gen.Kernel.Frame
import proofs.«113305_j49366354100415_2_alg».proof.Proof.Gen.KernelIdeal
import proofs.«113305_j49366354100415_2_alg».proof.Proof.Gen.KernelIdeal.Skeleton
import proofs.«113305_j49366354100415_2_alg».proof.Proof.Gen.KernelIdeal.Launch
import proofs.«113305_j49366354100415_2_alg».proof.Proof.Gen.KernelIdeal.Points
import proofs.«113305_j49366354100415_2_alg».proof.Proof.Gen.KernelIdeal.Frame
import proofs.«113305_j49366354100415_2_alg».proof.Proof.Gen.ReferenceIdeal
import proofs.«113305_j49366354100415_2_alg».proof.Proof.Gen.Pre_finite_inputs
import proofs.«113305_j49366354100415_2_alg».proof.Proof.KValue
import proofs.«113305_j49366354100415_2_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.RefVal.run_value m ρ)

/-- The one rewrite of the idealization: the constant `0.2` is read as the rational `1/5`. -/
theorem preserves : Cert.preserves_Kernel_KernelIdeal :=
  IdealRules.named_const.statement Cert.KernelIdeal.κ "inv_5" .f32 0x3E4CCCCD#32 ((1 / 5 : ℝ) : EReal) rfl

/-- From memories agreeing on the arguments both programs end with the result array at `Basis.out` of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefVal.run_value m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
